-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096x128 : Shape := ⟨2, ![4096, 128]⟩
abbrev S8x128x128 : Shape := ⟨3, ![8, 128, 128]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S8x4096x4096 .f32) (main_arg1 : FVec F S4096x128 .f32) (main_arg2 : FVec F S8x128x128 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  main_v13
-- ==== Kernel.lean ====
abbrev S8x4096x4096 : Shape := ⟨3, ![8, 4096, 4096]⟩
abbrev S4096x128 : Shape := ⟨2, ![4096, 128]⟩
abbrev S8x128x128 : Shape := ⟨3, ![8, 128, 128]⟩
abbrev S1x1024x2048 : Shape := ⟨3, ![1, 1024, 2048]⟩
abbrev S2048x128 : Shape := ⟨2, ![2048, 128]⟩
abbrev S1x128x128 : Shape := ⟨3, ![1, 128, 128]⟩
abbrev S1024x128 : Shape := ⟨2, ![1024, 128]⟩
abbrev S1024x2048 : Shape := ⟨2, ![1024, 2048]⟩
abbrev S128x128 : Shape := ⟨2, ![128, 128]⟩

abbrev nBuf : Space → Nat
  | .hbm => 5
  | .vmem => 20
  | .smem => 0
  | _ => 0

abbrev bufTy : (tb : Table) → Fin (tcTables nBuf tb) → BufTy
  | .hbm, ⟨0, _⟩ => ⟨S8x4096x4096, .f32⟩
  | .hbm, ⟨1, _⟩ => ⟨S4096x128, .f32⟩
  | .hbm, ⟨2, _⟩ => ⟨S8x128x128, .f32⟩
  | .hbm, ⟨3, _⟩ => ⟨S4096x128, .f32⟩
  | .hbm, ⟨4, _⟩ => ⟨S4096x128, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x128, .f32⟩
  | .local _ .vmem, ⟨3, _⟩ => ⟨S2048x128, .f32⟩
  | .local _ .vmem, ⟨4, _⟩ => ⟨S1x128x128, .f32⟩
  | .local _ .vmem, ⟨5, _⟩ => ⟨S1x128x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x2048, .f32⟩
  | .local _ .vmem, ⟨11, _⟩ => ⟨S1x1024x2048, .f32⟩
  | .local _ .vmem, ⟨12, _⟩ => ⟨S2048x128, .f32⟩
  | .local _ .vmem, ⟨13, _⟩ => ⟨S2048x128, .f32⟩
  | .local _ .vmem, ⟨14, _⟩ => ⟨S1x128x128, .f32⟩
  | .local _ .vmem, ⟨15, _⟩ => ⟨S1x128x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 2], ![false, false, false]⟩

def k0_cond4 (i : grid0.Coords) : BitVec 1 :=
  let arg1 : BitVec 32 := BitVec.ofNat 32 (i 1).val
  let c7_i32 : BitVec 32 := 7#32
  let v22 : BitVec 1 := Scalar.cmpi .eq arg1 c7_i32
  let arg2 : BitVec 32 := BitVec.ofNat 32 (i 2).val
  let c1_i32_13 : BitVec 32 := 1#32
  let v23 : BitVec 1 := Scalar.cmpi .eq arg2 c1_i32_13
  let v24 : BitVec 1 := Scalar.andi v22 v23
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨3, ![4, 8, 2], ![false, false, false]⟩

def k1_cond4 (i : grid1.Coords) : BitVec 1 :=
  let arg1 : BitVec 32 := BitVec.ofNat 32 (i 1).val
  let c7_i32 : BitVec 32 := 7#32
  let v23 : BitVec 1 := Scalar.cmpi .eq arg1 c7_i32
  let arg2 : BitVec 32 := BitVec.ofNat 32 (i 2).val
  let c1_i32_13 : BitVec 32 := 1#32
  let v24 : BitVec 1 := Scalar.cmpi .eq arg2 c1_i32_13
  let v25 : BitVec 1 := Scalar.andi v23 v24
  let v26 : BitVec 32 := Scalar.extui v25
  let c0_i32_14 : BitVec 32 := 0#32
  let v27 : BitVec 1 := Scalar.cmpi .ne v26 c0_i32_14
  v27

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  transposes_S128x128_p1_0_S128x128 : S128x128.Transposes [1, 0] S128x128
  shapeCasts_S2048x128_S2048x128 : S2048x128.ShapeCasts S2048x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x4096.size a
  hwx0_0 : ∀ i : grid0.Coords, EltTy.bits .f32 = 32 ∨ (Rect.block (s := S8x4096x4096) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x128.size a
  hwx0_1 : ∀ i : grid0.Coords, EltTy.bits .f32 = 32 ∨ (Rect.block (s := S4096x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x128x128.size a
  hwx0_2 : ∀ i : grid0.Coords, EltTy.bits .f32 = 32 ∨ (Rect.block (s := S8x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .f32 = 32 ∨ (Rect.block (s := S4096x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S8x4096x4096.size a
  hwx1_0 : ∀ i : grid1.Coords, EltTy.bits .f32 = 32 ∨ (Rect.block (s := S8x4096x4096) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x128.size a
  hwx1_1 : ∀ i : grid1.Coords, EltTy.bits .f32 = 32 ∨ (Rect.block (s := S4096x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S8x128x128.size a
  hwx1_2 : ∀ i : grid1.Coords, EltTy.bits .f32 = 32 ∨ (Rect.block (s := S8x128x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

abbrev win1_0 : Pipeline.Window sig grid1 :=
  Pipeline.Window.ofSpec (Memref.whole main_arg0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S8x4096x4096 : Shape := ⟨3, ![8, 4096, 4096]⟩
abbrev S4096x128 : Shape := ⟨2, ![4096, 128]⟩
abbrev S8x128x128 : Shape := ⟨3, ![8, 128, 128]⟩
abbrev S8x4096x128 : Shape := ⟨3, ![8, 4096, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x128, .f32⟩
  | .hbm, ⟨2, _⟩ => ⟨S8x128x128, .f32⟩
  | .hbm, ⟨3, _⟩ => ⟨S8x4096x128, .f32⟩
  | .hbm, ⟨4, _⟩ => ⟨S8x4096x128, .f32⟩
  | .hbm, ⟨5, _⟩ => ⟨S_, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S8x4096x128, .f32⟩
  | .hbm, ⟨14, _⟩ => ⟨S8x4096x128, .f32⟩
  | .hbm, ⟨15, _⟩ => ⟨S_, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  reducesTo_S8x4096x128_S4096x128_d0 : S8x4096x128.ReducesTo [0] S4096x128
  h_S_ : 0 < S_.numel
  bcast_S_S4096x128 : S_.BroadcastsInDim S4096x128 (![] : Fin 0 → Fin S4096x128.rank)
  dot_S8x4096x4096_S4096x128_S8x4096x128_2_0_01_1_n_n_wf : DotDims.WF S8x4096x4096 S4096x128 S8x4096x128 [2] [0] [0, 1] [1] [] []
  dot_S8x4096x128_S8x128x128_S8x4096x128_2_2_1_1_0_0_wf : DotDims.WF S8x4096x128 S8x128x128 S8x4096x128 [2] [2] [1] [1] [0] [0]

variable [Facts₀]

def dot_S8x4096x4096_S4096x128_S8x4096x128_2_0_01_1_n_n : DotDims S8x4096x4096 S4096x128 S8x4096x128 where
  lhsContracting := [2]
  rhsContracting := [0]
  lhsNonContracting := [0, 1]
  rhsNonContracting := [1]
  lhsBatch := []
  rhsBatch := []
  wf := dot_S8x4096x4096_S4096x128_S8x4096x128_2_0_01_1_n_n_wf
def dot_S8x4096x128_S8x128x128_S8x4096x128_2_2_1_1_0_0 : DotDims S8x4096x128 S8x128x128 S8x4096x128 where
  lhsContracting := [2]
  rhsContracting := [2]
  lhsNonContracting := [1]
  rhsNonContracting := [1]
  lhsBatch := [0]
  rhsBatch := [0]
  wf := dot_S8x4096x128_S8x128x128_S8x4096x128_2_2_1_1_0_0_wf

class Facts : Prop extends Facts₀ where

variable [Facts]
-- ==== Proof.K.Step0.lean ====
/-
  One grid point of the first layer's kernel as a pure function, and the fold of the points in grid order.
  The grid is (row block, relation, contraction half), the last fastest, so point n has contraction half n % 2 and
  n % 16 = 0 is a row block's first point, n % 16 = 15 its last. The state carried from point to point is
  (the output block as last stored, the gathered-messages accumulator, the transformed-sum accumulator):
    * at a first half (n % 2 = 0) the messages accumulator restarts from zero plus this half's product, and at a row
      block's first point the transformed-sum accumulator restarts from zero;
    * at a second half the messages accumulator gains this half's product, the transformed-sum accumulator gains the
      completed messages times the relation's transform, and at a row block's last point the output block is the
      scaled positive part of that sum.
  The payloads are the kernel's own (the skeleton's); nothing is computed here.
-/
import proofs.«120576_j88519275970865_1_alg».proof.Proof.Gen.Kernel.Skeleton

noncomputable section

namespace Cert.Kernel.Hand

open Cert.Kernel Cert.Kernel.Gen
open Idealize.ShloMosaic

variable {F : FTy → Type} [FloatOps F]

/-- (output block, messages accumulator, transformed-sum accumulator). -/
abbrev St0 (F : FTy → Type) : Type := Vec F S1024x128 .f32 × Vec F S1024x128 .f32 × Vec F S1024x128 .f32

/-- The state before the first point: nothing reads it (the first point restarts both accumulators and stores no output). -/
def init0 : St0 F := (k0_pay1, k0_pay1, k0_pay1)

/-- One grid point, from the point's three input blocks, its position and the state the point before left. -/
def step0 (x3 : Vec F S1x1024x2048 .f32) (x4 : Vec F S2048x128 .f32) (x5 : Vec F S1x128x128 .f32) (n : ℕ) (s : St0 F) : St0 F :=
  if n % 2 = 0 then
    (s.1, k0_pay3 x3 x4 k0_pay1, if n % 16 = 0 then k0_pay2 else s.2.2)
  else
    (if n % 16 = 15 then k0_pay5 (k0_pay4 x5 (k0_pay3 x3 x4 s.2.1) s.2.2) else s.1,
      k0_pay3 x3 x4 s.2.1,
      k0_pay4 x5 (k0_pay3 x3 x4 s.2.1) s.2.2)

/-- The points 0 … n in order, over families of input blocks indexed by the point. -/
def run0 (X3 : ℕ → Vec F S1x1024x2048 .f32) (X4 : ℕ → Vec F S2048x128 .f32) (X5 : ℕ → Vec F S1x128x128 .f32) : ℕ → St0 F
  | 0 => step0 (X3 0) (X4 0) (X5 0) 0 init0
  | n + 1 => step0 (X3 (n + 1)) (X4 (n + 1)) (X5 (n + 1)) (n + 1) (run0 X3 X4 X5 n)

theorem run0_zero (X3 : ℕ → Vec F S1x1024x2048 .f32) (X4 : ℕ → Vec F S2048x128 .f32) (X5 : ℕ → Vec F S1x128x128 .f32) :
    run0 X3 X4 X5 0 = step0 (X3 0) (X4 0) (X5 0) 0 init0 := rfl

theorem run0_succ (X3 : ℕ → Vec F S1x1024x2048 .f32) (X4 : ℕ → Vec F S2048x128 .f32) (X5 : ℕ → Vec F S1x128x128 .f32) (n : ℕ) :
    run0 X3 X4 X5 (n + 1) = step0 (X3 (n + 1)) (X4 (n + 1)) (X5 (n + 1)) (n + 1) (run0 X3 X4 X5 n) := rfl

end Cert.Kernel.Hand

end
-- ==== Proof.K.Cases0.lean ====
import proofs.«120576_j88519275970865_1_alg».proof.Proof.Gen.Kernel.Launch
import proofs.«120576_j88519275970865_1_alg».proof.Proof.Gen.Kernel.Skeleton
import proofs.«120576_j88519275970865_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  What the four control cases of the layer kernel's body (call 0) are stated over: the body's four conditions as
  propositions about the grid coordinates, each decided over the 64 grid points in closed form (the point's number is
  16 * row block + 2 * relation + contraction half); where the output window is idle; the staging and scratch memrefs
  a point is called with; and the kernel's share of the scoped memory split into its two accumulators and the rest.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz2_0 : (![0, 0] : Fin 2 → Nat) = fun _ => 0 := funext fun a => by fin_cases a <;> rfl
theorem hz3_0 : (![0, 0, 0] : Fin 3 → Nat) = fun _ => 0 := funext fun a => by fin_cases a <;> rfl

/-! ## The body's four conditions -/

/-- "first contraction half": the messages accumulator restarts. -/
abbrev cond0_1 (i : grid0.Coords) : Prop := (Scalar.cmpi .ne (Scalar.extui (Scalar.cmpi .eq (BitVec.ofNat 32 (i 2).val) 0#32)) 0#32) = 1#1
/-- "first relation and first half": the transformed-sum accumulator restarts. -/
abbrev cond0_2 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- "last contraction half": the relation's messages are complete and go through its transform. -/
abbrev cond0_3 (i : grid0.Coords) : Prop := (Scalar.cmpi .ne (Scalar.extui (Scalar.cmpi .eq (BitVec.ofNat 32 (i 2).val) 1#32)) 0#32) = 1#1
/-- "last relation and last half": the row block's result is stored. -/
abbrev cond0_4 (i : grid0.Coords) : Prop := k0_cond4 i = 1#1

theorem hcond0_1 : ∀ t : Fin cfg0.N, cond0_1 (grid0.coords t) ↔ t.val % 2 = 0 :=
  (by decide +kernel : ∀ t : Fin grid0.N, cond0_1 (grid0.coords t) ↔ t.val % 2 = 0)
theorem hcond0_2 : ∀ t : Fin cfg0.N, cond0_2 (grid0.coords t) ↔ t.val % 16 = 0 :=
  (by decide +kernel : ∀ t : Fin grid0.N, cond0_2 (grid0.coords t) ↔ t.val % 16 = 0)
theorem hcond0_3 : ∀ t : Fin cfg0.N, cond0_3 (grid0.coords t) ↔ t.val % 2 = 1 :=
  (by decide +kernel : ∀ t : Fin grid0.N, cond0_3 (grid0.coords t) ↔ t.val % 2 = 1)
theorem hcond0_4 : ∀ t : Fin cfg0.N, cond0_4 (grid0.coords t) ↔ t.val % 16 = 15 :=
  (by decide +kernel : ∀ t : Fin grid0.N, cond0_4 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row block's last point nothing is stored into the output window, -/
theorem idleAt0_3 : ∀ t : Fin cfg0.N, ¬cond0_4 (grid0.coords t) → cfg0.idle 3 (grid0.coords t) = true := by decide +kernel
/-- and its block is not written back there; -/
theorem noFlush0_3 : ∀ t : Fin cfg0.N, ¬cond0_4 (grid0.coords t) → (cfg0.win 3).flush t = false := by decide +kernel
/-- at a row block's last point it is stored. -/
theorem liveAt0_3 : ∀ t : Fin cfg0.N, cond0_4 (grid0.coords t) → cfg0.idle 3 (grid0.coords t) = false := by decide +kernel

/-! ## The memrefs a point is called with -/

abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The messages accumulator and the transformed-sum accumulator: whole scoped buffers of the kernel's own. -/
abbrev scM0_7 : Memref sig .tc .vmem S1024x128 .f32 := Memref.whole cc0_scratch0
abbrev scM0_8 : Memref sig .tc .vmem S1024x128 .f32 := Memref.whole cc0_scratch1

/-! ## The kernel's share of the scoped memory -/

/-- Every scoped buffer that is neither a staging buffer of this call nor one of its two accumulators, at some
    contents, and the generator register at some state: what the body never touches. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ r, prngReg c r))

/-- The class's invariant hands out the two accumulators at some contents beside the rest, -/
theorem PhiA0_split (c : Dev nD) :
    (Pipeline.ΦA spec0 c : sProp 𝕄) ⊢ iprop((∃ d, owns (c : Thread nD τ) scM0_7 fullShare d) ∗ (∃ d, owns (c : Thread nD τ) scM0_8 fullShare d) ∗ Rest0 c) := by
  unfold Pipeline.ΦA Rest0; rw [scopedRest0_eq]; simp only [scM0_7, scM0_8, owns_whole]
  iintro ⟨⟨H1, H2, H3, H4, H5, H6, H7, H8, H9, H10, H11, H12⟩, Hg⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hg

/-- and takes them back. -/
theorem PhiA0_join (c : Dev nD) :
    iprop((∃ d, owns (c : Thread nD τ) scM0_7 fullShare d) ∗ (∃ d, owns (c : Thread nD τ) scM0_8 fullShare d) ∗ Rest0 c) ⊢ (Pipeline.ΦA spec0 c : sProp 𝕄) := by
  unfold Pipeline.ΦA Rest0; rw [scopedRest0_eq]; simp only [scM0_7, scM0_8, owns_whole]
  iintro ⟨H1, H2, H3, H4, H5, H6, H7, H8, H9, H10, H11, H12, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

end Cert.Kernel.Hand

end
-- ==== Proof.K.Run0A.lean ====
import proofs.«120576_j88519275970865_1_alg».proof.Proof.K.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE A — a row block's first point (first relation, first contraction half): both accumulators restart from the zero block; the messages accumulator ends at zero plus this half's product, the transformed-sum accumulator at zero; nothing is stored into the output block.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_A (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond0_1 i) (hc2 : cond0_2 i) (hc3 : ¬cond0_3 i) (hc4 : ¬cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k0_pay3 x3 x4 k0_pay1)
            ∗ owns (c : Thread nD τ) arg8 fullShare (k0_pay2)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_0 inb_S1024x128_S1024x128_0_0 y⟩), View.canon_cons_unit_zero (S := S1024x128) hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr
    swap; · iexact H8
    ipureintro
    sl_unfold_words
    rw [View.read_writes_eq_canon _ _ _ (fun y => ⟨_, List.mem_singleton_self _, View.mem_set_unit_zero hz2_0 inb_S1024x128_S1024x128_0_0 y⟩), View.canon_unit_zero hz2_0]

end Cert.Kernel.Hand

end
-- ==== Proof.K.Run0B.lean ====
import proofs.«120576_j88519275970865_1_alg».proof.Proof.K.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE B — a later relation's first contraction half: the messages accumulator restarts from the zero block and ends at zero plus this half's product; the transformed-sum accumulator and the output block are left as found.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_B (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond0_1 i) (hc2 : ¬cond0_2 i) (hc3 : ¬cond0_3 i) (hc4 : ¬cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k0_pay3 x3 x4 k0_pay1)
            ∗ owns (c : Thread nD τ) arg8 fullShare (xs8)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_0 inb_S1024x128_S1024x128_0_0 y⟩), View.canon_cons_unit_zero (S := S1024x128) hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr; · ipureintro; exact harg8.read_unread _
    iexact H8

end Cert.Kernel.Hand

end
-- ==== Proof.K.Run0C.lean ====
import proofs.«120576_j88519275970865_1_alg».proof.Proof.K.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE C — a second contraction half before the last relation: the messages accumulator gains this half's product, and the transformed-sum accumulator gains the completed messages through the relation's transform; the output block is left as found.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_C (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond0_1 i) (hc2 : ¬cond0_2 i) (hc3 : cond0_3 i) (hc4 : ¬cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k0_pay3 x3 x4 xs7)
            ∗ owns (c : Thread nD τ) arg8 fullShare (k0_pay4 x5 (k0_pay3 x3 x4 xs7) xs8)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2_0 inb_S1024x128_S1024x128_0_0 y⟩), View.canon_unit_zero hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr
    swap; · iexact H8
    ipureintro
    sl_unfold_words
    rw [View.read_writes_eq_canon _ _ _ (fun y => ⟨_, List.mem_singleton_self _, View.mem_set_unit_zero hz2_0 inb_S1024x128_S1024x128_0_0 y⟩), View.canon_unit_zero hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]

end Cert.Kernel.Hand

end
-- ==== Proof.K.Run0D.lean ====
import proofs.«120576_j88519275970865_1_alg».proof.Proof.K.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE D — a row block's last point (last relation, second contraction half): as in case C, and the output block is stored: the scaled positive part of the completed transformed sum.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_D (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond0_1 i) (hc2 : ¬cond0_2 i) (hc3 : cond0_3 i) (hc4 : cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (k0_pay5 (k0_pay4 x5 (k0_pay3 x3 x4 xs7) xs8))
            ∗ owns (c : Thread nD τ) arg7 fullShare (k0_pay3 x3 x4 xs7)
            ∗ owns (c : Thread nD τ) arg8 fullShare (k0_pay4 x5 (k0_pay3 x3 x4 xs7) xs8)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero hz2_0 inb_S1024x128_S1024x128_0_0 y⟩), View.canon_unit_zero hz2_0, View.readCov_unit_zero (S := S1024x128) _ hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  isplitl [H7]
  · iexists _; isplitr
    swap; · iexact H7
    ipureintro
    sl_unfold_words
    rw [View.read_writes_eq_canon _ _ _ (fun y => ⟨_, List.mem_singleton_self _, View.mem_set_unit_zero hz2_0 inb_S1024x128_S1024x128_0_0 y⟩), View.canon_unit_zero hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr
    swap; · iexact H8
    ipureintro
    sl_unfold_words
    rw [View.read_writes_eq_canon _ _ _ (fun y => ⟨_, List.mem_singleton_self _, View.mem_set_unit_zero hz2_0 inb_S1024x128_S1024x128_0_0 y⟩), View.canon_unit_zero hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]

end Cert.Kernel.Hand

end
-- ==== Proof.K.Dat0.lean ====
import proofs.«120576_j88519275970865_1_alg».proof.Proof.K.Step0
import proofs.«120576_j88519275970865_1_alg».proof.Proof.K.Run0A
import proofs.«120576_j88519275970865_1_alg».proof.Proof.K.Run0B
import proofs.«120576_j88519275970865_1_alg».proof.Proof.K.Run0C
import proofs.«120576_j88519275970865_1_alg».proof.Proof.K.Run0D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The proof data of layer call 0, at a parameter `V` (the TensorCore's buffer contents when the region is entered).
  Each input window's block at a point is read off its array; the state after point n — the output block as last stored
  and the two accumulators — is the fold of the pure step function over the points' blocks (Step0); the invariant
  before a point holds the two accumulators at what the point before left (before the first point: at anything) beside
  the scoped memory the body never touches. The body obligation is a case split on the point's number modulo 2 and 16:
  each of the four cases is that case's run of the body, handed the accumulators at the previous state and handing them
  back at this point's.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block index
    has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block index
    has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block index
    has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 0's block by the point's number (past the grid: a block nothing reads). -/
def X3at0 (c : Dev nD) (n : ℕ) : Vec F S1x1024x2048 .f32 :=
  if h : n < cfg0.N then iblk0 V c 0 ⟨n, h⟩ else fun _ => (Scalar.ofBits .f32 0x00000000#32 : F .f32)
theorem X3at0_lt (c : Dev nD) (t : Fin cfg0.N) : X3at0 V c t.val = iblk0 V c 0 t := by
  unfold X3at0; rw [dif_pos t.isLt]

/-- Window 1's block by the point's number (past the grid: a block nothing reads). -/
def X4at0 (c : Dev nD) (n : ℕ) : Vec F S2048x128 .f32 :=
  if h : n < cfg0.N then iblk0 V c 1 ⟨n, h⟩ else fun _ => (Scalar.ofBits .f32 0x00000000#32 : F .f32)
theorem X4at0_lt (c : Dev nD) (t : Fin cfg0.N) : X4at0 V c t.val = iblk0 V c 1 t := by
  unfold X4at0; rw [dif_pos t.isLt]

/-- Window 2's block by the point's number (past the grid: a block nothing reads). -/
def X5at0 (c : Dev nD) (n : ℕ) : Vec F S1x128x128 .f32 :=
  if h : n < cfg0.N then iblk0 V c 2 ⟨n, h⟩ else fun _ => (Scalar.ofBits .f32 0x00000000#32 : F .f32)
theorem X5at0_lt (c : Dev nD) (t : Fin cfg0.N) : X5at0 V c t.val = iblk0 V c 2 t := by
  unfold X5at0; rw [dif_pos t.isLt]

/-! ## The state after each point -/

/-- (output block, messages accumulator, transformed-sum accumulator) after point `n`. -/
def outs0 (c : Dev nD) (n : ℕ) : St0 F := run0 (X3at0 V c) (X4at0 V c) (X5at0 V c) n

/-- The state a point starts from. -/
def prev0 (c : Dev nD) (t : Fin cfg0.N) : St0 F := if t.val = 0 then init0 else outs0 V c (t.val - 1)

theorem prev0_pos (c : Dev nD) (t : Fin cfg0.N) (h : t.val ≠ 0) : prev0 V c t = outs0 V c (t.val - 1) := by
  unfold prev0; rw [if_neg h]

/-- One point: the step function at the point's blocks, from the state the point starts from. -/
theorem outs0_at (c : Dev nD) (t : Fin cfg0.N) :
    outs0 V c t.val = step0 (iblk0 V c 0 t) (iblk0 V c 1 t) (iblk0 V c 2 t) t.val (prev0 V c t) := by
  rw [← X3at0_lt V c t, ← X4at0_lt V c t, ← X5at0_lt V c t]
  obtain ⟨n, hn⟩ := t
  cases n with
  | zero => rfl
  | succ n => exact (run0_succ _ _ _ n).trans (by unfold prev0 outs0; rw [if_neg (Nat.succ_ne_zero n)]; rfl)

theorem outs0_A (c : Dev nD) (t : Fin cfg0.N) (h2 : t.val % 2 = 0) (h16 : t.val % 16 = 0) :
    outs0 V c t.val = ((prev0 V c t).1, k0_pay3 (iblk0 V c 0 t) (iblk0 V c 1 t) k0_pay1, k0_pay2) := by
  rw [outs0_at]; unfold step0; rw [if_pos h2, if_pos h16]
theorem outs0_B (c : Dev nD) (t : Fin cfg0.N) (h2 : t.val % 2 = 0) (h16 : ¬t.val % 16 = 0) :
    outs0 V c t.val = ((prev0 V c t).1, k0_pay3 (iblk0 V c 0 t) (iblk0 V c 1 t) k0_pay1, (prev0 V c t).2.2) := by
  rw [outs0_at]; unfold step0; rw [if_pos h2, if_neg h16]
theorem outs0_C (c : Dev nD) (t : Fin cfg0.N) (h2 : ¬t.val % 2 = 0) (h15 : ¬t.val % 16 = 15) :
    outs0 V c t.val = ((prev0 V c t).1, k0_pay3 (iblk0 V c 0 t) (iblk0 V c 1 t) (prev0 V c t).2.1,
      k0_pay4 (iblk0 V c 2 t) (k0_pay3 (iblk0 V c 0 t) (iblk0 V c 1 t) (prev0 V c t).2.1) (prev0 V c t).2.2) := by
  rw [outs0_at]; unfold step0; rw [if_neg h2, if_neg h15]
theorem outs0_D (c : Dev nD) (t : Fin cfg0.N) (h2 : ¬t.val % 2 = 0) (h15 : t.val % 16 = 15) :
    outs0 V c t.val = (k0_pay5 (k0_pay4 (iblk0 V c 2 t) (k0_pay3 (iblk0 V c 0 t) (iblk0 V c 1 t) (prev0 V c t).2.1) (prev0 V c t).2.2),
      k0_pay3 (iblk0 V c 0 t) (iblk0 V c 1 t) (prev0 V c t).2.1,
      k0_pay4 (iblk0 V c 2 t) (k0_pay3 (iblk0 V c 0 t) (iblk0 V c 1 t) (prev0 V c t).2.1) (prev0 V c t).2.2) := by
  rw [outs0_at]; unfold step0; rw [if_neg h2, if_pos h15]

/-! ## The invariant -/

/-- Before position `n`: at the start the class's invariant (both accumulators at anything); afterwards the two
    accumulators at what the point before left, beside the untouched rest. -/
def PhiS0 (c : Dev nD) : ℕ → sProp 𝕄
  | 0 => Pipeline.ΦA spec0 c
  | n + 1 => iprop(owns (c : Thread nD τ) scM0_7 fullShare (outs0 V c n).2.1 ∗ owns (c : Thread nD τ) scM0_8 fullShare (outs0 V c n).2.2 ∗ Rest0 c)

theorem PhiS0_succ (c : Dev nD) (n : ℕ) :
    PhiS0 V c (n + 1) = iprop(owns (c : Thread nD τ) scM0_7 fullShare (outs0 V c n).2.1 ∗ owns (c : Thread nD τ) scM0_8 fullShare (outs0 V c n).2.2 ∗ Rest0 c) := rfl

theorem PhiS0_pos (c : Dev nD) (n : ℕ) (hn : n ≠ 0) :
    PhiS0 V c n = iprop(owns (c : Thread nD τ) scM0_7 fullShare (outs0 V c (n - 1)).2.1 ∗ owns (c : Thread nD τ) scM0_8 fullShare (outs0 V c (n - 1)).2.2 ∗ Rest0 c) := by
  cases n with
  | zero => exact absurd rfl hn
  | succ n => rfl

/-- What a point is handed: the two accumulators at SOME contents — the previous point's, when there is one — and the rest. -/
theorem PhiS0_open (c : Dev nD) (t : Fin cfg0.N) :
    PhiS0 V c t.val ⊢ iprop(∃ s7 s8, ⌜t.val ≠ 0 → s7 = (prev0 V c t).2.1 ∧ s8 = (prev0 V c t).2.2⌝
      ∗ owns (c : Thread nD τ) scM0_7 fullShare s7 ∗ owns (c : Thread nD τ) scM0_8 fullShare s8 ∗ Rest0 c) := by
  by_cases hz : t.val = 0
  · rw [hz]
    refine (PhiA0_split c).trans ?_
    iintro ⟨⟨%d7, H7⟩, ⟨%d8, H8⟩, HR⟩
    iexists d7, d8
    isplitr; · ipureintro; exact fun h => absurd rfl h
    isplitl [H7]; · iexact H7
    isplitl [H8]; · iexact H8
    iexact HR
  · rw [PhiS0_pos V c _ hz, prev0_pos V c t hz]
    iintro ⟨H7, H8, HR⟩
    iexists _, _
    isplitr; · ipureintro; exact fun _ => ⟨rfl, rfl⟩
    isplitl [H7]; · iexact H7
    isplitl [H8]; · iexact H8
    iexact HR

/-! ## The proof data -/

/-- The arrays as the region finds them; after the body each input's buffer at its block and the output's at the
    state's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outs0 V c t.val).1
  Φ t := PhiS0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = PhiS0 V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outs0 V c t.val).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's number modulo 2 and 16 says which case it
    is in; the invariant hands over the accumulators at the previous state and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  by_cases h2 : t.val % 2 = 0
  · have HC4N : ¬cond0_4 (grid0.coords t) := fun h => absurd ((hcond0_4 t).mp h) (by omega)
    rw [Dat.leavesExact_idle (dat0 V c) 3 t (idleAt0_3 t HC4N) (noFlush0_3 t HC4N)]
    by_cases h16 : t.val % 16 = 0
    · rw [outs0_A V c t h2 h16]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      iapply (run0_A c (grid0.coords t) _ _ _ _ _ _ _ _ _ _ _ _ ((hcond0_1 t).mpr h2) ((hcond0_2 t).mpr h16) (fun h => absurd ((hcond0_3 t).mp h) (by omega)) (fun h => absurd ((hcond0_4 t).mp h) (by omega)) (iblk0 V c 0 t) (iblk0 V c 1 t) (iblk0 V c 2 t) ((dat0 V c).before 3 t d3) s7 s8 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
    · rw [outs0_B V c t h2 h16]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      obtain ⟨-, rfl⟩ := hs (by omega)
      iapply (run0_B c (grid0.coords t) _ _ _ _ _ _ _ _ _ _ _ _ ((hcond0_1 t).mpr h2) (fun h => h16 ((hcond0_2 t).mp h)) (fun h => absurd ((hcond0_3 t).mp h) (by omega)) (fun h => absurd ((hcond0_4 t).mp h) (by omega)) (iblk0 V c 0 t) (iblk0 V c 1 t) (iblk0 V c 2 t) ((dat0 V c).before 3 t d3) s7 (prev0 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
  · by_cases h15 : t.val % 16 = 15
    · rw [show (dat0 V c).leavesExact 3 t = owns (c : Thread nD τ) (ms0_3 t) fullShare ((dat0 V c).after 3 t) from by
        unfold Dat.leavesExact; rw [liveAt0_3 t ((hcond0_4 t).mpr h15)], after0_3]
      rw [outs0_D V c t h2 h15]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      obtain ⟨rfl, rfl⟩ := hs (by omega)
      iapply (run0_D c (grid0.coords t) _ _ _ _ _ _ _ _ _ _ _ _ (fun h => h2 ((hcond0_1 t).mp h)) (fun h => absurd ((hcond0_2 t).mp h) (by omega)) ((hcond0_3 t).mpr (by omega)) ((hcond0_4 t).mpr h15) (iblk0 V c 0 t) (iblk0 V c 1 t) (iblk0 V c 2 t) ((dat0 V c).before 3 t d3) (prev0 V c t).2.1 (prev0 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexact H3
    · have HC4N : ¬cond0_4 (grid0.coords t) := fun h => h15 ((hcond0_4 t).mp h)
      rw [Dat.leavesExact_idle (dat0 V c) 3 t (idleAt0_3 t HC4N) (noFlush0_3 t HC4N)]
      rw [outs0_C V c t h2 h15]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      obtain ⟨rfl, rfl⟩ := hs (by omega)
      iapply (run0_C c (grid0.coords t) _ _ _ _ _ _ _ _ _ _ _ _ (fun h => h2 ((hcond0_1 t).mp h)) (fun h => absurd ((hcond0_2 t).mp h) (by omega)) ((hcond0_3 t).mpr (by omega)) (fun h => h15 ((hcond0_4 t).mp h)) (iblk0 V c 0 t) (iblk0 V c 1 t) (iblk0 V c 2 t) ((dat0 V c).before 3 t d3) (prev0 V c t).2.1 (prev0 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := .rfl

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c _ (by rw [show cfg0.N = 64 from N_0]; decide)]
  refine .trans ?_ (PhiA0_join c)
  iintro ⟨H7, H8, HR⟩
  isplitl [H7]; · iexists _; iexact H7
  isplitl [H8]; · iexists _; iexact H8
  iexact HR

end Cert.Kernel.Hand

end
-- ==== Proof.K.Step1.lean ====
/-
  One grid point of the second layer's kernel as a pure function, and the fold of the points in grid order.
  The grid is (row block, relation, contraction half), the last fastest, so point n has contraction half n % 2 and
  n % 16 = 0 is a row block's first point, n % 16 = 15 its last. The state carried from point to point is
  (the output block as last stored, the gathered-messages accumulator, the transformed-sum accumulator):
    * at a first half (n % 2 = 0) the messages accumulator restarts from zero plus this half's product, and at a row
      block's first point the transformed-sum accumulator restarts from zero;
    * at a second half the messages accumulator gains this half's product, the transformed-sum accumulator gains the
      completed messages times the relation's transform, and at a row block's last point the output block is the
      scaled positive part of that sum.
  The payloads are the kernel's own (the skeleton's); nothing is computed here.
-/
import proofs.«120576_j88519275970865_1_alg».proof.Proof.Gen.Kernel.Skeleton

noncomputable section

namespace Cert.Kernel.Hand

open Cert.Kernel Cert.Kernel.Gen
open Idealize.ShloMosaic

variable {F : FTy → Type} [FloatOps F]

/-- (output block, messages accumulator, transformed-sum accumulator). -/
abbrev St1 (F : FTy → Type) : Type := Vec F S1024x128 .f32 × Vec F S1024x128 .f32 × Vec F S1024x128 .f32

/-- The state before the first point: nothing reads it (the first point restarts both accumulators and stores no output). -/
def init1 : St1 F := (k1_pay1, k1_pay1, k1_pay1)

/-- One grid point, from the point's three input blocks, its position and the state the point before left. -/
def step1 (x3 : Vec F S1x1024x2048 .f32) (x4 : Vec F S2048x128 .f32) (x5 : Vec F S1x128x128 .f32) (n : ℕ) (s : St1 F) : St1 F :=
  if n % 2 = 0 then
    (s.1, k1_pay3 x3 x4 k1_pay1, if n % 16 = 0 then k1_pay2 else s.2.2)
  else
    (if n % 16 = 15 then k1_pay5 (k1_pay4 x5 (k1_pay3 x3 x4 s.2.1) s.2.2) else s.1,
      k1_pay3 x3 x4 s.2.1,
      k1_pay4 x5 (k1_pay3 x3 x4 s.2.1) s.2.2)

/-- The points 0 … n in order, over families of input blocks indexed by the point. -/
def run1 (X3 : ℕ → Vec F S1x1024x2048 .f32) (X4 : ℕ → Vec F S2048x128 .f32) (X5 : ℕ → Vec F S1x128x128 .f32) : ℕ → St1 F
  | 0 => step1 (X3 0) (X4 0) (X5 0) 0 init1
  | n + 1 => step1 (X3 (n + 1)) (X4 (n + 1)) (X5 (n + 1)) (n + 1) (run1 X3 X4 X5 n)

theorem run1_zero (X3 : ℕ → Vec F S1x1024x2048 .f32) (X4 : ℕ → Vec F S2048x128 .f32) (X5 : ℕ → Vec F S1x128x128 .f32) :
    run1 X3 X4 X5 0 = step1 (X3 0) (X4 0) (X5 0) 0 init1 := rfl

theorem run1_succ (X3 : ℕ → Vec F S1x1024x2048 .f32) (X4 : ℕ → Vec F S2048x128 .f32) (X5 : ℕ → Vec F S1x128x128 .f32) (n : ℕ) :
    run1 X3 X4 X5 (n + 1) = step1 (X3 (n + 1)) (X4 (n + 1)) (X5 (n + 1)) (n + 1) (run1 X3 X4 X5 n) := rfl

end Cert.Kernel.Hand

end
-- ==== Proof.K.Cases1.lean ====
import proofs.«120576_j88519275970865_1_alg».proof.Proof.Gen.Kernel.Launch
import proofs.«120576_j88519275970865_1_alg».proof.Proof.Gen.Kernel.Skeleton
import proofs.«120576_j88519275970865_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  What the four control cases of the layer kernel's body (call 1) are stated over: the body's four conditions as
  propositions about the grid coordinates, each decided over the 64 grid points in closed form (the point's number is
  16 * row block + 2 * relation + contraction half); where the output window is idle; the staging and scratch memrefs
  a point is called with; and the kernel's share of the scoped memory split into its two accumulators and the rest.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## The body's four conditions -/

/-- "first contraction half": the messages accumulator restarts. -/
abbrev cond1_1 (i : grid1.Coords) : Prop := (Scalar.cmpi .ne (Scalar.extui (Scalar.cmpi .eq (BitVec.ofNat 32 (i 2).val) 0#32)) 0#32) = 1#1
/-- "first relation and first half": the transformed-sum accumulator restarts. -/
abbrev cond1_2 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- "last contraction half": the relation's messages are complete and go through its transform. -/
abbrev cond1_3 (i : grid1.Coords) : Prop := (Scalar.cmpi .ne (Scalar.extui (Scalar.cmpi .eq (BitVec.ofNat 32 (i 2).val) 1#32)) 0#32) = 1#1
/-- "last relation and last half": the row block's result is stored. -/
abbrev cond1_4 (i : grid1.Coords) : Prop := k1_cond4 i = 1#1

theorem hcond1_1 : ∀ t : Fin cfg1.N, cond1_1 (grid1.coords t) ↔ t.val % 2 = 0 :=
  (by decide +kernel : ∀ t : Fin grid1.N, cond1_1 (grid1.coords t) ↔ t.val % 2 = 0)
theorem hcond1_2 : ∀ t : Fin cfg1.N, cond1_2 (grid1.coords t) ↔ t.val % 16 = 0 :=
  (by decide +kernel : ∀ t : Fin grid1.N, cond1_2 (grid1.coords t) ↔ t.val % 16 = 0)
theorem hcond1_3 : ∀ t : Fin cfg1.N, cond1_3 (grid1.coords t) ↔ t.val % 2 = 1 :=
  (by decide +kernel : ∀ t : Fin grid1.N, cond1_3 (grid1.coords t) ↔ t.val % 2 = 1)
theorem hcond1_4 : ∀ t : Fin cfg1.N, cond1_4 (grid1.coords t) ↔ t.val % 16 = 15 :=
  (by decide +kernel : ∀ t : Fin grid1.N, cond1_4 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row block's last point nothing is stored into the output window, -/
theorem idleAt1_3 : ∀ t : Fin cfg1.N, ¬cond1_4 (grid1.coords t) → cfg1.idle 3 (grid1.coords t) = true := by decide +kernel
/-- and its block is not written back there; -/
theorem noFlush1_3 : ∀ t : Fin cfg1.N, ¬cond1_4 (grid1.coords t) → (cfg1.win 3).flush t = false := by decide +kernel
/-- at a row block's last point it is stored. -/
theorem liveAt1_3 : ∀ t : Fin cfg1.N, cond1_4 (grid1.coords t) → cfg1.idle 3 (grid1.coords t) = false := by decide +kernel

/-! ## The memrefs a point is called with -/

abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The messages accumulator and the transformed-sum accumulator: whole scoped buffers of the kernel's own. -/
abbrev scM1_7 : Memref sig .tc .vmem S1024x128 .f32 := Memref.whole cc1_scratch0
abbrev scM1_8 : Memref sig .tc .vmem S1024x128 .f32 := Memref.whole cc1_scratch1

/-! ## The kernel's share of the scoped memory -/

/-- Every scoped buffer that is neither a staging buffer of this call nor one of its two accumulators, at some
    contents, and the generator register at some state: what the body never touches. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ r, prngReg c r))

/-- The class's invariant hands out the two accumulators at some contents beside the rest, -/
theorem PhiA1_split (c : Dev nD) :
    (Pipeline.ΦA spec1 c : sProp 𝕄) ⊢ iprop((∃ d, owns (c : Thread nD τ) scM1_7 fullShare d) ∗ (∃ d, owns (c : Thread nD τ) scM1_8 fullShare d) ∗ Rest1 c) := by
  unfold Pipeline.ΦA Rest1; rw [scopedRest1_eq]; simp only [scM1_7, scM1_8, owns_whole]
  iintro ⟨⟨H1, H2, H3, H4, H5, H6, H7, H8, H9, H10, H11, H12⟩, Hg⟩
  isplitl [H11]; · iexact H11
  isplitl [H12]; · iexact H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hg

/-- and takes them back. -/
theorem PhiA1_join (c : Dev nD) :
    iprop((∃ d, owns (c : Thread nD τ) scM1_7 fullShare d) ∗ (∃ d, owns (c : Thread nD τ) scM1_8 fullShare d) ∗ Rest1 c) ⊢ (Pipeline.ΦA spec1 c : sProp 𝕄) := by
  unfold Pipeline.ΦA Rest1; rw [scopedRest1_eq]; simp only [scM1_7, scM1_8, owns_whole]
  iintro ⟨H11, H12, H1, H2, H3, H4, H5, H6, H7, H8, H9, H10, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

end Cert.Kernel.Hand

end
-- ==== Proof.K.Run1A.lean ====
import proofs.«120576_j88519275970865_1_alg».proof.Proof.K.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE A — a row block's first point (first relation, first contraction half): both accumulators restart from the zero block; the messages accumulator ends at zero plus this half's product, the transformed-sum accumulator at zero; nothing is stored into the output block.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_A (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond1_1 i) (hc2 : cond1_2 i) (hc3 : ¬cond1_3 i) (hc4 : ¬cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k1_pay3 x3 x4 k1_pay1)
            ∗ owns (c : Thread nD τ) arg8 fullShare (k1_pay2)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr
    swap; · iexact H8
    ipureintro
    sl_unfold_words
    rw [View.read_writes_eq_canon _ _ _ (fun y => ⟨_, List.mem_singleton_self _, View.mem_set_unit_zero hz2_1 inb_S1024x128_S1024x128_0_0 y⟩), View.canon_unit_zero hz2_1]

end Cert.Kernel.Hand

end
-- ==== Proof.K.Run1B.lean ====
import proofs.«120576_j88519275970865_1_alg».proof.Proof.K.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE B — a later relation's first contraction half: the messages accumulator restarts from the zero block and ends at zero plus this half's product; the transformed-sum accumulator and the output block are left as found.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_B (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond1_1 i) (hc2 : ¬cond1_2 i) (hc3 : ¬cond1_3 i) (hc4 : ¬cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k1_pay3 x3 x4 k1_pay1)
            ∗ owns (c : Thread nD τ) arg8 fullShare (xs8)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr; · ipureintro; exact harg8.read_unread _
    iexact H8

end Cert.Kernel.Hand

end
-- ==== Proof.K.Run1C.lean ====
import proofs.«120576_j88519275970865_1_alg».proof.Proof.K.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE C — a second contraction half before the last relation: the messages accumulator gains this half's product, and the transformed-sum accumulator gains the completed messages through the relation's transform; the output block is left as found.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_C (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond1_1 i) (hc2 : ¬cond1_2 i) (hc3 : cond1_3 i) (hc4 : ¬cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k1_pay3 x3 x4 xs7)
            ∗ owns (c : Thread nD τ) arg8 fullShare (k1_pay4 x5 (k1_pay3 x3 x4 xs7) xs8)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2_1 inb_S1024x128_S1024x128_0_0 y⟩), View.canon_unit_zero hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr
    swap; · iexact H8
    ipureintro
    sl_unfold_words
    rw [View.read_writes_eq_canon _ _ _ (fun y => ⟨_, List.mem_singleton_self _, View.mem_set_unit_zero hz2_1 inb_S1024x128_S1024x128_0_0 y⟩), View.canon_unit_zero hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]

end Cert.Kernel.Hand

end
-- ==== Proof.K.Run1D.lean ====
import proofs.«120576_j88519275970865_1_alg».proof.Proof.K.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE D — a row block's last point (last relation, second contraction half): as in case C, and the output block is stored: the scaled positive part of the completed transformed sum.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_D (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond1_1 i) (hc2 : ¬cond1_2 i) (hc3 : cond1_3 i) (hc4 : cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (k1_pay5 (k1_pay4 x5 (k1_pay3 x3 x4 xs7) xs8))
            ∗ owns (c : Thread nD τ) arg7 fullShare (k1_pay3 x3 x4 xs7)
            ∗ owns (c : Thread nD τ) arg8 fullShare (k1_pay4 x5 (k1_pay3 x3 x4 xs7) xs8)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero hz2_1 inb_S1024x128_S1024x128_0_0 y⟩), View.canon_unit_zero hz2_1, View.readCov_unit_zero (S := S1024x128) _ hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  isplitl [H7]
  · iexists _; isplitr
    swap; · iexact H7
    ipureintro
    sl_unfold_words
    rw [View.read_writes_eq_canon _ _ _ (fun y => ⟨_, List.mem_singleton_self _, View.mem_set_unit_zero hz2_1 inb_S1024x128_S1024x128_0_0 y⟩), View.canon_unit_zero hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr
    swap; · iexact H8
    ipureintro
    sl_unfold_words
    rw [View.read_writes_eq_canon _ _ _ (fun y => ⟨_, List.mem_singleton_self _, View.mem_set_unit_zero hz2_1 inb_S1024x128_S1024x128_0_0 y⟩), View.canon_unit_zero hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]

end Cert.Kernel.Hand

end
-- ==== Proof.K.Dat1.lean ====
import proofs.«120576_j88519275970865_1_alg».proof.Proof.K.Step1
import proofs.«120576_j88519275970865_1_alg».proof.Proof.K.Run1A
import proofs.«120576_j88519275970865_1_alg».proof.Proof.K.Run1B
import proofs.«120576_j88519275970865_1_alg».proof.Proof.K.Run1C
import proofs.«120576_j88519275970865_1_alg».proof.Proof.K.Run1D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The proof data of layer call 1, at a parameter `V` (the TensorCore's buffer contents when the region is entered).
  Each input window's block at a point is read off its array; the state after point n — the output block as last stored
  and the two accumulators — is the fold of the pure step function over the points' blocks (Step1); the invariant
  before a point holds the two accumulators at what the point before left (before the first point: at anything) beside
  the scoped memory the body never touches. The body obligation is a case split on the point's number modulo 2 and 16:
  each of the four cases is that case's run of the body, handed the accumulators at the previous state and handing them
  back at this point's.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block index
    has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block index
    has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block index
    has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 0's block by the point's number (past the grid: a block nothing reads). -/
def X3at1 (c : Dev nD) (n : ℕ) : Vec F S1x1024x2048 .f32 :=
  if h : n < cfg1.N then iblk1 V c 0 ⟨n, h⟩ else fun _ => (Scalar.ofBits .f32 0x00000000#32 : F .f32)
theorem X3at1_lt (c : Dev nD) (t : Fin cfg1.N) : X3at1 V c t.val = iblk1 V c 0 t := by
  unfold X3at1; rw [dif_pos t.isLt]

/-- Window 1's block by the point's number (past the grid: a block nothing reads). -/
def X4at1 (c : Dev nD) (n : ℕ) : Vec F S2048x128 .f32 :=
  if h : n < cfg1.N then iblk1 V c 1 ⟨n, h⟩ else fun _ => (Scalar.ofBits .f32 0x00000000#32 : F .f32)
theorem X4at1_lt (c : Dev nD) (t : Fin cfg1.N) : X4at1 V c t.val = iblk1 V c 1 t := by
  unfold X4at1; rw [dif_pos t.isLt]

/-- Window 2's block by the point's number (past the grid: a block nothing reads). -/
def X5at1 (c : Dev nD) (n : ℕ) : Vec F S1x128x128 .f32 :=
  if h : n < cfg1.N then iblk1 V c 2 ⟨n, h⟩ else fun _ => (Scalar.ofBits .f32 0x00000000#32 : F .f32)
theorem X5at1_lt (c : Dev nD) (t : Fin cfg1.N) : X5at1 V c t.val = iblk1 V c 2 t := by
  unfold X5at1; rw [dif_pos t.isLt]

/-! ## The state after each point -/

/-- (output block, messages accumulator, transformed-sum accumulator) after point `n`. -/
def outs1 (c : Dev nD) (n : ℕ) : St1 F := run1 (X3at1 V c) (X4at1 V c) (X5at1 V c) n

/-- The state a point starts from. -/
def prev1 (c : Dev nD) (t : Fin cfg1.N) : St1 F := if t.val = 0 then init1 else outs1 V c (t.val - 1)

theorem prev1_pos (c : Dev nD) (t : Fin cfg1.N) (h : t.val ≠ 0) : prev1 V c t = outs1 V c (t.val - 1) := by
  unfold prev1; rw [if_neg h]

/-- One point: the step function at the point's blocks, from the state the point starts from. -/
theorem outs1_at (c : Dev nD) (t : Fin cfg1.N) :
    outs1 V c t.val = step1 (iblk1 V c 0 t) (iblk1 V c 1 t) (iblk1 V c 2 t) t.val (prev1 V c t) := by
  rw [← X3at1_lt V c t, ← X4at1_lt V c t, ← X5at1_lt V c t]
  obtain ⟨n, hn⟩ := t
  cases n with
  | zero => rfl
  | succ n => exact (run1_succ _ _ _ n).trans (by unfold prev1 outs1; rw [if_neg (Nat.succ_ne_zero n)]; rfl)

theorem outs1_A (c : Dev nD) (t : Fin cfg1.N) (h2 : t.val % 2 = 0) (h16 : t.val % 16 = 0) :
    outs1 V c t.val = ((prev1 V c t).1, k1_pay3 (iblk1 V c 0 t) (iblk1 V c 1 t) k1_pay1, k1_pay2) := by
  rw [outs1_at]; unfold step1; rw [if_pos h2, if_pos h16]
theorem outs1_B (c : Dev nD) (t : Fin cfg1.N) (h2 : t.val % 2 = 0) (h16 : ¬t.val % 16 = 0) :
    outs1 V c t.val = ((prev1 V c t).1, k1_pay3 (iblk1 V c 0 t) (iblk1 V c 1 t) k1_pay1, (prev1 V c t).2.2) := by
  rw [outs1_at]; unfold step1; rw [if_pos h2, if_neg h16]
theorem outs1_C (c : Dev nD) (t : Fin cfg1.N) (h2 : ¬t.val % 2 = 0) (h15 : ¬t.val % 16 = 15) :
    outs1 V c t.val = ((prev1 V c t).1, k1_pay3 (iblk1 V c 0 t) (iblk1 V c 1 t) (prev1 V c t).2.1,
      k1_pay4 (iblk1 V c 2 t) (k1_pay3 (iblk1 V c 0 t) (iblk1 V c 1 t) (prev1 V c t).2.1) (prev1 V c t).2.2) := by
  rw [outs1_at]; unfold step1; rw [if_neg h2, if_neg h15]
theorem outs1_D (c : Dev nD) (t : Fin cfg1.N) (h2 : ¬t.val % 2 = 0) (h15 : t.val % 16 = 15) :
    outs1 V c t.val = (k1_pay5 (k1_pay4 (iblk1 V c 2 t) (k1_pay3 (iblk1 V c 0 t) (iblk1 V c 1 t) (prev1 V c t).2.1) (prev1 V c t).2.2),
      k1_pay3 (iblk1 V c 0 t) (iblk1 V c 1 t) (prev1 V c t).2.1,
      k1_pay4 (iblk1 V c 2 t) (k1_pay3 (iblk1 V c 0 t) (iblk1 V c 1 t) (prev1 V c t).2.1) (prev1 V c t).2.2) := by
  rw [outs1_at]; unfold step1; rw [if_neg h2, if_pos h15]

/-! ## The invariant -/

/-- Before position `n`: at the start the class's invariant (both accumulators at anything); afterwards the two
    accumulators at what the point before left, beside the untouched rest. -/
def PhiS1 (c : Dev nD) : ℕ → sProp 𝕄
  | 0 => Pipeline.ΦA spec1 c
  | n + 1 => iprop(owns (c : Thread nD τ) scM1_7 fullShare (outs1 V c n).2.1 ∗ owns (c : Thread nD τ) scM1_8 fullShare (outs1 V c n).2.2 ∗ Rest1 c)

theorem PhiS1_succ (c : Dev nD) (n : ℕ) :
    PhiS1 V c (n + 1) = iprop(owns (c : Thread nD τ) scM1_7 fullShare (outs1 V c n).2.1 ∗ owns (c : Thread nD τ) scM1_8 fullShare (outs1 V c n).2.2 ∗ Rest1 c) := rfl

theorem PhiS1_pos (c : Dev nD) (n : ℕ) (hn : n ≠ 0) :
    PhiS1 V c n = iprop(owns (c : Thread nD τ) scM1_7 fullShare (outs1 V c (n - 1)).2.1 ∗ owns (c : Thread nD τ) scM1_8 fullShare (outs1 V c (n - 1)).2.2 ∗ Rest1 c) := by
  cases n with
  | zero => exact absurd rfl hn
  | succ n => rfl

/-- What a point is handed: the two accumulators at SOME contents — the previous point's, when there is one — and the rest. -/
theorem PhiS1_open (c : Dev nD) (t : Fin cfg1.N) :
    PhiS1 V c t.val ⊢ iprop(∃ s7 s8, ⌜t.val ≠ 0 → s7 = (prev1 V c t).2.1 ∧ s8 = (prev1 V c t).2.2⌝
      ∗ owns (c : Thread nD τ) scM1_7 fullShare s7 ∗ owns (c : Thread nD τ) scM1_8 fullShare s8 ∗ Rest1 c) := by
  by_cases hz : t.val = 0
  · rw [hz]
    refine (PhiA1_split c).trans ?_
    iintro ⟨⟨%d7, H7⟩, ⟨%d8, H8⟩, HR⟩
    iexists d7, d8
    isplitr; · ipureintro; exact fun h => absurd rfl h
    isplitl [H7]; · iexact H7
    isplitl [H8]; · iexact H8
    iexact HR
  · rw [PhiS1_pos V c _ hz, prev1_pos V c t hz]
    iintro ⟨H7, H8, HR⟩
    iexists _, _
    isplitr; · ipureintro; exact fun _ => ⟨rfl, rfl⟩
    isplitl [H7]; · iexact H7
    isplitl [H8]; · iexact H8
    iexact HR

/-! ## The proof data -/

/-- The arrays as the region finds them; after the body each input's buffer at its block and the output's at the
    state's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outs1 V c t.val).1
  Φ t := PhiS1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = PhiS1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outs1 V c t.val).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's number modulo 2 and 16 says which case it
    is in; the invariant hands over the accumulators at the previous state and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h2 : t.val % 2 = 0
  · have HC4N : ¬cond1_4 (grid1.coords t) := fun h => absurd ((hcond1_4 t).mp h) (by omega)
    rw [Dat.leavesExact_idle (dat1 V c) 3 t (idleAt1_3 t HC4N) (noFlush1_3 t HC4N)]
    by_cases h16 : t.val % 16 = 0
    · rw [outs1_A V c t h2 h16]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      iapply (run1_A c (grid1.coords t) _ _ _ _ _ _ _ _ _ _ _ _ ((hcond1_1 t).mpr h2) ((hcond1_2 t).mpr h16) (fun h => absurd ((hcond1_3 t).mp h) (by omega)) (fun h => absurd ((hcond1_4 t).mp h) (by omega)) (iblk1 V c 0 t) (iblk1 V c 1 t) (iblk1 V c 2 t) ((dat1 V c).before 3 t d3) s7 s8 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
    · rw [outs1_B V c t h2 h16]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      obtain ⟨-, rfl⟩ := hs (by omega)
      iapply (run1_B c (grid1.coords t) _ _ _ _ _ _ _ _ _ _ _ _ ((hcond1_1 t).mpr h2) (fun h => h16 ((hcond1_2 t).mp h)) (fun h => absurd ((hcond1_3 t).mp h) (by omega)) (fun h => absurd ((hcond1_4 t).mp h) (by omega)) (iblk1 V c 0 t) (iblk1 V c 1 t) (iblk1 V c 2 t) ((dat1 V c).before 3 t d3) s7 (prev1 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
  · by_cases h15 : t.val % 16 = 15
    · rw [show (dat1 V c).leavesExact 3 t = owns (c : Thread nD τ) (ms1_3 t) fullShare ((dat1 V c).after 3 t) from by
        unfold Dat.leavesExact; rw [liveAt1_3 t ((hcond1_4 t).mpr h15)], after1_3]
      rw [outs1_D V c t h2 h15]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      obtain ⟨rfl, rfl⟩ := hs (by omega)
      iapply (run1_D c (grid1.coords t) _ _ _ _ _ _ _ _ _ _ _ _ (fun h => h2 ((hcond1_1 t).mp h)) (fun h => absurd ((hcond1_2 t).mp h) (by omega)) ((hcond1_3 t).mpr (by omega)) ((hcond1_4 t).mpr h15) (iblk1 V c 0 t) (iblk1 V c 1 t) (iblk1 V c 2 t) ((dat1 V c).before 3 t d3) (prev1 V c t).2.1 (prev1 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexact H3
    · have HC4N : ¬cond1_4 (grid1.coords t) := fun h => h15 ((hcond1_4 t).mp h)
      rw [Dat.leavesExact_idle (dat1 V c) 3 t (idleAt1_3 t HC4N) (noFlush1_3 t HC4N)]
      rw [outs1_C V c t h2 h15]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      obtain ⟨rfl, rfl⟩ := hs (by omega)
      iapply (run1_C c (grid1.coords t) _ _ _ _ _ _ _ _ _ _ _ _ (fun h => h2 ((hcond1_1 t).mp h)) (fun h => absurd ((hcond1_2 t).mp h) (by omega)) ((hcond1_3 t).mpr (by omega)) (fun h => h15 ((hcond1_4 t).mp h)) (iblk1 V c 0 t) (iblk1 V c 1 t) (iblk1 V c 2 t) ((dat1 V c).before 3 t d3) (prev1 V c t).2.1 (prev1 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := .rfl

/-- After the last point the invariant gives the class's back: the accumulators' contents are forgotten. -/
theorem hout1 (c : Dev nD) : (dat1 V c).Φ (Fin.last cfg1.N) ⊢ Pipeline.ΦA spec1 c := by
  rw [show (dat1 V c).Φ (Fin.last cfg1.N) = PhiS1 V c cfg1.N from rfl,
    PhiS1_pos V c _ (by rw [show cfg1.N = 64 from N_1]; decide)]
  refine .trans ?_ (PhiA1_join c)
  iintro ⟨H7, H8, HR⟩
  isplitl [H7]; · iexists _; iexact H7
  isplitl [H8]; · iexists _; iexact H8
  iexact HR

end Cert.Kernel.Hand

end
-- ==== Proof.K.Main.lean ====
import proofs.«120576_j88519275970865_1_alg».proof.Proof.K.Dat0
import proofs.«120576_j88519275970865_1_alg».proof.Proof.K.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The whole program: two layer calls in a row, the second reading the first's result as its embedding.
  The unscoped buffers' contents at the three boundaries are a fold from the launch memory: `WA` at launch, `WB` after
  the first call (its arrays at what its write-backs leave, every other buffer as entered), `WC` after the second.
  Each call is a segment over "every unscoped buffer at the boundary's contents, the generator register at some
  state, nothing owed"; the launch over the two segments gives: every weakly fair execution terminates, and every final
  memory holds each unscoped buffer at `WC` — so the result buffer holds what the second call's write-backs leave, and
  each argument, which no call writes, what it held at launch.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- Core `c`'s buffers at launch, -/
abbrev WA : Dev nD → Valuation τ sig (Elt F) := fun c b => m (c, b)
/-- read at the TensorCore's references: what the first call's proof data take. -/
abbrev VA : (c : Dev nD) → (b : Ref sig .tc) → Buf (Elt F) ((c : Thread nD τ).loc b) := fun c b => WA m c b
/-- After the first call: its arrays at what the pipeline leaves, every other buffer as entered. -/
def WB (c : Dev nD) : Valuation τ sig (Elt F) :=
  Pipeline.withArrays spec0 c (WA m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb
abbrev VB : (c : Dev nD) → (b : Ref sig .tc) → Buf (Elt F) ((c : Thread nD τ).loc b) := fun c b => WB m c b
theorem hF0 (c : Dev nD) (w : Fin cfg0.W) : (dat0 (VA m) c).arrAt w cfg0.N = VB m c (Pipeline.arrRef spec0 w) :=
  (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- After the second call. -/
def WC (c : Dev nD) : Valuation τ sig (Elt F) :=
  Pipeline.withArrays spec1 c (WB m c) fun w => (dat1 (VB m) c).arrAt w cfg1.N
theorem WC_arr (c : Dev nD) (w : Fin cfg1.W) :
    WC m c (Proc.devRef .tc (Pipeline.arrRef spec1 w)) = (dat1 (VB m) c).arrAt w cfg1.N := by
  unfold WC; exact Pipeline.withArrays_arr spec1 launch1.win.arr_inj c _ _ w
theorem WC_of_ne (c : Dev nD) (b : Ref sig .tc) (hb : ∀ w, Pipeline.arrRef spec1 w ≠ b) :
    WC m c (Proc.devRef .tc b) = WB m c (Proc.devRef .tc b) := by
  unfold WC; exact Pipeline.withArrays_of_ne spec1 c _ _ b hb
abbrev VC : (c : Dev nD) → (b : Ref sig .tc) → Buf (Elt F) ((c : Thread nD τ).loc b) := fun c b => WC m c b
theorem hF1 (c : Dev nD) (w : Fin cfg1.W) : (dat1 (VB m) c).arrAt w cfg1.N = VC m c (Pipeline.arrRef spec1 w) :=
  (WC_arr m c w).symm
theorem hrest1 (c : Dev nD) : ∀ b, b ∉ Finset.univ.image (Pipeline.arrRef spec1) → VC m c b = VB m c b :=
  fun b hb => WC_of_ne m c b fun w e => hb (Finset.mem_image.mpr ⟨w, Finset.mem_univ _, e⟩)

/-! ### The arguments end as launched, and the first call's inputs are the arguments -/

theorem WB_main_arg0 (c : Dev nD) : WB m c (Proc.devRef .tc main_arg0) = m ((c : Thread nD τ).loc main_arg0) :=
  (WB_arr m c 0).trans (((dat0 (VA m) c).arrAt_in 0 rfl _).trans (A_eq0 (VA m) c 0))
theorem WB_main_arg1 (c : Dev nD) : WB m c (Proc.devRef .tc main_arg1) = m ((c : Thread nD τ).loc main_arg1) :=
  (WB_arr m c 1).trans (((dat0 (VA m) c).arrAt_in 1 rfl _).trans (A_eq0 (VA m) c 1))
theorem WB_main_arg2 (c : Dev nD) : WB m c (Proc.devRef .tc main_arg2) = m ((c : Thread nD τ).loc main_arg2) :=
  (WB_arr m c 2).trans (((dat0 (VA m) c).arrAt_in 2 rfl _).trans (A_eq0 (VA m) c 2))
/-- The first call's result array after it. -/
theorem WB_main_v0 (c : Dev nD) : WB m c (Proc.devRef .tc main_v0) = (dat0 (VA m) c).arrAt 3 cfg0.N := WB_arr m c 3

theorem WC_main_arg0 (c : Dev nD) : WC m c (Proc.devRef .tc main_arg0) = m ((c : Thread nD τ).loc main_arg0) :=
  (WC_arr m c 0).trans (((dat1 (VB m) c).arrAt_in 0 rfl _).trans ((A_eq1 (VB m) c 0).trans (WB_main_arg0 m c)))
theorem WC_main_arg1 (c : Dev nD) : WC m c (Proc.devRef .tc main_arg1) = m ((c : Thread nD τ).loc main_arg1) :=
  (WC_of_ne m c main_arg1 (by decide)).trans (WB_main_arg1 m c)
theorem WC_main_arg2 (c : Dev nD) : WC m c (Proc.devRef .tc main_arg2) = m ((c : Thread nD τ).loc main_arg2) :=
  (WC_arr m c 2).trans (((dat1 (VB m) c).arrAt_in 2 rfl _).trans ((A_eq1 (VB m) c 2).trans (WB_main_arg2 m c)))
/-- The program's result array at the end. -/
theorem WC_main_v1 (c : Dev nD) : WC m c (Proc.devRef .tc main_v1) = (dat1 (VB m) c).arrAt 3 cfg1.N := WC_arr m c 3

/-! ## The proof data family and the thread state -/

abbrev adm : (p : Fin 2) → (pcfgs (F := F) p).Adm := fun p => (cfgs p).toPCfg_adm
/-- Both calls' proof data, each at its entry contents (a literal match on the call's number). -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WC m c) ∗ ∃ r, prngReg c r)

/-! ## The calls as segments -/

-- unifying a library lemma stated over the pinned configuration with the printed one unfolds plain definitions in a
-- metavariable's type
set_option backward.isDefEq.respectTransparency.types false in
/-- Layer call 0 as a segment: entered with every unscoped buffer at `WA`, left at `WB`. Its arrays are split out of
    the unscoped buffers and put back at what the write-backs leave; the generator register and the scoped memory go
    into the invariant before the first point and come back after the last; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Layer call 1 as a segment: entered with every unscoped buffer at `WB`, left at `WC`. Its arrays are split out of
    the unscoped buffers and put back at what the write-backs leave; the generator register and the scoped memory go
    into the invariant before the first point and come back after the last; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WC m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WC m c b)
    (hfin := fun c s' => by
      iintro ⟨⟨Hh, -⟩, HSI⟩
      unfold StableHlo.held
      imodintro
      iapply (pointsTo_read_all (Pipeline.ucRefs τ sig) (fun b => (((c : Thread nD τ)).1, b)) (WC m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (WC_main_arg0 m c),
     (h c _ (mem_uc main_arg1 (by decide))).trans (WC_main_arg1 m c),
     (h c _ (mem_uc main_arg2 (by decide))).trans (WC_main_arg2 m c)⟩) (run_all m ρ)

/-- The run with the result named: the result buffer ends at what the second call's write-backs leave. -/
theorem run_value : θ_run defs (onTc (τ := τ) (main (F := F))) ⟨m, fun _ => 0, ρ⟩ (fun r => ∀ c : Dev nD,
      r.2.mem ((c.tc : Thread nD τ).loc main_v1) = (dat1 (VB m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (WC_main_v1 m c),
     (h c _ (mem_uc main_arg0 (by decide))).trans (WC_main_arg0 m c),
     (h c _ (mem_uc main_arg1 (by decide))).trans (WC_main_arg1 m c),
     (h c _ (mem_uc main_arg2 (by decide))).trans (WC_main_arg2 m c)⟩) (run_all m ρ)

end Cert.Kernel.Hand

end
-- ==== Proof.KI.Step0.lean ====
/-
  One grid point of the first layer's kernel as a pure function, and the fold of the points in grid order.
  The grid is (row block, relation, contraction half), the last fastest, so point n has contraction half n % 2 and
  n % 16 = 0 is a row block's first point, n % 16 = 15 its last. The state carried from point to point is
  (the output block as last stored, the gathered-messages accumulator, the transformed-sum accumulator):
    * at a first half (n % 2 = 0) the messages accumulator restarts from zero plus this half's product, and at a row
      block's first point the transformed-sum accumulator restarts from zero;
    * at a second half the messages accumulator gains this half's product, the transformed-sum accumulator gains the
      completed messages times the relation's transform, and at a row block's last point the output block is the
      scaled positive part of that sum.
  The payloads are the kernel's own (the skeleton's); nothing is computed here.
-/
import proofs.«120576_j88519275970865_1_alg».proof.Proof.Gen.KernelIdeal.Skeleton

noncomputable section

namespace Cert.KernelIdeal.Hand

open Cert.KernelIdeal Cert.KernelIdeal.Gen
open Idealize.ShloMosaic

variable {F : FTy → Type} [FloatOps F]

/-- (output block, messages accumulator, transformed-sum accumulator). -/
abbrev St0 (F : FTy → Type) : Type := Vec F S1024x128 .f32 × Vec F S1024x128 .f32 × Vec F S1024x128 .f32

/-- The state before the first point: nothing reads it (the first point restarts both accumulators and stores no output). -/
def init0 : St0 F := (k0_pay1, k0_pay1, k0_pay1)

/-- One grid point, from the point's three input blocks, its position and the state the point before left. -/
def step0 (x3 : Vec F S1x1024x2048 .f32) (x4 : Vec F S2048x128 .f32) (x5 : Vec F S1x128x128 .f32) (n : ℕ) (s : St0 F) : St0 F :=
  if n % 2 = 0 then
    (s.1, k0_pay3 x3 x4 k0_pay1, if n % 16 = 0 then k0_pay2 else s.2.2)
  else
    (if n % 16 = 15 then k0_pay5 (k0_pay4 x5 (k0_pay3 x3 x4 s.2.1) s.2.2) else s.1,
      k0_pay3 x3 x4 s.2.1,
      k0_pay4 x5 (k0_pay3 x3 x4 s.2.1) s.2.2)

/-- The points 0 … n in order, over families of input blocks indexed by the point. -/
def run0 (X3 : ℕ → Vec F S1x1024x2048 .f32) (X4 : ℕ → Vec F S2048x128 .f32) (X5 : ℕ → Vec F S1x128x128 .f32) : ℕ → St0 F
  | 0 => step0 (X3 0) (X4 0) (X5 0) 0 init0
  | n + 1 => step0 (X3 (n + 1)) (X4 (n + 1)) (X5 (n + 1)) (n + 1) (run0 X3 X4 X5 n)

theorem run0_zero (X3 : ℕ → Vec F S1x1024x2048 .f32) (X4 : ℕ → Vec F S2048x128 .f32) (X5 : ℕ → Vec F S1x128x128 .f32) :
    run0 X3 X4 X5 0 = step0 (X3 0) (X4 0) (X5 0) 0 init0 := rfl

theorem run0_succ (X3 : ℕ → Vec F S1x1024x2048 .f32) (X4 : ℕ → Vec F S2048x128 .f32) (X5 : ℕ → Vec F S1x128x128 .f32) (n : ℕ) :
    run0 X3 X4 X5 (n + 1) = step0 (X3 (n + 1)) (X4 (n + 1)) (X5 (n + 1)) (n + 1) (run0 X3 X4 X5 n) := rfl

end Cert.KernelIdeal.Hand

end
-- ==== Proof.KI.Cases0.lean ====
import proofs.«120576_j88519275970865_1_alg».proof.Proof.Gen.KernelIdeal.Launch
import proofs.«120576_j88519275970865_1_alg».proof.Proof.Gen.KernelIdeal.Skeleton
import proofs.«120576_j88519275970865_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  What the four control cases of the layer kernel's body (call 0) are stated over: the body's four conditions as
  propositions about the grid coordinates, each decided over the 64 grid points in closed form (the point's number is
  16 * row block + 2 * relation + contraction half); where the output window is idle; the staging and scratch memrefs
  a point is called with; and the kernel's share of the scoped memory split into its two accumulators and the rest.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz2_0 : (![0, 0] : Fin 2 → Nat) = fun _ => 0 := funext fun a => by fin_cases a <;> rfl
theorem hz3_0 : (![0, 0, 0] : Fin 3 → Nat) = fun _ => 0 := funext fun a => by fin_cases a <;> rfl

/-! ## The body's four conditions -/

/-- "first contraction half": the messages accumulator restarts. -/
abbrev cond0_1 (i : grid0.Coords) : Prop := (Scalar.cmpi .ne (Scalar.extui (Scalar.cmpi .eq (BitVec.ofNat 32 (i 2).val) 0#32)) 0#32) = 1#1
/-- "first relation and first half": the transformed-sum accumulator restarts. -/
abbrev cond0_2 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- "last contraction half": the relation's messages are complete and go through its transform. -/
abbrev cond0_3 (i : grid0.Coords) : Prop := (Scalar.cmpi .ne (Scalar.extui (Scalar.cmpi .eq (BitVec.ofNat 32 (i 2).val) 1#32)) 0#32) = 1#1
/-- "last relation and last half": the row block's result is stored. -/
abbrev cond0_4 (i : grid0.Coords) : Prop := k0_cond4 i = 1#1

theorem hcond0_1 : ∀ t : Fin cfg0.N, cond0_1 (grid0.coords t) ↔ t.val % 2 = 0 :=
  (by decide +kernel : ∀ t : Fin grid0.N, cond0_1 (grid0.coords t) ↔ t.val % 2 = 0)
theorem hcond0_2 : ∀ t : Fin cfg0.N, cond0_2 (grid0.coords t) ↔ t.val % 16 = 0 :=
  (by decide +kernel : ∀ t : Fin grid0.N, cond0_2 (grid0.coords t) ↔ t.val % 16 = 0)
theorem hcond0_3 : ∀ t : Fin cfg0.N, cond0_3 (grid0.coords t) ↔ t.val % 2 = 1 :=
  (by decide +kernel : ∀ t : Fin grid0.N, cond0_3 (grid0.coords t) ↔ t.val % 2 = 1)
theorem hcond0_4 : ∀ t : Fin cfg0.N, cond0_4 (grid0.coords t) ↔ t.val % 16 = 15 :=
  (by decide +kernel : ∀ t : Fin grid0.N, cond0_4 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row block's last point nothing is stored into the output window, -/
theorem idleAt0_3 : ∀ t : Fin cfg0.N, ¬cond0_4 (grid0.coords t) → cfg0.idle 3 (grid0.coords t) = true := by decide +kernel
/-- and its block is not written back there; -/
theorem noFlush0_3 : ∀ t : Fin cfg0.N, ¬cond0_4 (grid0.coords t) → (cfg0.win 3).flush t = false := by decide +kernel
/-- at a row block's last point it is stored. -/
theorem liveAt0_3 : ∀ t : Fin cfg0.N, cond0_4 (grid0.coords t) → cfg0.idle 3 (grid0.coords t) = false := by decide +kernel

/-! ## The memrefs a point is called with -/

abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The messages accumulator and the transformed-sum accumulator: whole scoped buffers of the kernel's own. -/
abbrev scM0_7 : Memref sig .tc .vmem S1024x128 .f32 := Memref.whole cc0_scratch0
abbrev scM0_8 : Memref sig .tc .vmem S1024x128 .f32 := Memref.whole cc0_scratch1

/-! ## The kernel's share of the scoped memory -/

/-- Every scoped buffer that is neither a staging buffer of this call nor one of its two accumulators, at some
    contents, and the generator register at some state: what the body never touches. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ r, prngReg c r))

/-- The class's invariant hands out the two accumulators at some contents beside the rest, -/
theorem PhiA0_split (c : Dev nD) :
    (Pipeline.ΦA spec0 c : sProp 𝕄) ⊢ iprop((∃ d, owns (c : Thread nD τ) scM0_7 fullShare d) ∗ (∃ d, owns (c : Thread nD τ) scM0_8 fullShare d) ∗ Rest0 c) := by
  unfold Pipeline.ΦA Rest0; rw [scopedRest0_eq]; simp only [scM0_7, scM0_8, owns_whole]
  iintro ⟨⟨H1, H2, H3, H4, H5, H6, H7, H8, H9, H10, H11, H12⟩, Hg⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hg

/-- and takes them back. -/
theorem PhiA0_join (c : Dev nD) :
    iprop((∃ d, owns (c : Thread nD τ) scM0_7 fullShare d) ∗ (∃ d, owns (c : Thread nD τ) scM0_8 fullShare d) ∗ Rest0 c) ⊢ (Pipeline.ΦA spec0 c : sProp 𝕄) := by
  unfold Pipeline.ΦA Rest0; rw [scopedRest0_eq]; simp only [scM0_7, scM0_8, owns_whole]
  iintro ⟨H1, H2, H3, H4, H5, H6, H7, H8, H9, H10, H11, H12, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

end Cert.KernelIdeal.Hand

end
-- ==== Proof.KI.Run0A.lean ====
import proofs.«120576_j88519275970865_1_alg».proof.Proof.KI.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE A — a row block's first point (first relation, first contraction half): both accumulators restart from the zero block; the messages accumulator ends at zero plus this half's product, the transformed-sum accumulator at zero; nothing is stored into the output block.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_A (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond0_1 i) (hc2 : cond0_2 i) (hc3 : ¬cond0_3 i) (hc4 : ¬cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k0_pay3 x3 x4 k0_pay1)
            ∗ owns (c : Thread nD τ) arg8 fullShare (k0_pay2)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_0 inb_S1024x128_S1024x128_0_0 y⟩), View.canon_cons_unit_zero (S := S1024x128) hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr
    swap; · iexact H8
    ipureintro
    sl_unfold_words
    rw [View.read_writes_eq_canon _ _ _ (fun y => ⟨_, List.mem_singleton_self _, View.mem_set_unit_zero hz2_0 inb_S1024x128_S1024x128_0_0 y⟩), View.canon_unit_zero hz2_0]

end Cert.KernelIdeal.Hand

end
-- ==== Proof.KI.Run0B.lean ====
import proofs.«120576_j88519275970865_1_alg».proof.Proof.KI.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE B — a later relation's first contraction half: the messages accumulator restarts from the zero block and ends at zero plus this half's product; the transformed-sum accumulator and the output block are left as found.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_B (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond0_1 i) (hc2 : ¬cond0_2 i) (hc3 : ¬cond0_3 i) (hc4 : ¬cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k0_pay3 x3 x4 k0_pay1)
            ∗ owns (c : Thread nD τ) arg8 fullShare (xs8)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_0 inb_S1024x128_S1024x128_0_0 y⟩), View.canon_cons_unit_zero (S := S1024x128) hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr; · ipureintro; exact harg8.read_unread _
    iexact H8

end Cert.KernelIdeal.Hand

end
-- ==== Proof.KI.Run0C.lean ====
import proofs.«120576_j88519275970865_1_alg».proof.Proof.KI.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE C — a second contraction half before the last relation: the messages accumulator gains this half's product, and the transformed-sum accumulator gains the completed messages through the relation's transform; the output block is left as found.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_C (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond0_1 i) (hc2 : ¬cond0_2 i) (hc3 : cond0_3 i) (hc4 : ¬cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k0_pay3 x3 x4 xs7)
            ∗ owns (c : Thread nD τ) arg8 fullShare (k0_pay4 x5 (k0_pay3 x3 x4 xs7) xs8)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2_0 inb_S1024x128_S1024x128_0_0 y⟩), View.canon_unit_zero hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr
    swap; · iexact H8
    ipureintro
    sl_unfold_words
    rw [View.read_writes_eq_canon _ _ _ (fun y => ⟨_, List.mem_singleton_self _, View.mem_set_unit_zero hz2_0 inb_S1024x128_S1024x128_0_0 y⟩), View.canon_unit_zero hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]

end Cert.KernelIdeal.Hand

end
-- ==== Proof.KI.Run0D.lean ====
import proofs.«120576_j88519275970865_1_alg».proof.Proof.KI.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE D — a row block's last point (last relation, second contraction half): as in case C, and the output block is stored: the scaled positive part of the completed transformed sum.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run0_D (c : Dev nD) (i : grid0.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond0_1 i) (hc2 : ¬cond0_2 i) (hc3 : cond0_3 i) (hc4 : cond0_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (k0_pay5 (k0_pay4 x5 (k0_pay3 x3 x4 xs7) xs8))
            ∗ owns (c : Thread nD τ) arg7 fullShare (k0_pay3 x3 x4 xs7)
            ∗ owns (c : Thread nD τ) arg8 fullShare (k0_pay4 x5 (k0_pay3 x3 x4 xs7) xs8)) -∗ K ⟨⟩))
      ⊢ wp frame (wpE (defs₀ (F := F)) Variants.none c none) E (cc0__gcn_layer_kernel i arg3 harg3 arg4 harg4 arg5 harg5 arg6 harg6 arg7 harg7 arg8 harg8) K := by
  simp only [cc0__gcn_layer_kernel_eq_skeleton]; unfold cc0__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero hz2_0 inb_S1024x128_S1024x128_0_0 y⟩), View.canon_unit_zero hz2_0, View.readCov_unit_zero (S := S1024x128) _ hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  isplitl [H7]
  · iexists _; isplitr
    swap; · iexact H7
    ipureintro
    sl_unfold_words
    rw [View.read_writes_eq_canon _ _ _ (fun y => ⟨_, List.mem_singleton_self _, View.mem_set_unit_zero hz2_0 inb_S1024x128_S1024x128_0_0 y⟩), View.canon_unit_zero hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]
  · iexists _; isplitr
    swap; · iexact H8
    ipureintro
    sl_unfold_words
    rw [View.read_writes_eq_canon _ _ _ (fun y => ⟨_, List.mem_singleton_self _, View.mem_set_unit_zero hz2_0 inb_S1024x128_S1024x128_0_0 y⟩), View.canon_unit_zero hz2_0, View.readCov_unit_zero (S := S1024x128) _ hz2_0]
    simp only [View.readAt_eq_ld, harg3.read_unread, harg4.read_unread, harg5.read_unread, harg6.read_unread, harg7.read_unread, harg8.read_unread, View.ld_unit_zero (S := S1x1024x2048) hz3_0, View.ld_unit_zero (S := S2048x128) hz2_0, View.ld_unit_zero (S := S1024x128) hz2_0, View.ld_unit_zero (S := S1x128x128) hz3_0]

end Cert.KernelIdeal.Hand

end
-- ==== Proof.KI.Dat0.lean ====
import proofs.«120576_j88519275970865_1_alg».proof.Proof.KI.Step0
import proofs.«120576_j88519275970865_1_alg».proof.Proof.KI.Run0A
import proofs.«120576_j88519275970865_1_alg».proof.Proof.KI.Run0B
import proofs.«120576_j88519275970865_1_alg».proof.Proof.KI.Run0C
import proofs.«120576_j88519275970865_1_alg».proof.Proof.KI.Run0D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The proof data of layer call 0, at a parameter `V` (the TensorCore's buffer contents when the region is entered).
  Each input window's block at a point is read off its array; the state after point n — the output block as last stored
  and the two accumulators — is the fold of the pure step function over the points' blocks (Step0); the invariant
  before a point holds the two accumulators at what the point before left (before the first point: at anything) beside
  the scoped memory the body never touches. The body obligation is a case split on the point's number modulo 2 and 16:
  each of the four cases is that case's run of the body, handed the accumulators at the previous state and handing them
  back at this point's.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block index
    has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block index
    has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block index
    has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 0's block by the point's number (past the grid: a block nothing reads). -/
def X3at0 (c : Dev nD) (n : ℕ) : Vec F S1x1024x2048 .f32 :=
  if h : n < cfg0.N then iblk0 V c 0 ⟨n, h⟩ else fun _ => (Scalar.ofBits .f32 0x00000000#32 : F .f32)
theorem X3at0_lt (c : Dev nD) (t : Fin cfg0.N) : X3at0 V c t.val = iblk0 V c 0 t := by
  unfold X3at0; rw [dif_pos t.isLt]

/-- Window 1's block by the point's number (past the grid: a block nothing reads). -/
def X4at0 (c : Dev nD) (n : ℕ) : Vec F S2048x128 .f32 :=
  if h : n < cfg0.N then iblk0 V c 1 ⟨n, h⟩ else fun _ => (Scalar.ofBits .f32 0x00000000#32 : F .f32)
theorem X4at0_lt (c : Dev nD) (t : Fin cfg0.N) : X4at0 V c t.val = iblk0 V c 1 t := by
  unfold X4at0; rw [dif_pos t.isLt]

/-- Window 2's block by the point's number (past the grid: a block nothing reads). -/
def X5at0 (c : Dev nD) (n : ℕ) : Vec F S1x128x128 .f32 :=
  if h : n < cfg0.N then iblk0 V c 2 ⟨n, h⟩ else fun _ => (Scalar.ofBits .f32 0x00000000#32 : F .f32)
theorem X5at0_lt (c : Dev nD) (t : Fin cfg0.N) : X5at0 V c t.val = iblk0 V c 2 t := by
  unfold X5at0; rw [dif_pos t.isLt]

/-! ## The state after each point -/

/-- (output block, messages accumulator, transformed-sum accumulator) after point `n`. -/
def outs0 (c : Dev nD) (n : ℕ) : St0 F := run0 (X3at0 V c) (X4at0 V c) (X5at0 V c) n

/-- The state a point starts from. -/
def prev0 (c : Dev nD) (t : Fin cfg0.N) : St0 F := if t.val = 0 then init0 else outs0 V c (t.val - 1)

theorem prev0_pos (c : Dev nD) (t : Fin cfg0.N) (h : t.val ≠ 0) : prev0 V c t = outs0 V c (t.val - 1) := by
  unfold prev0; rw [if_neg h]

/-- One point: the step function at the point's blocks, from the state the point starts from. -/
theorem outs0_at (c : Dev nD) (t : Fin cfg0.N) :
    outs0 V c t.val = step0 (iblk0 V c 0 t) (iblk0 V c 1 t) (iblk0 V c 2 t) t.val (prev0 V c t) := by
  rw [← X3at0_lt V c t, ← X4at0_lt V c t, ← X5at0_lt V c t]
  obtain ⟨n, hn⟩ := t
  cases n with
  | zero => rfl
  | succ n => exact (run0_succ _ _ _ n).trans (by unfold prev0 outs0; rw [if_neg (Nat.succ_ne_zero n)]; rfl)

theorem outs0_A (c : Dev nD) (t : Fin cfg0.N) (h2 : t.val % 2 = 0) (h16 : t.val % 16 = 0) :
    outs0 V c t.val = ((prev0 V c t).1, k0_pay3 (iblk0 V c 0 t) (iblk0 V c 1 t) k0_pay1, k0_pay2) := by
  rw [outs0_at]; unfold step0; rw [if_pos h2, if_pos h16]
theorem outs0_B (c : Dev nD) (t : Fin cfg0.N) (h2 : t.val % 2 = 0) (h16 : ¬t.val % 16 = 0) :
    outs0 V c t.val = ((prev0 V c t).1, k0_pay3 (iblk0 V c 0 t) (iblk0 V c 1 t) k0_pay1, (prev0 V c t).2.2) := by
  rw [outs0_at]; unfold step0; rw [if_pos h2, if_neg h16]
theorem outs0_C (c : Dev nD) (t : Fin cfg0.N) (h2 : ¬t.val % 2 = 0) (h15 : ¬t.val % 16 = 15) :
    outs0 V c t.val = ((prev0 V c t).1, k0_pay3 (iblk0 V c 0 t) (iblk0 V c 1 t) (prev0 V c t).2.1,
      k0_pay4 (iblk0 V c 2 t) (k0_pay3 (iblk0 V c 0 t) (iblk0 V c 1 t) (prev0 V c t).2.1) (prev0 V c t).2.2) := by
  rw [outs0_at]; unfold step0; rw [if_neg h2, if_neg h15]
theorem outs0_D (c : Dev nD) (t : Fin cfg0.N) (h2 : ¬t.val % 2 = 0) (h15 : t.val % 16 = 15) :
    outs0 V c t.val = (k0_pay5 (k0_pay4 (iblk0 V c 2 t) (k0_pay3 (iblk0 V c 0 t) (iblk0 V c 1 t) (prev0 V c t).2.1) (prev0 V c t).2.2),
      k0_pay3 (iblk0 V c 0 t) (iblk0 V c 1 t) (prev0 V c t).2.1,
      k0_pay4 (iblk0 V c 2 t) (k0_pay3 (iblk0 V c 0 t) (iblk0 V c 1 t) (prev0 V c t).2.1) (prev0 V c t).2.2) := by
  rw [outs0_at]; unfold step0; rw [if_neg h2, if_pos h15]

/-! ## The invariant -/

/-- Before position `n`: at the start the class's invariant (both accumulators at anything); afterwards the two
    accumulators at what the point before left, beside the untouched rest. -/
def PhiS0 (c : Dev nD) : ℕ → sProp 𝕄
  | 0 => Pipeline.ΦA spec0 c
  | n + 1 => iprop(owns (c : Thread nD τ) scM0_7 fullShare (outs0 V c n).2.1 ∗ owns (c : Thread nD τ) scM0_8 fullShare (outs0 V c n).2.2 ∗ Rest0 c)

theorem PhiS0_succ (c : Dev nD) (n : ℕ) :
    PhiS0 V c (n + 1) = iprop(owns (c : Thread nD τ) scM0_7 fullShare (outs0 V c n).2.1 ∗ owns (c : Thread nD τ) scM0_8 fullShare (outs0 V c n).2.2 ∗ Rest0 c) := rfl

theorem PhiS0_pos (c : Dev nD) (n : ℕ) (hn : n ≠ 0) :
    PhiS0 V c n = iprop(owns (c : Thread nD τ) scM0_7 fullShare (outs0 V c (n - 1)).2.1 ∗ owns (c : Thread nD τ) scM0_8 fullShare (outs0 V c (n - 1)).2.2 ∗ Rest0 c) := by
  cases n with
  | zero => exact absurd rfl hn
  | succ n => rfl

/-- What a point is handed: the two accumulators at SOME contents — the previous point's, when there is one — and the rest. -/
theorem PhiS0_open (c : Dev nD) (t : Fin cfg0.N) :
    PhiS0 V c t.val ⊢ iprop(∃ s7 s8, ⌜t.val ≠ 0 → s7 = (prev0 V c t).2.1 ∧ s8 = (prev0 V c t).2.2⌝
      ∗ owns (c : Thread nD τ) scM0_7 fullShare s7 ∗ owns (c : Thread nD τ) scM0_8 fullShare s8 ∗ Rest0 c) := by
  by_cases hz : t.val = 0
  · rw [hz]
    refine (PhiA0_split c).trans ?_
    iintro ⟨⟨%d7, H7⟩, ⟨%d8, H8⟩, HR⟩
    iexists d7, d8
    isplitr; · ipureintro; exact fun h => absurd rfl h
    isplitl [H7]; · iexact H7
    isplitl [H8]; · iexact H8
    iexact HR
  · rw [PhiS0_pos V c _ hz, prev0_pos V c t hz]
    iintro ⟨H7, H8, HR⟩
    iexists _, _
    isplitr; · ipureintro; exact fun _ => ⟨rfl, rfl⟩
    isplitl [H7]; · iexact H7
    isplitl [H8]; · iexact H8
    iexact HR

/-! ## The proof data -/

/-- The arrays as the region finds them; after the body each input's buffer at its block and the output's at the
    state's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outs0 V c t.val).1
  Φ t := PhiS0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = PhiS0 V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outs0 V c t.val).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's number modulo 2 and 16 says which case it
    is in; the invariant hands over the accumulators at the previous state and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  by_cases h2 : t.val % 2 = 0
  · have HC4N : ¬cond0_4 (grid0.coords t) := fun h => absurd ((hcond0_4 t).mp h) (by omega)
    rw [Dat.leavesExact_idle (dat0 V c) 3 t (idleAt0_3 t HC4N) (noFlush0_3 t HC4N)]
    by_cases h16 : t.val % 16 = 0
    · rw [outs0_A V c t h2 h16]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      iapply (run0_A c (grid0.coords t) _ _ _ _ _ _ _ _ _ _ _ _ ((hcond0_1 t).mpr h2) ((hcond0_2 t).mpr h16) (fun h => absurd ((hcond0_3 t).mp h) (by omega)) (fun h => absurd ((hcond0_4 t).mp h) (by omega)) (iblk0 V c 0 t) (iblk0 V c 1 t) (iblk0 V c 2 t) ((dat0 V c).before 3 t d3) s7 s8 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
    · rw [outs0_B V c t h2 h16]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      obtain ⟨-, rfl⟩ := hs (by omega)
      iapply (run0_B c (grid0.coords t) _ _ _ _ _ _ _ _ _ _ _ _ ((hcond0_1 t).mpr h2) (fun h => h16 ((hcond0_2 t).mp h)) (fun h => absurd ((hcond0_3 t).mp h) (by omega)) (fun h => absurd ((hcond0_4 t).mp h) (by omega)) (iblk0 V c 0 t) (iblk0 V c 1 t) (iblk0 V c 2 t) ((dat0 V c).before 3 t d3) s7 (prev0 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
  · by_cases h15 : t.val % 16 = 15
    · rw [show (dat0 V c).leavesExact 3 t = owns (c : Thread nD τ) (ms0_3 t) fullShare ((dat0 V c).after 3 t) from by
        unfold Dat.leavesExact; rw [liveAt0_3 t ((hcond0_4 t).mpr h15)], after0_3]
      rw [outs0_D V c t h2 h15]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      obtain ⟨rfl, rfl⟩ := hs (by omega)
      iapply (run0_D c (grid0.coords t) _ _ _ _ _ _ _ _ _ _ _ _ (fun h => h2 ((hcond0_1 t).mp h)) (fun h => absurd ((hcond0_2 t).mp h) (by omega)) ((hcond0_3 t).mpr (by omega)) ((hcond0_4 t).mpr h15) (iblk0 V c 0 t) (iblk0 V c 1 t) (iblk0 V c 2 t) ((dat0 V c).before 3 t d3) (prev0 V c t).2.1 (prev0 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexact H3
    · have HC4N : ¬cond0_4 (grid0.coords t) := fun h => h15 ((hcond0_4 t).mp h)
      rw [Dat.leavesExact_idle (dat0 V c) 3 t (idleAt0_3 t HC4N) (noFlush0_3 t HC4N)]
      rw [outs0_C V c t h2 h15]; dsimp only
      rw [Phi0_castSucc V c t]
      iintro ⟨HΦ, Ho, ⟨%d0, H0⟩, ⟨%d1, H1⟩, ⟨%d2, H2⟩, ⟨%d3, H3⟩⟩
      ihave HΦ' := (PhiS0_open V c t) $$ HΦ
      icases HΦ' with ⟨%s7, %s8, %hs, H7, H8, HR⟩
      obtain ⟨rfl, rfl⟩ := hs (by omega)
      iapply (run0_C c (grid0.coords t) _ _ _ _ _ _ _ _ _ _ _ _ (fun h => h2 ((hcond0_1 t).mp h)) (fun h => absurd ((hcond0_2 t).mp h) (by omega)) ((hcond0_3 t).mpr (by omega)) (fun h => h15 ((hcond0_4 t).mp h)) (iblk0 V c 0 t) (iblk0 V c 1 t) (iblk0 V c 2 t) ((dat0 V c).before 3 t d3) (prev0 V c t).2.1 (prev0 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := .rfl

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c _ (by rw [show cfg0.N = 64 from N_0]; decide)]
  refine .trans ?_ (PhiA0_join c)
  iintro ⟨H7, H8, HR⟩
  isplitl [H7]; · iexists _; iexact H7
  isplitl [H8]; · iexists _; iexact H8
  iexact HR

end Cert.KernelIdeal.Hand

end
-- ==== Proof.KI.Step1.lean ====
/-
  One grid point of the second layer's kernel as a pure function, and the fold of the points in grid order.
  The grid is (row block, relation, contraction half), the last fastest, so point n has contraction half n % 2 and
  n % 16 = 0 is a row block's first point, n % 16 = 15 its last. The state carried from point to point is
  (the output block as last stored, the gathered-messages accumulator, the transformed-sum accumulator):
    * at a first half (n % 2 = 0) the messages accumulator restarts from zero plus this half's product, and at a row
      block's first point the transformed-sum accumulator restarts from zero;
    * at a second half the messages accumulator gains this half's product, the transformed-sum accumulator gains the
      completed messages times the relation's transform, and at a row block's last point the output block is the
      scaled positive part of that sum.
  The payloads are the kernel's own (the skeleton's); nothing is computed here.
-/
import proofs.«120576_j88519275970865_1_alg».proof.Proof.Gen.KernelIdeal.Skeleton

noncomputable section

namespace Cert.KernelIdeal.Hand

open Cert.KernelIdeal Cert.KernelIdeal.Gen
open Idealize.ShloMosaic

variable {F : FTy → Type} [FloatOps F]

/-- (output block, messages accumulator, transformed-sum accumulator). -/
abbrev St1 (F : FTy → Type) : Type := Vec F S1024x128 .f32 × Vec F S1024x128 .f32 × Vec F S1024x128 .f32

/-- The state before the first point: nothing reads it (the first point restarts both accumulators and stores no output). -/
def init1 : St1 F := (k1_pay1, k1_pay1, k1_pay1)

/-- One grid point, from the point's three input blocks, its position and the state the point before left. -/
def step1 (x3 : Vec F S1x1024x2048 .f32) (x4 : Vec F S2048x128 .f32) (x5 : Vec F S1x128x128 .f32) (n : ℕ) (s : St1 F) : St1 F :=
  if n % 2 = 0 then
    (s.1, k1_pay3 x3 x4 k1_pay1, if n % 16 = 0 then k1_pay2 else s.2.2)
  else
    (if n % 16 = 15 then k1_pay5 (k1_pay4 x5 (k1_pay3 x3 x4 s.2.1) s.2.2) else s.1,
      k1_pay3 x3 x4 s.2.1,
      k1_pay4 x5 (k1_pay3 x3 x4 s.2.1) s.2.2)

/-- The points 0 … n in order, over families of input blocks indexed by the point. -/
def run1 (X3 : ℕ → Vec F S1x1024x2048 .f32) (X4 : ℕ → Vec F S2048x128 .f32) (X5 : ℕ → Vec F S1x128x128 .f32) : ℕ → St1 F
  | 0 => step1 (X3 0) (X4 0) (X5 0) 0 init1
  | n + 1 => step1 (X3 (n + 1)) (X4 (n + 1)) (X5 (n + 1)) (n + 1) (run1 X3 X4 X5 n)

theorem run1_zero (X3 : ℕ → Vec F S1x1024x2048 .f32) (X4 : ℕ → Vec F S2048x128 .f32) (X5 : ℕ → Vec F S1x128x128 .f32) :
    run1 X3 X4 X5 0 = step1 (X3 0) (X4 0) (X5 0) 0 init1 := rfl

theorem run1_succ (X3 : ℕ → Vec F S1x1024x2048 .f32) (X4 : ℕ → Vec F S2048x128 .f32) (X5 : ℕ → Vec F S1x128x128 .f32) (n : ℕ) :
    run1 X3 X4 X5 (n + 1) = step1 (X3 (n + 1)) (X4 (n + 1)) (X5 (n + 1)) (n + 1) (run1 X3 X4 X5 n) := rfl

end Cert.KernelIdeal.Hand

end
-- ==== Proof.KI.Cases1.lean ====
import proofs.«120576_j88519275970865_1_alg».proof.Proof.Gen.KernelIdeal.Launch
import proofs.«120576_j88519275970865_1_alg».proof.Proof.Gen.KernelIdeal.Skeleton
import proofs.«120576_j88519275970865_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  What the four control cases of the layer kernel's body (call 1) are stated over: the body's four conditions as
  propositions about the grid coordinates, each decided over the 64 grid points in closed form (the point's number is
  16 * row block + 2 * relation + contraction half); where the output window is idle; the staging and scratch memrefs
  a point is called with; and the kernel's share of the scoped memory split into its two accumulators and the rest.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## The body's four conditions -/

/-- "first contraction half": the messages accumulator restarts. -/
abbrev cond1_1 (i : grid1.Coords) : Prop := (Scalar.cmpi .ne (Scalar.extui (Scalar.cmpi .eq (BitVec.ofNat 32 (i 2).val) 0#32)) 0#32) = 1#1
/-- "first relation and first half": the transformed-sum accumulator restarts. -/
abbrev cond1_2 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- "last contraction half": the relation's messages are complete and go through its transform. -/
abbrev cond1_3 (i : grid1.Coords) : Prop := (Scalar.cmpi .ne (Scalar.extui (Scalar.cmpi .eq (BitVec.ofNat 32 (i 2).val) 1#32)) 0#32) = 1#1
/-- "last relation and last half": the row block's result is stored. -/
abbrev cond1_4 (i : grid1.Coords) : Prop := k1_cond4 i = 1#1

theorem hcond1_1 : ∀ t : Fin cfg1.N, cond1_1 (grid1.coords t) ↔ t.val % 2 = 0 :=
  (by decide +kernel : ∀ t : Fin grid1.N, cond1_1 (grid1.coords t) ↔ t.val % 2 = 0)
theorem hcond1_2 : ∀ t : Fin cfg1.N, cond1_2 (grid1.coords t) ↔ t.val % 16 = 0 :=
  (by decide +kernel : ∀ t : Fin grid1.N, cond1_2 (grid1.coords t) ↔ t.val % 16 = 0)
theorem hcond1_3 : ∀ t : Fin cfg1.N, cond1_3 (grid1.coords t) ↔ t.val % 2 = 1 :=
  (by decide +kernel : ∀ t : Fin grid1.N, cond1_3 (grid1.coords t) ↔ t.val % 2 = 1)
theorem hcond1_4 : ∀ t : Fin cfg1.N, cond1_4 (grid1.coords t) ↔ t.val % 16 = 15 :=
  (by decide +kernel : ∀ t : Fin grid1.N, cond1_4 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row block's last point nothing is stored into the output window, -/
theorem idleAt1_3 : ∀ t : Fin cfg1.N, ¬cond1_4 (grid1.coords t) → cfg1.idle 3 (grid1.coords t) = true := by decide +kernel
/-- and its block is not written back there; -/
theorem noFlush1_3 : ∀ t : Fin cfg1.N, ¬cond1_4 (grid1.coords t) → (cfg1.win 3).flush t = false := by decide +kernel
/-- at a row block's last point it is stored. -/
theorem liveAt1_3 : ∀ t : Fin cfg1.N, cond1_4 (grid1.coords t) → cfg1.idle 3 (grid1.coords t) = false := by decide +kernel

/-! ## The memrefs a point is called with -/

abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The messages accumulator and the transformed-sum accumulator: whole scoped buffers of the kernel's own. -/
abbrev scM1_7 : Memref sig .tc .vmem S1024x128 .f32 := Memref.whole cc1_scratch0
abbrev scM1_8 : Memref sig .tc .vmem S1024x128 .f32 := Memref.whole cc1_scratch1

/-! ## The kernel's share of the scoped memory -/

/-- Every scoped buffer that is neither a staging buffer of this call nor one of its two accumulators, at some
    contents, and the generator register at some state: what the body never touches. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ r, prngReg c r))

/-- The class's invariant hands out the two accumulators at some contents beside the rest, -/
theorem PhiA1_split (c : Dev nD) :
    (Pipeline.ΦA spec1 c : sProp 𝕄) ⊢ iprop((∃ d, owns (c : Thread nD τ) scM1_7 fullShare d) ∗ (∃ d, owns (c : Thread nD τ) scM1_8 fullShare d) ∗ Rest1 c) := by
  unfold Pipeline.ΦA Rest1; rw [scopedRest1_eq]; simp only [scM1_7, scM1_8, owns_whole]
  iintro ⟨⟨H1, H2, H3, H4, H5, H6, H7, H8, H9, H10, H11, H12⟩, Hg⟩
  isplitl [H11]; · iexact H11
  isplitl [H12]; · iexact H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hg

/-- and takes them back. -/
theorem PhiA1_join (c : Dev nD) :
    iprop((∃ d, owns (c : Thread nD τ) scM1_7 fullShare d) ∗ (∃ d, owns (c : Thread nD τ) scM1_8 fullShare d) ∗ Rest1 c) ⊢ (Pipeline.ΦA spec1 c : sProp 𝕄) := by
  unfold Pipeline.ΦA Rest1; rw [scopedRest1_eq]; simp only [scM1_7, scM1_8, owns_whole]
  iintro ⟨H11, H12, H1, H2, H3, H4, H5, H6, H7, H8, H9, H10, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

end Cert.KernelIdeal.Hand

end
-- ==== Proof.KI.Run1A.lean ====
import proofs.«120576_j88519275970865_1_alg».proof.Proof.KI.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE A — a row block's first point (first relation, first contraction half): both accumulators restart from the zero block; the messages accumulator ends at zero plus this half's product, the transformed-sum accumulator at zero; nothing is stored into the output block.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_A (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond1_1 i) (hc2 : cond1_2 i) (hc3 : ¬cond1_3 i) (hc4 : ¬cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k1_pay3 x3 x4 k1_pay1)
            ∗ owns (c : Thread nD τ) arg8 fullShare (k1_pay2)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr
    swap; · iexact H8
    ipureintro
    sl_unfold_words
    rw [View.read_writes_eq_canon _ _ _ (fun y => ⟨_, List.mem_singleton_self _, View.mem_set_unit_zero hz2_1 inb_S1024x128_S1024x128_0_0 y⟩), View.canon_unit_zero hz2_1]

end Cert.KernelIdeal.Hand

end
-- ==== Proof.KI.Run1B.lean ====
import proofs.«120576_j88519275970865_1_alg».proof.Proof.KI.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE B — a later relation's first contraction half: the messages accumulator restarts from the zero block and ends at zero plus this half's product; the transformed-sum accumulator and the output block are left as found.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_B (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : cond1_1 i) (hc2 : ¬cond1_2 i) (hc3 : ¬cond1_3 i) (hc4 : ¬cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k1_pay3 x3 x4 k1_pay1)
            ∗ owns (c : Thread nD τ) arg8 fullShare (xs8)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr; · ipureintro; exact harg8.read_unread _
    iexact H8

end Cert.KernelIdeal.Hand

end
-- ==== Proof.KI.Run1C.lean ====
import proofs.«120576_j88519275970865_1_alg».proof.Proof.KI.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE C — a second contraction half before the last relation: the messages accumulator gains this half's product, and the transformed-sum accumulator gains the completed messages through the relation's transform; the output block is left as found.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_C (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond1_1 i) (hc2 : ¬cond1_2 i) (hc3 : cond1_3 i) (hc4 : ¬cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (xi6)
            ∗ owns (c : Thread nD τ) arg7 fullShare (k1_pay3 x3 x4 xs7)
            ∗ owns (c : Thread nD τ) arg8 fullShare (k1_pay4 x5 (k1_pay3 x3 x4 xs7) xs8)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2_1 inb_S1024x128_S1024x128_0_0 y⟩), View.canon_unit_zero hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr
    swap; · iexact H8
    ipureintro
    sl_unfold_words
    rw [View.read_writes_eq_canon _ _ _ (fun y => ⟨_, List.mem_singleton_self _, View.mem_set_unit_zero hz2_1 inb_S1024x128_S1024x128_0_0 y⟩), View.canon_unit_zero hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]

end Cert.KernelIdeal.Hand

end
-- ==== Proof.KI.Run1D.lean ====
import proofs.«120576_j88519275970865_1_alg».proof.Proof.KI.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  CASE D — a row block's last point (last relation, second contraction half): as in case C, and the output block is stored: the scaled positive part of the completed transformed sum.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point of this case: the three input blocks are read and left as they were, and
    the output block and the two accumulators end at the stated payloads of what was read. -/
theorem run1_D (c : Dev nD) (i : grid1.Coords)
    (arg3 : Memref sig .tc .vmem S1x1024x2048 .f32) (harg3 : arg3.IsWhole) (arg4 : Memref sig .tc .vmem S2048x128 .f32) (harg4 : arg4.IsWhole)
    (arg5 : Memref sig .tc .vmem S1x128x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .f32) (harg8 : arg8.IsWhole)
    (hc1 : ¬cond1_1 i) (hc2 : ¬cond1_2 i) (hc3 : cond1_3 i) (hc4 : cond1_4 i)
    (x3 : Vec F S1x1024x2048 .f32) (x4 : Vec F S2048x128 .f32) (x5 : Vec F S1x128x128 .f32) (xi6 xs7 xs8 : Vec F S1024x128 .f32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare xi6 ∗ owns (c : Thread nD τ) arg7 fullShare xs7 ∗ owns (c : Thread nD τ) arg8 fullShare xs8
        ∗ (iprop(owns (c : Thread nD τ) arg3 fullShare x3 ∗ owns (c : Thread nD τ) arg4 fullShare x4 ∗ owns (c : Thread nD τ) arg5 fullShare x5
            ∗ owns (c : Thread nD τ) arg6 fullShare (k1_pay5 (k1_pay4 x5 (k1_pay3 x3 x4 xs7) xs8))
            ∗ owns (c : Thread nD τ) arg7 fullShare (k1_pay3 x3 x4 xs7)
            ∗ owns (c : Thread nD τ) arg8 fullShare (k1_pay4 x5 (k1_pay3 x3 x4 xs7) xs8)) -∗ K ⟨⟩))
      ⊢ wp frame (wpE (defs₀ (F := F)) Variants.none c none) E (cc1__gcn_layer_kernel i arg3 harg3 arg4 harg4 arg5 harg5 arg6 harg6 arg7 harg7 arg8 harg8) K := by
  simp only [cc1__gcn_layer_kernel_eq_skeleton]; unfold cc1__gcn_layer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc1 | exact hc2 | exact hc3 | exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero hz2_1 inb_S1024x128_S1024x128_0_0 y⟩), View.canon_unit_zero hz2_1, View.readCov_unit_zero (S := S1024x128) _ hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  isplitl [H7]
  · iexists _; isplitr
    swap; · iexact H7
    ipureintro
    sl_unfold_words
    rw [View.read_writes_eq_canon _ _ _ (fun y => ⟨_, List.mem_singleton_self _, View.mem_set_unit_zero hz2_1 inb_S1024x128_S1024x128_0_0 y⟩), View.canon_unit_zero hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]
  · iexists _; isplitr
    swap; · iexact H8
    ipureintro
    sl_unfold_words
    rw [View.read_writes_eq_canon _ _ _ (fun y => ⟨_, List.mem_singleton_self _, View.mem_set_unit_zero hz2_1 inb_S1024x128_S1024x128_0_0 y⟩), View.canon_unit_zero hz2_1, View.readCov_unit_zero (S := S1024x128) _ hz2_1]
    simp only [View.readAt_eq_ld, harg3.read_unread, harg4.read_unread, harg5.read_unread, harg6.read_unread, harg7.read_unread, harg8.read_unread, View.ld_unit_zero (S := S1x1024x2048) hz3_1, View.ld_unit_zero (S := S2048x128) hz2_1, View.ld_unit_zero (S := S1024x128) hz2_1, View.ld_unit_zero (S := S1x128x128) hz3_1]

end Cert.KernelIdeal.Hand

end
-- ==== Proof.KI.Dat1.lean ====
import proofs.«120576_j88519275970865_1_alg».proof.Proof.KI.Step1
import proofs.«120576_j88519275970865_1_alg».proof.Proof.KI.Run1A
import proofs.«120576_j88519275970865_1_alg».proof.Proof.KI.Run1B
import proofs.«120576_j88519275970865_1_alg».proof.Proof.KI.Run1C
import proofs.«120576_j88519275970865_1_alg».proof.Proof.KI.Run1D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The proof data of layer call 1, at a parameter `V` (the TensorCore's buffer contents when the region is entered).
  Each input window's block at a point is read off its array; the state after point n — the output block as last stored
  and the two accumulators — is the fold of the pure step function over the points' blocks (Step1); the invariant
  before a point holds the two accumulators at what the point before left (before the first point: at anything) beside
  the scoped memory the body never touches. The body obligation is a case split on the point's number modulo 2 and 16:
  each of the four cases is that case's run of the body, handed the accumulators at the previous state and handing them
  back at this point's.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block index
    has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block index
    has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block index
    has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 0's block by the point's number (past the grid: a block nothing reads). -/
def X3at1 (c : Dev nD) (n : ℕ) : Vec F S1x1024x2048 .f32 :=
  if h : n < cfg1.N then iblk1 V c 0 ⟨n, h⟩ else fun _ => (Scalar.ofBits .f32 0x00000000#32 : F .f32)
theorem X3at1_lt (c : Dev nD) (t : Fin cfg1.N) : X3at1 V c t.val = iblk1 V c 0 t := by
  unfold X3at1; rw [dif_pos t.isLt]

/-- Window 1's block by the point's number (past the grid: a block nothing reads). -/
def X4at1 (c : Dev nD) (n : ℕ) : Vec F S2048x128 .f32 :=
  if h : n < cfg1.N then iblk1 V c 1 ⟨n, h⟩ else fun _ => (Scalar.ofBits .f32 0x00000000#32 : F .f32)
theorem X4at1_lt (c : Dev nD) (t : Fin cfg1.N) : X4at1 V c t.val = iblk1 V c 1 t := by
  unfold X4at1; rw [dif_pos t.isLt]

/-- Window 2's block by the point's number (past the grid: a block nothing reads). -/
def X5at1 (c : Dev nD) (n : ℕ) : Vec F S1x128x128 .f32 :=
  if h : n < cfg1.N then iblk1 V c 2 ⟨n, h⟩ else fun _ => (Scalar.ofBits .f32 0x00000000#32 : F .f32)
theorem X5at1_lt (c : Dev nD) (t : Fin cfg1.N) : X5at1 V c t.val = iblk1 V c 2 t := by
  unfold X5at1; rw [dif_pos t.isLt]

/-! ## The state after each point -/

/-- (output block, messages accumulator, transformed-sum accumulator) after point `n`. -/
def outs1 (c : Dev nD) (n : ℕ) : St1 F := run1 (X3at1 V c) (X4at1 V c) (X5at1 V c) n

/-- The state a point starts from. -/
def prev1 (c : Dev nD) (t : Fin cfg1.N) : St1 F := if t.val = 0 then init1 else outs1 V c (t.val - 1)

theorem prev1_pos (c : Dev nD) (t : Fin cfg1.N) (h : t.val ≠ 0) : prev1 V c t = outs1 V c (t.val - 1) := by
  unfold prev1; rw [if_neg h]

/-- One point: the step function at the point's blocks, from the state the point starts from. -/
theorem outs1_at (c : Dev nD) (t : Fin cfg1.N) :
    outs1 V c t.val = step1 (iblk1 V c 0 t) (iblk1 V c 1 t) (iblk1 V c 2 t) t.val (prev1 V c t) := by
  rw [← X3at1_lt V c t, ← X4at1_lt V c t, ← X5at1_lt V c t]
  obtain ⟨n, hn⟩ := t
  cases n with
  | zero => rfl
  | succ n => exact (run1_succ _ _ _ n).trans (by unfold prev1 outs1; rw [if_neg (Nat.succ_ne_zero n)]; rfl)

theorem outs1_A (c : Dev nD) (t : Fin cfg1.N) (h2 : t.val % 2 = 0) (h16 : t.val % 16 = 0) :
    outs1 V c t.val = ((prev1 V c t).1, k1_pay3 (iblk1 V c 0 t) (iblk1 V c 1 t) k1_pay1, k1_pay2) := by
  rw [outs1_at]; unfold step1; rw [if_pos h2, if_pos h16]
theorem outs1_B (c : Dev nD) (t : Fin cfg1.N) (h2 : t.val % 2 = 0) (h16 : ¬t.val % 16 = 0) :
    outs1 V c t.val = ((prev1 V c t).1, k1_pay3 (iblk1 V c 0 t) (iblk1 V c 1 t) k1_pay1, (prev1 V c t).2.2) := by
  rw [outs1_at]; unfold step1; rw [if_pos h2, if_neg h16]
theorem outs1_C (c : Dev nD) (t : Fin cfg1.N) (h2 : ¬t.val % 2 = 0) (h15 : ¬t.val % 16 = 15) :
    outs1 V c t.val = ((prev1 V c t).1, k1_pay3 (iblk1 V c 0 t) (iblk1 V c 1 t) (prev1 V c t).2.1,
      k1_pay4 (iblk1 V c 2 t) (k1_pay3 (iblk1 V c 0 t) (iblk1 V c 1 t) (prev1 V c t).2.1) (prev1 V c t).2.2) := by
  rw [outs1_at]; unfold step1; rw [if_neg h2, if_neg h15]
theorem outs1_D (c : Dev nD) (t : Fin cfg1.N) (h2 : ¬t.val % 2 = 0) (h15 : t.val % 16 = 15) :
    outs1 V c t.val = (k1_pay5 (k1_pay4 (iblk1 V c 2 t) (k1_pay3 (iblk1 V c 0 t) (iblk1 V c 1 t) (prev1 V c t).2.1) (prev1 V c t).2.2),
      k1_pay3 (iblk1 V c 0 t) (iblk1 V c 1 t) (prev1 V c t).2.1,
      k1_pay4 (iblk1 V c 2 t) (k1_pay3 (iblk1 V c 0 t) (iblk1 V c 1 t) (prev1 V c t).2.1) (prev1 V c t).2.2) := by
  rw [outs1_at]; unfold step1; rw [if_neg h2, if_pos h15]

/-! ## The invariant -/

/-- Before position `n`: at the start the class's invariant (both accumulators at anything); afterwards the two
    accumulators at what the point before left, beside the untouched rest. -/
def PhiS1 (c : Dev nD) : ℕ → sProp 𝕄
  | 0 => Pipeline.ΦA spec1 c
  | n + 1 => iprop(owns (c : Thread nD τ) scM1_7 fullShare (outs1 V c n).2.1 ∗ owns (c : Thread nD τ) scM1_8 fullShare (outs1 V c n).2.2 ∗ Rest1 c)

theorem PhiS1_succ (c : Dev nD) (n : ℕ) :
    PhiS1 V c (n + 1) = iprop(owns (c : Thread nD τ) scM1_7 fullShare (outs1 V c n).2.1 ∗ owns (c : Thread nD τ) scM1_8 fullShare (outs1 V c n).2.2 ∗ Rest1 c) := rfl

theorem PhiS1_pos (c : Dev nD) (n : ℕ) (hn : n ≠ 0) :
    PhiS1 V c n = iprop(owns (c : Thread nD τ) scM1_7 fullShare (outs1 V c (n - 1)).2.1 ∗ owns (c : Thread nD τ) scM1_8 fullShare (outs1 V c (n - 1)).2.2 ∗ Rest1 c) := by
  cases n with
  | zero => exact absurd rfl hn
  | succ n => rfl

/-- What a point is handed: the two accumulators at SOME contents — the previous point's, when there is one — and the rest. -/
theorem PhiS1_open (c : Dev nD) (t : Fin cfg1.N) :
    PhiS1 V c t.val ⊢ iprop(∃ s7 s8, ⌜t.val ≠ 0 → s7 = (prev1 V c t).2.1 ∧ s8 = (prev1 V c t).2.2⌝
      ∗ owns (c : Thread nD τ) scM1_7 fullShare s7 ∗ owns (c : Thread nD τ) scM1_8 fullShare s8 ∗ Rest1 c) := by
  by_cases hz : t.val = 0
  · rw [hz]
    refine (PhiA1_split c).trans ?_
    iintro ⟨⟨%d7, H7⟩, ⟨%d8, H8⟩, HR⟩
    iexists d7, d8
    isplitr; · ipureintro; exact fun h => absurd rfl h
    isplitl [H7]; · iexact H7
    isplitl [H8]; · iexact H8
    iexact HR
  · rw [PhiS1_pos V c _ hz, prev1_pos V c t hz]
    iintro ⟨H7, H8, HR⟩
    iexists _, _
    isplitr; · ipureintro; exact fun _ => ⟨rfl, rfl⟩
    isplitl [H7]; · iexact H7
    isplitl [H8]; · iexact H8
    iexact HR

/-! ## The proof data -/

/-- The arrays as the region finds them; after the body each input's buffer at its block and the output's at the
    state's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outs1 V c t.val).1
  Φ t := PhiS1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = PhiS1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outs1 V c t.val).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's number modulo 2 and 16 says which case it
    is in; the invariant hands over the accumulators at the previous state and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h2 : t.val % 2 = 0
  · have HC4N : ¬cond1_4 (grid1.coords t) := fun h => absurd ((hcond1_4 t).mp h) (by omega)
    rw [Dat.leavesExact_idle (dat1 V c) 3 t (idleAt1_3 t HC4N) (noFlush1_3 t HC4N)]
    by_cases h16 : t.val % 16 = 0
    · rw [outs1_A V c t h2 h16]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      iapply (run1_A c (grid1.coords t) _ _ _ _ _ _ _ _ _ _ _ _ ((hcond1_1 t).mpr h2) ((hcond1_2 t).mpr h16) (fun h => absurd ((hcond1_3 t).mp h) (by omega)) (fun h => absurd ((hcond1_4 t).mp h) (by omega)) (iblk1 V c 0 t) (iblk1 V c 1 t) (iblk1 V c 2 t) ((dat1 V c).before 3 t d3) s7 s8 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
    · rw [outs1_B V c t h2 h16]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      obtain ⟨-, rfl⟩ := hs (by omega)
      iapply (run1_B c (grid1.coords t) _ _ _ _ _ _ _ _ _ _ _ _ ((hcond1_1 t).mpr h2) (fun h => h16 ((hcond1_2 t).mp h)) (fun h => absurd ((hcond1_3 t).mp h) (by omega)) (fun h => absurd ((hcond1_4 t).mp h) (by omega)) (iblk1 V c 0 t) (iblk1 V c 1 t) (iblk1 V c 2 t) ((dat1 V c).before 3 t d3) s7 (prev1 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3
  · by_cases h15 : t.val % 16 = 15
    · rw [show (dat1 V c).leavesExact 3 t = owns (c : Thread nD τ) (ms1_3 t) fullShare ((dat1 V c).after 3 t) from by
        unfold Dat.leavesExact; rw [liveAt1_3 t ((hcond1_4 t).mpr h15)], after1_3]
      rw [outs1_D V c t h2 h15]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      obtain ⟨rfl, rfl⟩ := hs (by omega)
      iapply (run1_D c (grid1.coords t) _ _ _ _ _ _ _ _ _ _ _ _ (fun h => h2 ((hcond1_1 t).mp h)) (fun h => absurd ((hcond1_2 t).mp h) (by omega)) ((hcond1_3 t).mpr (by omega)) ((hcond1_4 t).mpr h15) (iblk1 V c 0 t) (iblk1 V c 1 t) (iblk1 V c 2 t) ((dat1 V c).before 3 t d3) (prev1 V c t).2.1 (prev1 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexact H3
    · have HC4N : ¬cond1_4 (grid1.coords t) := fun h => h15 ((hcond1_4 t).mp h)
      rw [Dat.leavesExact_idle (dat1 V c) 3 t (idleAt1_3 t HC4N) (noFlush1_3 t HC4N)]
      rw [outs1_C V c t h2 h15]; dsimp only
      rw [Phi1_castSucc V c t]
      iintro ⟨HΦ, Ho, ⟨%d0, H0⟩, ⟨%d1, H1⟩, ⟨%d2, H2⟩, ⟨%d3, H3⟩⟩
      ihave HΦ' := (PhiS1_open V c t) $$ HΦ
      icases HΦ' with ⟨%s7, %s8, %hs, H7, H8, HR⟩
      obtain ⟨rfl, rfl⟩ := hs (by omega)
      iapply (run1_C c (grid1.coords t) _ _ _ _ _ _ _ _ _ _ _ _ (fun h => h2 ((hcond1_1 t).mp h)) (fun h => absurd ((hcond1_2 t).mp h) (by omega)) ((hcond1_3 t).mpr (by omega)) (fun h => h15 ((hcond1_4 t).mp h)) (iblk1 V c 0 t) (iblk1 V c 1 t) (iblk1 V c 2 t) ((dat1 V c).before 3 t d3) (prev1 V c t).2.1 (prev1 V c t).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      isplitl [H7 H8 HR]
      · isplitl [H7]; · iexact H7
        isplitl [H8]; · iexact H8
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := .rfl

/-- After the last point the invariant gives the class's back: the accumulators' contents are forgotten. -/
theorem hout1 (c : Dev nD) : (dat1 V c).Φ (Fin.last cfg1.N) ⊢ Pipeline.ΦA spec1 c := by
  rw [show (dat1 V c).Φ (Fin.last cfg1.N) = PhiS1 V c cfg1.N from rfl,
    PhiS1_pos V c _ (by rw [show cfg1.N = 64 from N_1]; decide)]
  refine .trans ?_ (PhiA1_join c)
  iintro ⟨H7, H8, HR⟩
  isplitl [H7]; · iexists _; iexact H7
  isplitl [H8]; · iexists _; iexact H8
  iexact HR

end Cert.KernelIdeal.Hand

end
-- ==== Proof.KI.Main.lean ====
import proofs.«120576_j88519275970865_1_alg».proof.Proof.KI.Dat0
import proofs.«120576_j88519275970865_1_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The whole program: two layer calls in a row, the second reading the first's result as its embedding.
  The unscoped buffers' contents at the three boundaries are a fold from the launch memory: `WA` at launch, `WB` after
  the first call (its arrays at what its write-backs leave, every other buffer as entered), `WC` after the second.
  Each call is a segment over "every unscoped buffer at the boundary's contents, the generator register at some
  state, nothing owed"; the launch over the two segments gives: every weakly fair execution terminates, and every final
  memory holds each unscoped buffer at `WC` — so the result buffer holds what the second call's write-backs leave, and
  each argument, which no call writes, what it held at launch.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- Core `c`'s buffers at launch, -/
abbrev WA : Dev nD → Valuation τ sig (Elt F) := fun c b => m (c, b)
/-- read at the TensorCore's references: what the first call's proof data take. -/
abbrev VA : (c : Dev nD) → (b : Ref sig .tc) → Buf (Elt F) ((c : Thread nD τ).loc b) := fun c b => WA m c b
/-- After the first call: its arrays at what the pipeline leaves, every other buffer as entered. -/
def WB (c : Dev nD) : Valuation τ sig (Elt F) :=
  Pipeline.withArrays spec0 c (WA m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb
abbrev VB : (c : Dev nD) → (b : Ref sig .tc) → Buf (Elt F) ((c : Thread nD τ).loc b) := fun c b => WB m c b
theorem hF0 (c : Dev nD) (w : Fin cfg0.W) : (dat0 (VA m) c).arrAt w cfg0.N = VB m c (Pipeline.arrRef spec0 w) :=
  (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- After the second call. -/
def WC (c : Dev nD) : Valuation τ sig (Elt F) :=
  Pipeline.withArrays spec1 c (WB m c) fun w => (dat1 (VB m) c).arrAt w cfg1.N
theorem WC_arr (c : Dev nD) (w : Fin cfg1.W) :
    WC m c (Proc.devRef .tc (Pipeline.arrRef spec1 w)) = (dat1 (VB m) c).arrAt w cfg1.N := by
  unfold WC; exact Pipeline.withArrays_arr spec1 launch1.win.arr_inj c _ _ w
theorem WC_of_ne (c : Dev nD) (b : Ref sig .tc) (hb : ∀ w, Pipeline.arrRef spec1 w ≠ b) :
    WC m c (Proc.devRef .tc b) = WB m c (Proc.devRef .tc b) := by
  unfold WC; exact Pipeline.withArrays_of_ne spec1 c _ _ b hb
abbrev VC : (c : Dev nD) → (b : Ref sig .tc) → Buf (Elt F) ((c : Thread nD τ).loc b) := fun c b => WC m c b
theorem hF1 (c : Dev nD) (w : Fin cfg1.W) : (dat1 (VB m) c).arrAt w cfg1.N = VC m c (Pipeline.arrRef spec1 w) :=
  (WC_arr m c w).symm
theorem hrest1 (c : Dev nD) : ∀ b, b ∉ Finset.univ.image (Pipeline.arrRef spec1) → VC m c b = VB m c b :=
  fun b hb => WC_of_ne m c b fun w e => hb (Finset.mem_image.mpr ⟨w, Finset.mem_univ _, e⟩)

/-! ### The arguments end as launched, and the first call's inputs are the arguments -/

theorem WB_main_arg0 (c : Dev nD) : WB m c (Proc.devRef .tc main_arg0) = m ((c : Thread nD τ).loc main_arg0) :=
  (WB_arr m c 0).trans (((dat0 (VA m) c).arrAt_in 0 rfl _).trans (A_eq0 (VA m) c 0))
theorem WB_main_arg1 (c : Dev nD) : WB m c (Proc.devRef .tc main_arg1) = m ((c : Thread nD τ).loc main_arg1) :=
  (WB_arr m c 1).trans (((dat0 (VA m) c).arrAt_in 1 rfl _).trans (A_eq0 (VA m) c 1))
theorem WB_main_arg2 (c : Dev nD) : WB m c (Proc.devRef .tc main_arg2) = m ((c : Thread nD τ).loc main_arg2) :=
  (WB_arr m c 2).trans (((dat0 (VA m) c).arrAt_in 2 rfl _).trans (A_eq0 (VA m) c 2))
/-- The first call's result array after it. -/
theorem WB_main_v0 (c : Dev nD) : WB m c (Proc.devRef .tc main_v0) = (dat0 (VA m) c).arrAt 3 cfg0.N := WB_arr m c 3

theorem WC_main_arg0 (c : Dev nD) : WC m c (Proc.devRef .tc main_arg0) = m ((c : Thread nD τ).loc main_arg0) :=
  (WC_arr m c 0).trans (((dat1 (VB m) c).arrAt_in 0 rfl _).trans ((A_eq1 (VB m) c 0).trans (WB_main_arg0 m c)))
theorem WC_main_arg1 (c : Dev nD) : WC m c (Proc.devRef .tc main_arg1) = m ((c : Thread nD τ).loc main_arg1) :=
  (WC_of_ne m c main_arg1 (by decide)).trans (WB_main_arg1 m c)
theorem WC_main_arg2 (c : Dev nD) : WC m c (Proc.devRef .tc main_arg2) = m ((c : Thread nD τ).loc main_arg2) :=
  (WC_arr m c 2).trans (((dat1 (VB m) c).arrAt_in 2 rfl _).trans ((A_eq1 (VB m) c 2).trans (WB_main_arg2 m c)))
/-- The program's result array at the end. -/
theorem WC_main_v1 (c : Dev nD) : WC m c (Proc.devRef .tc main_v1) = (dat1 (VB m) c).arrAt 3 cfg1.N := WC_arr m c 3

/-! ## The proof data family and the thread state -/

abbrev adm : (p : Fin 2) → (pcfgs (F := F) p).Adm := fun p => (cfgs p).toPCfg_adm
/-- Both calls' proof data, each at its entry contents (a literal match on the call's number). -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WC m c) ∗ ∃ r, prngReg c r)

/-! ## The calls as segments -/

-- unifying a library lemma stated over the pinned configuration with the printed one unfolds plain definitions in a
-- metavariable's type
set_option backward.isDefEq.respectTransparency.types false in
/-- Layer call 0 as a segment: entered with every unscoped buffer at `WA`, left at `WB`. Its arrays are split out of
    the unscoped buffers and put back at what the write-backs leave; the generator register and the scoped memory go
    into the invariant before the first point and come back after the last; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Layer call 1 as a segment: entered with every unscoped buffer at `WB`, left at `WC`. Its arrays are split out of
    the unscoped buffers and put back at what the write-backs leave; the generator register and the scoped memory go
    into the invariant before the first point and come back after the last; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WC m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WC m c b)
    (hfin := fun c s' => by
      iintro ⟨⟨Hh, -⟩, HSI⟩
      unfold StableHlo.held
      imodintro
      iapply (pointsTo_read_all (Pipeline.ucRefs τ sig) (fun b => (((c : Thread nD τ)).1, b)) (WC m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (WC_main_arg0 m c),
     (h c _ (mem_uc main_arg1 (by decide))).trans (WC_main_arg1 m c),
     (h c _ (mem_uc main_arg2 (by decide))).trans (WC_main_arg2 m c)⟩) (run_all m ρ)

/-- The run with the result named: the result buffer ends at what the second call's write-backs leave. -/
theorem run_value : θ_run defs (onTc (τ := τ) (main (F := F))) ⟨m, fun _ => 0, ρ⟩ (fun r => ∀ c : Dev nD,
      r.2.mem ((c.tc : Thread nD τ).loc main_v1) = (dat1 (VB m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (WC_main_v1 m c),
     (h c _ (mem_uc main_arg0 (by decide))).trans (WC_main_arg0 m c),
     (h c _ (mem_uc main_arg1 (by decide))).trans (WC_main_arg1 m c),
     (h c _ (mem_uc main_arg2 (by decide))).trans (WC_main_arg2 m c)⟩) (run_all m ρ)

end Cert.KernelIdeal.Hand

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KI.Pay0.lean ====
/-
  The layer kernel's payloads read at an entry, on the extended reals.

  Each payload of the kernel is a block of 1024 x 128 values built from the blocks read before it. At an entry (p, q):
    * the restart payloads are the zero word everywhere;
    * the messages payload is the accumulator's entry plus the product of row p of the adjacency block (its leading unit
      axis dropped) with column q of the embedding block, a sum over the 2048 contracted positions — the narrowing to
      bf16 is the identity on extended reals;
    * the transformed-sum payload is the accumulator's entry plus the product of row p of the messages with row q of the
      relation's transform (the kernel multiplies by the transposed transform), a sum over the 128 features;
    * the output payload is the larger of the entry times the word 0x3E000000 and the zero word.
  The two float words are kept as words: nothing here evaluates them.
-/
import proofs.«120576_j88519275970865_1_alg».proof.Proof.Gen.KernelIdeal.Skeleton
import proofs.«120576_j88519275970865_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The dimension numbers of the messages product are the plain ones: contract the left operand's columns against the
    right operand's rows, no batch axis. -/
theorem dot_msg_plain0 : dot_S1024x2048_S2048x128_S1024x128_1_0_0_1_n_n = DotDims.plain 1024 2048 128 := rfl

/-- So are those of the transform product. -/
theorem dot_tr_plain0 : dot_S1024x128_S128x128_S1024x128_1_0_0_1_n_n = DotDims.plain 1024 128 128 := rfl

/-- The messages accumulator's restart payload is the zero word at every entry. -/
theorem pay1_apply0 (i : S1024x128.Idx) : k0_pay1 (F := Ideal) i = Ideal.ofBits .f32 0x00000000#32 := by
  unfold k0_pay1
  simp only [shapeCast_self]
  rfl

/-- The transformed-sum accumulator's restart payload is the zero word at every entry. -/
theorem pay2_apply0 (i : S1024x128.Idx) : k0_pay2 (F := Ideal) i = Ideal.ofBits .f32 0x00000000#32 := by
  unfold k0_pay2
  simp only [shapeCast_self]
  rfl

/-- The messages payload at (p, e): the accumulator's entry plus the sum over the contracted position j of the adjacency
    block's (0, p, j) times the embedding block's (j, e). -/
theorem pay3_apply0 (x3 : Vec Ideal S1x1024x2048 .f32) (x4 : Vec Ideal S2048x128 .f32) (a : Vec Ideal S1024x128 .f32)
    (p : Fin 1024) (e : Fin 128) :
    k0_pay3 (F := Ideal) x3 x4 a (ix2 p e) = a (ix2 p e) + ∑ j : Fin 2048, x3 (ix3 0 p j) * x4 (ix2 j e) := by
  unfold k0_pay3
  simp only [shapeCast_self]
  rw [addf_apply]
  refine congrArg (fun z => a (ix2 p e) + z) ?_
  rw [dot_msg_plain0]
  refine (Cert.PlainDot.matmul_zero_plain_apply none _ _ p e).trans ?_
  refine Finset.sum_congr rfl fun j _ => ?_
  rw [truncf_apply, truncf_apply, shapeCast_1ab_ab_apply]

/-- The transformed-sum payload at (p, d): the accumulator's entry plus the sum over the feature e of the messages'
    (p, e) times the transform block's (0, d, e) — the kernel's right operand is the transform transposed. -/
theorem pay4_apply0 (x5 : Vec Ideal S1x128x128 .f32) (a b : Vec Ideal S1024x128 .f32) (p : Fin 1024) (d : Fin 128) :
    k0_pay4 (F := Ideal) x5 a b (ix2 p d) = b (ix2 p d) + ∑ e : Fin 128, a (ix2 p e) * x5 (ix3 0 d e) := by
  unfold k0_pay4
  simp only [shapeCast_self]
  rw [addf_apply]
  refine congrArg (fun z => b (ix2 p d) + z) ?_
  rw [dot_tr_plain0]
  refine (Cert.PlainDot.matmul_zero_plain_apply none _ _ p d).trans ?_
  refine Finset.sum_congr rfl fun e _ => ?_
  rw [truncf_apply, transpose_ix2_apply, truncf_apply, shapeCast_1ab_ab_apply]

/-- The output payload at (p, d): the larger of the entry times the word 0x3E000000 and the zero word. -/
theorem pay5_apply0 (a : Vec Ideal S1024x128 .f32) (p : Fin 1024) (d : Fin 128) :
    k0_pay5 (F := Ideal) a (ix2 p d)
      = max (a (ix2 p d) * Ideal.ofBits .f32 0x3E000000#32) (Ideal.ofBits .f32 0x00000000#32) := by
  unfold k0_pay5
  rfl

end Cert.KernelIdeal.Hand

end
-- ==== Proof.KI.Fold0.lean ====
/-
  A row block's output after its sixteen points, in closed form, on the extended reals.

  The points of a row block come in pairs, one pair per relation: the first half restarts the messages accumulator with
  its own product, the second half adds its product, so after a pair the messages accumulator holds the sum of the two
  halves' products. At the pair's second half the transformed-sum accumulator gains the completed messages times the
  relation's transform; the row block's first point restarts it from zero, and the points in between carry it. So after
  relation r's pair it holds the sum of the terms of the relations up to r — whatever state the row block started from —,
  and the last point stores the larger of that sum times the word 0x3E000000 and the zero word. The extended reals are an
  additive commutative monoid, so adding the zero and peeling the last term of a sum need no finiteness.
-/
import proofs.«120576_j88519275970865_1_alg».proof.Proof.KI.Step0
import proofs.«120576_j88519275970865_1_alg».proof.Proof.KI.Pay0

noncomputable section

open scoped BigOperators

namespace Cert.KernelIdeal.Hand

open Cert.KernelIdeal Cert.KernelIdeal.Gen Idealize.ShloMosaic Idealize.ShloMosaic.ValueIdx

variable (X3 : ℕ → Vec Ideal S1x1024x2048 .f32) (X4 : ℕ → Vec Ideal S2048x128 .f32) (X5 : ℕ → Vec Ideal S1x128x128 .f32)

/-- A first half: the output is kept, the messages restart from zero plus this half's product, the transformed sum
    restarts at a row block's first point and is kept otherwise. -/
theorem step_even0 (x3 : Vec Ideal S1x1024x2048 .f32) (x4 : Vec Ideal S2048x128 .f32) (x5 : Vec Ideal S1x128x128 .f32)
    (n : ℕ) (s : St0 Ideal) (h : n % 2 = 0) :
    step0 x3 x4 x5 n s = (s.1, k0_pay3 x3 x4 (k0_pay1 (F := Ideal)), if n % 16 = 0 then k0_pay2 (F := Ideal) else s.2.2) := by
  unfold step0
  rw [if_pos h]

/-- A second half: the messages gain this half's product, the transformed sum gains the completed messages through the
    transform, and at a row block's last point the output is the scaled positive part of that sum. -/
theorem step_odd0 (x3 : Vec Ideal S1x1024x2048 .f32) (x4 : Vec Ideal S2048x128 .f32) (x5 : Vec Ideal S1x128x128 .f32)
    (n : ℕ) (s : St0 Ideal) (h : n % 2 = 1) :
    step0 x3 x4 x5 n s
      = (if n % 16 = 15 then k0_pay5 (k0_pay4 x5 (k0_pay3 x3 x4 s.2.1) s.2.2) else s.1,
          k0_pay3 x3 x4 s.2.1,
          k0_pay4 x5 (k0_pay3 x3 x4 s.2.1) s.2.2) := by
  unfold step0
  rw [if_neg (by omega)]

/-- Every point's state is one step from some state. -/
theorem run_step0 (n : ℕ) : ∃ s, run0 X3 X4 X5 n = step0 (X3 n) (X4 n) (X5 n) n s := by
  cases n with
  | zero => exact ⟨init0, rfl⟩
  | succ m => exact ⟨run0 X3 X4 X5 m, rfl⟩

/-- After a first half the messages accumulator is that half's product. -/
theorem msg_even0 (n : ℕ) (h : n % 2 = 0) (p : Fin 1024) (e : Fin 128) :
    (run0 X3 X4 X5 n).2.1 (ix2 p e) = ∑ j : Fin 2048, X3 n (ix3 0 p j) * X4 n (ix2 j e) := by
  obtain ⟨s, hs⟩ := run_step0 X3 X4 X5 n
  rw [hs, step_even0 _ _ _ _ _ h]
  show k0_pay3 (X3 n) (X4 n) (k0_pay1 (F := Ideal)) (ix2 p e) = _
  rw [pay3_apply0, pay1_apply0, Ideal.ofBits_zero_f32, zero_add]

/-- After a row block's first point the transformed-sum accumulator is zero. -/
theorem tsum_first0 (n : ℕ) (h : n % 16 = 0) (p : Fin 1024) (d : Fin 128) :
    (run0 X3 X4 X5 n).2.2 (ix2 p d) = 0 := by
  obtain ⟨s, hs⟩ := run_step0 X3 X4 X5 n
  rw [hs, step_even0 _ _ _ _ _ (by omega)]
  show (if n % 16 = 0 then k0_pay2 (F := Ideal) else s.2.2) (ix2 p d) = 0
  rw [if_pos h, pay2_apply0, Ideal.ofBits_zero_f32]

/-- A first half that is not a row block's first point carries the transformed-sum accumulator. -/
theorem tsum_even0 (n : ℕ) (h2 : (n + 1) % 2 = 0) (h16 : (n + 1) % 16 ≠ 0) :
    (run0 X3 X4 X5 (n + 1)).2.2 = (run0 X3 X4 X5 n).2.2 := by
  rw [run0_succ, step_even0 _ _ _ _ _ h2]
  show (if (n + 1) % 16 = 0 then k0_pay2 (F := Ideal) else (run0 X3 X4 X5 n).2.2) = _
  rw [if_neg h16]

/-- After a second half the messages accumulator has gained that half's product. -/
theorem msg_odd0 (n : ℕ) (h : (n + 1) % 2 = 1) (p : Fin 1024) (e : Fin 128) :
    (run0 X3 X4 X5 (n + 1)).2.1 (ix2 p e)
      = (run0 X3 X4 X5 n).2.1 (ix2 p e) + ∑ j : Fin 2048, X3 (n + 1) (ix3 0 p j) * X4 (n + 1) (ix2 j e) := by
  rw [run0_succ, step_odd0 _ _ _ _ _ h]
  show k0_pay3 (X3 (n + 1)) (X4 (n + 1)) (run0 X3 X4 X5 n).2.1 (ix2 p e) = _
  rw [pay3_apply0]

/-- After a pair of halves the messages accumulator is the sum of the two halves' products. -/
theorem msg_pair0 (n : ℕ) (h : n % 2 = 0) (p : Fin 1024) (e : Fin 128) :
    (run0 X3 X4 X5 (n + 1)).2.1 (ix2 p e)
      = ∑ k : Fin 2, ∑ j : Fin 2048, X3 (n + k.val) (ix3 0 p j) * X4 (n + k.val) (ix2 j e) := by
  rw [msg_odd0 X3 X4 X5 n (by omega), msg_even0 X3 X4 X5 n h, Fin.sum_univ_two]
  rfl

/-- Relation r's term of row block nb at (p, d): its completed messages through its transform. -/
def term0 (nb r : ℕ) (p : Fin 1024) (d : Fin 128) : EReal :=
  ∑ e : Fin 128, (∑ k : Fin 2, ∑ j : Fin 2048,
      X3 (16 * nb + 2 * r + k.val) (ix3 0 p j) * X4 (16 * nb + 2 * r + k.val) (ix2 j e))
    * X5 (16 * nb + 2 * r + 1) (ix3 0 d e)

/-- At a relation's second half the transformed-sum accumulator gains the relation's term. -/
theorem tsum_rel0 (nb r : ℕ) (p : Fin 1024) (d : Fin 128) :
    (run0 X3 X4 X5 (16 * nb + 2 * r + 1)).2.2 (ix2 p d)
      = (run0 X3 X4 X5 (16 * nb + 2 * r)).2.2 (ix2 p d) + term0 X3 X4 X5 nb r p d := by
  rw [run0_succ, step_odd0 _ _ _ _ _ (by omega)]
  show k0_pay4 (X5 (16 * nb + 2 * r + 1))
      (k0_pay3 (X3 (16 * nb + 2 * r + 1)) (X4 (16 * nb + 2 * r + 1)) (run0 X3 X4 X5 (16 * nb + 2 * r)).2.1)
      (run0 X3 X4 X5 (16 * nb + 2 * r)).2.2 (ix2 p d) = _
  rw [pay4_apply0]
  refine congrArg (fun z => (run0 X3 X4 X5 (16 * nb + 2 * r)).2.2 (ix2 p d) + z) ?_
  unfold term0
  refine Finset.sum_congr rfl fun e _ => ?_
  refine congrArg (fun z => z * X5 (16 * nb + 2 * r + 1) (ix3 0 d e)) ?_
  refine Eq.trans ?_ (msg_pair0 X3 X4 X5 (16 * nb + 2 * r) (by omega) p e)
  rw [run0_succ, step_odd0 _ _ _ _ _ (by omega)]

/-- After relation r's pair the transformed-sum accumulator is the sum of the terms of the relations up to r, from any
    state before the row block. -/
theorem tsum_inv0 (nb : ℕ) (p : Fin 1024) (d : Fin 128) (r : ℕ) (hr : r < 8) :
    (run0 X3 X4 X5 (16 * nb + 2 * r + 1)).2.2 (ix2 p d) = ∑ r' ∈ Finset.range (r + 1), term0 X3 X4 X5 nb r' p d := by
  induction r with
  | zero =>
    rw [tsum_rel0 X3 X4 X5 nb 0 p d, tsum_first0 X3 X4 X5 (16 * nb + 2 * 0) (by omega) p d, zero_add, Finset.sum_range_one]
  | succ r ih =>
    rw [tsum_rel0 X3 X4 X5 nb (r + 1) p d, Finset.sum_range_succ _ (r + 1), ← ih (by omega)]
    refine congrArg (fun z => z + term0 X3 X4 X5 nb (r + 1) p d) ?_
    have h : 16 * nb + 2 * (r + 1) = (16 * nb + 2 * r + 1) + 1 := by omega
    rw [h, tsum_even0 X3 X4 X5 _ (by omega) (by omega)]

/-- At a row block's last point the output is the scaled positive part of the transformed sum just completed. -/
theorem out_last0 (n : ℕ) (h : (n + 1) % 16 = 15) (p : Fin 1024) (d : Fin 128) :
    (run0 X3 X4 X5 (n + 1)).1 (ix2 p d)
      = max ((run0 X3 X4 X5 (n + 1)).2.2 (ix2 p d) * Ideal.ofBits .f32 0x3E000000#32) (Ideal.ofBits .f32 0x00000000#32) := by
  rw [run0_succ, step_odd0 _ _ _ _ _ (by omega)]
  show (if (n + 1) % 16 = 15 then
      k0_pay5 (k0_pay4 (X5 (n + 1)) (k0_pay3 (X3 (n + 1)) (X4 (n + 1)) (run0 X3 X4 X5 n).2.1) (run0 X3 X4 X5 n).2.2)
    else (run0 X3 X4 X5 n).1) (ix2 p d) = _
  rw [if_pos h, pay5_apply0]

/-- A row block's output after its sixteen points: over the eight relations, the two halves of the messages product
    summed, through the relation's transform, summed, scaled and cut at zero. -/
theorem out_block0 (nb : ℕ) (p : Fin 1024) (d : Fin 128) :
    (run0 X3 X4 X5 (16 * nb + 15)).1 (ix2 p d)
      = max ((∑ r : Fin 8, ∑ e : Fin 128, (∑ k : Fin 2, ∑ j : Fin 2048,
            X3 (16 * nb + 2 * r.val + k.val) (ix3 0 p j) * X4 (16 * nb + 2 * r.val + k.val) (ix2 j e))
          * X5 (16 * nb + 2 * r.val + 1) (ix3 0 d e)) * Ideal.ofBits .f32 0x3E000000#32)
        (Ideal.ofBits .f32 0x00000000#32) := by
  have h15 : 16 * nb + 15 = (16 * nb + 2 * 7) + 1 := by omega
  rw [h15, out_last0 X3 X4 X5 _ (by omega), tsum_inv0 X3 X4 X5 nb p d 7 (by omega), Finset.sum_range]
  rfl

end Cert.KernelIdeal.Hand

end
-- ==== Proof.Spec.lean ====
/-
  The function both programs compute, stated once over the argument arrays, index by index, on the extended reals.
  One layer of the relational graph convolution: for an adjacency stack `adj` (8 relations, 4096 x 4096), an embedding
  `emb` (4096 x 128) and per-relation transforms `rel` (8, 128 x 128),
    agg r p e   = sum over j of adj(r, p, j) * emb(j, e)              (messages gathered along relation r)
    mix p d     = sum over r, sum over e of agg r p e * rel(r, d, e)   (each relation's transform, transposed, then summed)
    layer (p,d) = max (mix p d * (1/8)) 0                              (the mean over the 8 relations, then relu)
  and the network is two such layers, the second fed the first's result. The factor 1/8 and the zero are kept as the
  binary32 words the kernel spells (0x3E000000 is exactly one eighth).
-/
import Idealize.ShloMosaic.PureOps.Ideal
import Idealize.ShloMosaic.Lib.ValueIdx

noncomputable section

open scoped BigOperators

namespace Cert.Gcn

open Idealize.ShloMosaic Idealize.ShloMosaic.ValueIdx

/-- The adjacency stack, the embedding table and the relation transforms as functions of an index. -/
abbrev Adj : Type := (⟨3, ![8, 4096, 4096]⟩ : Shape).Idx → EReal
abbrev Emb : Type := (⟨2, ![4096, 128]⟩ : Shape).Idx → EReal
abbrev Rel : Type := (⟨3, ![8, 128, 128]⟩ : Shape).Idx → EReal

/-- Messages gathered along relation `r` into row `p`, feature `e`. -/
def agg (adj : Adj) (emb : Emb) (r : Fin 8) (p : Fin 4096) (e : Fin 128) : EReal :=
  ∑ j : Fin 4096, adj (ix3 r p j) * emb (ix2 j e)

/-- Every relation's gathered messages through that relation's transform (contracted on the transform's second axis),
    summed over the relations. -/
def mix (adj : Adj) (emb : Emb) (rel : Rel) (p : Fin 4096) (d : Fin 128) : EReal :=
  ∑ r : Fin 8, ∑ e : Fin 128, agg adj emb r p e * rel (ix3 r d e)

/-- One entry of a layer's result: the mean over the eight relations, then the positive part. -/
def layerAt (adj : Adj) (emb : Emb) (rel : Rel) (p : Fin 4096) (d : Fin 128) : EReal :=
  max (mix adj emb rel p d * Ideal.ofBits .f32 0x3E000000#32) (Ideal.ofBits .f32 0x00000000#32)

/-- One layer, as an array. -/
def layer (adj : Adj) (emb : Emb) (rel : Rel) : Emb := fun i => layerAt adj emb rel (i 0) (i 1)

theorem layer_ix2 (adj : Adj) (emb : Emb) (rel : Rel) (p : Fin 4096) (d : Fin 128) :
    layer adj emb rel (ix2 p d) = layerAt adj emb rel p d := rfl

/-- The two-layer network. -/
def net (adj : Adj) (emb : Emb) (rel : Rel) : Emb := layer adj (layer adj emb rel) rel

end Cert.Gcn

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.KI.Val0.lean ====
/-
  From the blocks to the array: the layer kernel's result array after the region is one layer of the specification of
  the three arrays the region found.

  The point t of the grid is 16 * row block + 2 * relation + contraction half. Its adjacency block is the array at that
  relation, rows 1024 * row block …, columns 2048 * half …; its embedding block is rows 2048 * half … of the embedding;
  its transform block is the relation's transform. So in the closed form of a row block's output the two halves'
  products over 2048 columns each are the two tiles of one sum over the 4096 columns — the gathered messages —, the sum
  over the features against the relation's transform and over the eight relations is the mixed sum, and the last point
  of the row block stores the layer's value at rows 1024 * row block … of the result. The four row blocks' last points
  write back blocks that cover the result array.
-/
import proofs.«120576_j88519275970865_1_alg».proof.Proof.KI.Dat0
import proofs.«120576_j88519275970865_1_alg».proof.Proof.KI.Fold0
import proofs.«120576_j88519275970865_1_alg».proof.Proof.Spec
import proofs.«120576_j88519275970865_1_alg».proof.Proof.LibTiles
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The four windows' block indices at point t, decided over the 64 points: the point's number is
    16 * row block + 2 * relation + contraction half. -/
theorem idx_facts0 : ∀ t : Fin cfg0.N,
    win0_0.index t (0 : Fin 3) = (t.val / 2) % 8 ∧ win0_0.index t (1 : Fin 3) = t.val / 16 ∧ win0_0.index t (2 : Fin 3) = t.val % 2
    ∧ win0_1.index t (0 : Fin 2) = t.val % 2 ∧ win0_1.index t (1 : Fin 2) = 0
    ∧ win0_2.index t (0 : Fin 3) = (t.val / 2) % 8 ∧ win0_2.index t (1 : Fin 3) = 0 ∧ win0_2.index t (2 : Fin 3) = 0
    ∧ win0_3.index t (0 : Fin 2) = t.val / 16 ∧ win0_3.index t (1 : Fin 2) = 0 :=
  (by decide +kernel : ∀ t : Fin grid0.N, _)

/-- The adjacency window's block at point t, at an entry: the array at relation (t / 2) % 8, row 1024 * (t / 16) + the
    block's row, column 2048 * (t % 2) + the block's column. -/
theorem blk_adj_apply0 (c : Dev nD) (t : Fin cfg0.N) (x : S1x1024x2048.Idx) (k : S8x4096x4096.Idx)
    (hka : (k 0).val = (t.val / 2) % 8) (hkb : (k 1).val = 1024 * (t.val / 16) + (x 1).val)
    (hkc : (k 2).val = 2048 * (t.val % 2) + (x 2).val) :
    (iblk0 V c 0 t : Vec Ideal S1x1024x2048 .f32) x = (V c main_arg0 : S8x4096x4096.Idx → Elt Ideal .f32) k := by
  obtain ⟨ea, eb, ec, -⟩ := idx_facts0 t
  have hxa : (x 0).val < 1 := (x 0).isLt
  unfold iblk0
  rw [View.read_apply]
  show V c main_arg0 _ = V c main_arg0 _
  congr 1
  funext a
  apply Fin.ext
  match a with
  | ⟨0, _⟩ => show win0_0.index t 0 * 1 + 1 * (x 0).val = (k 0).val; rw [ea, hka]; omega
  | ⟨1, _⟩ => show win0_0.index t 1 * 1024 + 1 * (x 1).val = (k 1).val; rw [eb, hkb]; omega
  | ⟨2, _⟩ => show win0_0.index t 2 * 2048 + 1 * (x 2).val = (k 2).val; rw [ec, hkc]; omega

/-- The embedding window's block at point t, at an entry: the array at row 2048 * (t % 2) + the block's row. -/
theorem blk_emb_apply0 (c : Dev nD) (t : Fin cfg0.N) (x : S2048x128.Idx) (k : S4096x128.Idx)
    (hka : (k 0).val = 2048 * (t.val % 2) + (x 0).val) (hkb : (k 1).val = (x 1).val) :
    (iblk0 V c 1 t : Vec Ideal S2048x128 .f32) x = (V c main_arg1 : S4096x128.Idx → Elt Ideal .f32) k := by
  obtain ⟨-, -, -, ea, eb, -⟩ := idx_facts0 t
  unfold iblk0
  rw [View.read_apply]
  show V c main_arg1 _ = V c main_arg1 _
  congr 1
  funext a
  apply Fin.ext
  match a with
  | ⟨0, _⟩ => show win0_1.index t 0 * 2048 + 1 * (x 0).val = (k 0).val; rw [ea, hka]; omega
  | ⟨1, _⟩ => show win0_1.index t 1 * 128 + 1 * (x 1).val = (k 1).val; rw [eb, hkb]; omega

/-- The transform window's block at point t, at an entry: the array at relation (t / 2) % 8. -/
theorem blk_rel_apply0 (c : Dev nD) (t : Fin cfg0.N) (x : S1x128x128.Idx) (k : S8x128x128.Idx)
    (hka : (k 0).val = (t.val / 2) % 8) (hkb : (k 1).val = (x 1).val) (hkc : (k 2).val = (x 2).val) :
    (iblk0 V c 2 t : Vec Ideal S1x128x128 .f32) x = (V c main_arg2 : S8x128x128.Idx → Elt Ideal .f32) k := by
  obtain ⟨-, -, -, -, -, ea, eb, ec, -⟩ := idx_facts0 t
  have hxa : (x 0).val < 1 := (x 0).isLt
  unfold iblk0
  rw [View.read_apply]
  show V c main_arg2 _ = V c main_arg2 _
  congr 1
  funext a
  apply Fin.ext
  match a with
  | ⟨0, _⟩ => show win0_2.index t 0 * 1 + 1 * (x 0).val = (k 0).val; rw [ea, hka]; omega
  | ⟨1, _⟩ => show win0_2.index t 1 * 128 + 1 * (x 1).val = (k 1).val; rw [eb, hkb]; omega
  | ⟨2, _⟩ => show win0_2.index t 2 * 128 + 1 * (x 2).val = (k 2).val; rw [ec, hkc]; omega

/-- A sum over the 4096 columns is the sum over the two halves of the sums over each half's 2048 columns. -/
theorem sum_halves0 (f : Fin 4096 → EReal) :
    ∑ i : Fin 4096, f i = ∑ k : Fin 2, ∑ j : Fin 2048, f ⟨k.val * 2048 + j.val, by omega⟩ :=
  Cert.Lib.Tiles.sum_tiles 2 2048 f

/-- A row block's output, when the points' blocks are the arrays' blocks: the layer's value at the row block's rows. -/
theorem layer_block0 (adj : Cert.Gcn.Adj) (emb : Cert.Gcn.Emb) (rel : Cert.Gcn.Rel)
    (X3 : ℕ → Vec Ideal S1x1024x2048 .f32) (X4 : ℕ → Vec Ideal S2048x128 .f32) (X5 : ℕ → Vec Ideal S1x128x128 .f32)
    (nb : ℕ) (hnb : nb < 4)
    (h3 : ∀ (r : Fin 8) (k : Fin 2) (p : Fin 1024) (j : Fin 2048),
      X3 (16 * nb + 2 * r.val + k.val) (ix3 0 p j)
        = adj (ix3 r (⟨1024 * nb + p.val, by omega⟩ : Fin 4096) (⟨k.val * 2048 + j.val, by omega⟩ : Fin 4096)))
    (h4 : ∀ (r : Fin 8) (k : Fin 2) (j : Fin 2048) (e : Fin 128),
      X4 (16 * nb + 2 * r.val + k.val) (ix2 j e) = emb (ix2 (⟨k.val * 2048 + j.val, by omega⟩ : Fin 4096) e))
    (h5 : ∀ (r : Fin 8) (d e : Fin 128), X5 (16 * nb + 2 * r.val + 1) (ix3 0 d e) = rel (ix3 r d e))
    (p : Fin 1024) (d : Fin 128) :
    (run0 X3 X4 X5 (16 * nb + 15)).1 (ix2 p d)
      = Cert.Gcn.layerAt adj emb rel (⟨1024 * nb + p.val, by omega⟩ : Fin 4096) d := by
  rw [out_block0]
  unfold Cert.Gcn.layerAt Cert.Gcn.mix Cert.Gcn.agg
  refine congrArg (fun z => max (z * Ideal.ofBits .f32 0x3E000000#32) (Ideal.ofBits .f32 0x00000000#32)) ?_
  refine Finset.sum_congr rfl fun r _ => Finset.sum_congr rfl fun e _ => ?_
  rw [h5 r d e, sum_halves0]
  refine congrArg (fun z => z * rel (ix3 r d e)) ?_
  refine Finset.sum_congr rfl fun k _ => Finset.sum_congr rfl fun j _ => ?_
  rw [h3 r k p j, h4 r k j e]

/-- The output block after a row block's last point is the layer of the arrays the region found, at the row block's
    rows. -/
theorem outs_last0 (c : Dev nD) (nb : ℕ) (hnb : nb < 4) (p : Fin 1024) (d : Fin 128) :
    (outs0 V c (16 * nb + 15)).1 (ix2 p d)
      = Cert.Gcn.layerAt (V c main_arg0) (V c main_arg1) (V c main_arg2) (⟨1024 * nb + p.val, by omega⟩ : Fin 4096) d := by
  have hN : cfg0.N = 64 := N_0
  unfold outs0
  refine layer_block0 (V c main_arg0) (V c main_arg1) (V c main_arg2) _ _ _ nb hnb ?_ ?_ ?_ p d
  · intro r k p j
    have hlt : 16 * nb + 2 * r.val + k.val < cfg0.N := by rw [hN]; omega
    refine (congrFun (X3at0_lt V c ⟨_, hlt⟩) _).trans (blk_adj_apply0 V c ⟨_, hlt⟩ _ _ ?_ ?_ ?_)
    · show r.val = (16 * nb + 2 * r.val + k.val) / 2 % 8; omega
    · show 1024 * nb + p.val = 1024 * ((16 * nb + 2 * r.val + k.val) / 16) + p.val; omega
    · show k.val * 2048 + j.val = 2048 * ((16 * nb + 2 * r.val + k.val) % 2) + j.val; omega
  · intro r k j e
    have hlt : 16 * nb + 2 * r.val + k.val < cfg0.N := by rw [hN]; omega
    refine (congrFun (X4at0_lt V c ⟨_, hlt⟩) _).trans (blk_emb_apply0 V c ⟨_, hlt⟩ _ _ ?_ ?_)
    · show k.val * 2048 + j.val = 2048 * ((16 * nb + 2 * r.val + k.val) % 2) + j.val; omega
    · rfl
  · intro r d e
    have hlt : 16 * nb + 2 * r.val + 1 < cfg0.N := by rw [hN]; omega
    refine (congrFun (X5at0_lt V c ⟨_, hlt⟩) _).trans (blk_rel_apply0 V c ⟨_, hlt⟩ _ _ ?_ ?_ ?_)
    · show r.val = (16 * nb + 2 * r.val + 1) / 2 % 8; omega
    · rfl
    · rfl

/-- What a row block's last point writes back is its block of the layer of the arrays the region found. -/
theorem flushed_eq0 (c : Dev nD) (t : Fin cfg0.N) (hf : (cfg0.win 3).flush t = true) :
    (dat0 V c).flushed 3 t = ((cfg0.win 3).blk t).view.read (Elt Ideal)
      (Cert.Gcn.layer (V c main_arg0) (V c main_arg1) (V c main_arg2)) := by
  have hN : cfg0.N = 64 := N_0
  have h15 : t.val % 16 = 15 := (flush0_3 t).mp hf
  have htlt : t.val < 64 := lt_of_lt_of_eq t.isLt hN
  obtain ⟨nb, ht⟩ : ∃ nb, t.val = 16 * nb + 15 := ⟨t.val / 16, by omega⟩
  have hnb : nb < 4 := by omega
  obtain ⟨-, -, -, -, -, -, -, -, ea, eb⟩ := idx_facts0 t
  show (cfg0.win 3).cut (grid0.coords t) ((dat0 V c).after 3 t) = _
  rw [after0_3]
  funext j
  obtain ⟨p, d, rfl⟩ : ∃ (p : Fin 1024) (d : Fin 128), j = ix2 p d := ⟨j 0, j 1, eq_ix2 j⟩
  rw [View.read_apply]
  have hemb : ((cfg0.win 3).blk t).view.emb (ix2 p d) = (ix2 (⟨1024 * nb + p.val, by omega⟩ : Fin 4096) d : S4096x128.Idx) := by
    funext a
    apply Fin.ext
    match a with
    | ⟨0, _⟩ => show win0_3.index t 0 * 1024 + 1 * p.val = 1024 * nb + p.val; rw [ea]; omega
    | ⟨1, _⟩ => show win0_3.index t 1 * 128 + 1 * d.val = d.val; rw [eb]; omega
  rw [hemb, Cert.Gcn.layer_ix2]
  show (outs0 V c t.val).1 (ix2 p d) = _
  rw [ht]
  exact outs_last0 V c nb hnb p d

/-- The result array after the region is one layer of the specification of the three arrays the region found: every
    row lies in the block its row block's last point writes back. -/
theorem final0 (c : Dev nD) :
    (dat0 (F := Ideal) V c).arrAt 3 cfg0.N = Cert.Gcn.layer (V c main_arg0) (V c main_arg1) (V c main_arg2) :=
  (dat0 V c).arrAt_eq_of_cover 3 (Cert.Gcn.layer (V c main_arg0) (V c main_arg1) (V c main_arg2)) (flushed_eq0 V c) fun i => by
    have hN : cfg0.N = 64 := N_0
    have hia : (i 0 : ℕ) < 4096 := (i 0).isLt
    have hib : (i 1 : ℕ) < 128 := (i 1).isLt
    have hlt : 16 * ((i 0 : ℕ) / 1024) + 15 < cfg0.N := by rw [hN]; omega
    obtain ⟨-, -, -, -, -, -, -, -, ea, eb⟩ := idx_facts0 ⟨_, hlt⟩
    refine ⟨⟨_, hlt⟩, (flush0_3 ⟨_, hlt⟩).mpr (by show (16 * ((i 0 : ℕ) / 1024) + 15) % 16 = 15; omega), ?_⟩
    show i ∈ ((View.whole main_v0).slice (win0_3.rect ⟨_, hlt⟩)).set
    rw [View.set_slice_whole, Rect.mem_set_unit]
    intro a
    match a with
    | ⟨0, _⟩ =>
      show win0_3.index ⟨_, hlt⟩ 0 * 1024 ≤ (i 0 : ℕ) ∧ (i 0 : ℕ) < win0_3.index ⟨_, hlt⟩ 0 * 1024 + 1024
      rw [ea]
      show (16 * ((i 0 : ℕ) / 1024) + 15) / 16 * 1024 ≤ (i 0 : ℕ) ∧ (i 0 : ℕ) < (16 * ((i 0 : ℕ) / 1024) + 15) / 16 * 1024 + 1024
      omega
    | ⟨1, _⟩ =>
      show win0_3.index ⟨_, hlt⟩ 1 * 128 ≤ (i 1 : ℕ) ∧ (i 1 : ℕ) < win0_3.index ⟨_, hlt⟩ 1 * 128 + 128
      rw [eb]
      omega

end Cert.KernelIdeal.Hand

end
-- ==== Proof.KI.Pay1.lean ====
/-
  The layer kernel's payloads read at an entry, on the extended reals.

  Each payload of the kernel is a block of 1024 x 128 values built from the blocks read before it. At an entry (p, q):
    * the restart payloads are the zero word everywhere;
    * the messages payload is the accumulator's entry plus the product of row p of the adjacency block (its leading unit
      axis dropped) with column q of the embedding block, a sum over the 2048 contracted positions — the narrowing to
      bf16 is the identity on extended reals;
    * the transformed-sum payload is the accumulator's entry plus the product of row p of the messages with row q of the
      relation's transform (the kernel multiplies by the transposed transform), a sum over the 128 features;
    * the output payload is the larger of the entry times the word 0x3E000000 and the zero word.
  The two float words are kept as words: nothing here evaluates them.
-/
import proofs.«120576_j88519275970865_1_alg».proof.Proof.Gen.KernelIdeal.Skeleton
import proofs.«120576_j88519275970865_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The dimension numbers of the messages product are the plain ones: contract the left operand's columns against the
    right operand's rows, no batch axis. -/
theorem dot_msg_plain1 : dot_S1024x2048_S2048x128_S1024x128_1_0_0_1_n_n = DotDims.plain 1024 2048 128 := rfl

/-- So are those of the transform product. -/
theorem dot_tr_plain1 : dot_S1024x128_S128x128_S1024x128_1_0_0_1_n_n = DotDims.plain 1024 128 128 := rfl

/-- The messages accumulator's restart payload is the zero word at every entry. -/
theorem pay1_apply1 (i : S1024x128.Idx) : k1_pay1 (F := Ideal) i = Ideal.ofBits .f32 0x00000000#32 := by
  unfold k1_pay1
  simp only [shapeCast_self]
  rfl

/-- The transformed-sum accumulator's restart payload is the zero word at every entry. -/
theorem pay2_apply1 (i : S1024x128.Idx) : k1_pay2 (F := Ideal) i = Ideal.ofBits .f32 0x00000000#32 := by
  unfold k1_pay2
  simp only [shapeCast_self]
  rfl

/-- The messages payload at (p, e): the accumulator's entry plus the sum over the contracted position j of the adjacency
    block's (0, p, j) times the embedding block's (j, e). -/
theorem pay3_apply1 (x3 : Vec Ideal S1x1024x2048 .f32) (x4 : Vec Ideal S2048x128 .f32) (a : Vec Ideal S1024x128 .f32)
    (p : Fin 1024) (e : Fin 128) :
    k1_pay3 (F := Ideal) x3 x4 a (ix2 p e) = a (ix2 p e) + ∑ j : Fin 2048, x3 (ix3 0 p j) * x4 (ix2 j e) := by
  unfold k1_pay3
  simp only [shapeCast_self]
  rw [addf_apply]
  refine congrArg (fun z => a (ix2 p e) + z) ?_
  rw [dot_msg_plain1]
  refine (Cert.PlainDot.matmul_zero_plain_apply none _ _ p e).trans ?_
  refine Finset.sum_congr rfl fun j _ => ?_
  rw [truncf_apply, truncf_apply, shapeCast_1ab_ab_apply]

/-- The transformed-sum payload at (p, d): the accumulator's entry plus the sum over the feature e of the messages'
    (p, e) times the transform block's (0, d, e) — the kernel's right operand is the transform transposed. -/
theorem pay4_apply1 (x5 : Vec Ideal S1x128x128 .f32) (a b : Vec Ideal S1024x128 .f32) (p : Fin 1024) (d : Fin 128) :
    k1_pay4 (F := Ideal) x5 a b (ix2 p d) = b (ix2 p d) + ∑ e : Fin 128, a (ix2 p e) * x5 (ix3 0 d e) := by
  unfold k1_pay4
  simp only [shapeCast_self]
  rw [addf_apply]
  refine congrArg (fun z => b (ix2 p d) + z) ?_
  rw [dot_tr_plain1]
  refine (Cert.PlainDot.matmul_zero_plain_apply none _ _ p d).trans ?_
  refine Finset.sum_congr rfl fun e _ => ?_
  rw [truncf_apply, transpose_ix2_apply, truncf_apply, shapeCast_1ab_ab_apply]

/-- The output payload at (p, d): the larger of the entry times the word 0x3E000000 and the zero word. -/
theorem pay5_apply1 (a : Vec Ideal S1024x128 .f32) (p : Fin 1024) (d : Fin 128) :
    k1_pay5 (F := Ideal) a (ix2 p d)
      = max (a (ix2 p d) * Ideal.ofBits .f32 0x3E000000#32) (Ideal.ofBits .f32 0x00000000#32) := by
  unfold k1_pay5
  rfl

end Cert.KernelIdeal.Hand

end
-- ==== Proof.KI.Fold1.lean ====
/-
  A row block's output after its sixteen points, in closed form, on the extended reals.

  The points of a row block come in pairs, one pair per relation: the first half restarts the messages accumulator with
  its own product, the second half adds its product, so after a pair the messages accumulator holds the sum of the two
  halves' products. At the pair's second half the transformed-sum accumulator gains the completed messages times the
  relation's transform; the row block's first point restarts it from zero, and the points in between carry it. So after
  relation r's pair it holds the sum of the terms of the relations up to r — whatever state the row block started from —,
  and the last point stores the larger of that sum times the word 0x3E000000 and the zero word. The extended reals are an
  additive commutative monoid, so adding the zero and peeling the last term of a sum need no finiteness.
-/
import proofs.«120576_j88519275970865_1_alg».proof.Proof.KI.Step1
import proofs.«120576_j88519275970865_1_alg».proof.Proof.KI.Pay1

noncomputable section

open scoped BigOperators

namespace Cert.KernelIdeal.Hand

open Cert.KernelIdeal Cert.KernelIdeal.Gen Idealize.ShloMosaic Idealize.ShloMosaic.ValueIdx

variable (X3 : ℕ → Vec Ideal S1x1024x2048 .f32) (X4 : ℕ → Vec Ideal S2048x128 .f32) (X5 : ℕ → Vec Ideal S1x128x128 .f32)

/-- A first half: the output is kept, the messages restart from zero plus this half's product, the transformed sum
    restarts at a row block's first point and is kept otherwise. -/
theorem step_even1 (x3 : Vec Ideal S1x1024x2048 .f32) (x4 : Vec Ideal S2048x128 .f32) (x5 : Vec Ideal S1x128x128 .f32)
    (n : ℕ) (s : St1 Ideal) (h : n % 2 = 0) :
    step1 x3 x4 x5 n s = (s.1, k1_pay3 x3 x4 (k1_pay1 (F := Ideal)), if n % 16 = 0 then k1_pay2 (F := Ideal) else s.2.2) := by
  unfold step1
  rw [if_pos h]

/-- A second half: the messages gain this half's product, the transformed sum gains the completed messages through the
    transform, and at a row block's last point the output is the scaled positive part of that sum. -/
theorem step_odd1 (x3 : Vec Ideal S1x1024x2048 .f32) (x4 : Vec Ideal S2048x128 .f32) (x5 : Vec Ideal S1x128x128 .f32)
    (n : ℕ) (s : St1 Ideal) (h : n % 2 = 1) :
    step1 x3 x4 x5 n s
      = (if n % 16 = 15 then k1_pay5 (k1_pay4 x5 (k1_pay3 x3 x4 s.2.1) s.2.2) else s.1,
          k1_pay3 x3 x4 s.2.1,
          k1_pay4 x5 (k1_pay3 x3 x4 s.2.1) s.2.2) := by
  unfold step1
  rw [if_neg (by omega)]

/-- Every point's state is one step from some state. -/
theorem run_step1 (n : ℕ) : ∃ s, run1 X3 X4 X5 n = step1 (X3 n) (X4 n) (X5 n) n s := by
  cases n with
  | zero => exact ⟨init1, rfl⟩
  | succ m => exact ⟨run1 X3 X4 X5 m, rfl⟩

/-- After a first half the messages accumulator is that half's product. -/
theorem msg_even1 (n : ℕ) (h : n % 2 = 0) (p : Fin 1024) (e : Fin 128) :
    (run1 X3 X4 X5 n).2.1 (ix2 p e) = ∑ j : Fin 2048, X3 n (ix3 0 p j) * X4 n (ix2 j e) := by
  obtain ⟨s, hs⟩ := run_step1 X3 X4 X5 n
  rw [hs, step_even1 _ _ _ _ _ h]
  show k1_pay3 (X3 n) (X4 n) (k1_pay1 (F := Ideal)) (ix2 p e) = _
  rw [pay3_apply1, pay1_apply1, Ideal.ofBits_zero_f32, zero_add]

/-- After a row block's first point the transformed-sum accumulator is zero. -/
theorem tsum_first1 (n : ℕ) (h : n % 16 = 0) (p : Fin 1024) (d : Fin 128) :
    (run1 X3 X4 X5 n).2.2 (ix2 p d) = 0 := by
  obtain ⟨s, hs⟩ := run_step1 X3 X4 X5 n
  rw [hs, step_even1 _ _ _ _ _ (by omega)]
  show (if n % 16 = 0 then k1_pay2 (F := Ideal) else s.2.2) (ix2 p d) = 0
  rw [if_pos h, pay2_apply1, Ideal.ofBits_zero_f32]

/-- A first half that is not a row block's first point carries the transformed-sum accumulator. -/
theorem tsum_even1 (n : ℕ) (h2 : (n + 1) % 2 = 0) (h16 : (n + 1) % 16 ≠ 0) :
    (run1 X3 X4 X5 (n + 1)).2.2 = (run1 X3 X4 X5 n).2.2 := by
  rw [run1_succ, step_even1 _ _ _ _ _ h2]
  show (if (n + 1) % 16 = 0 then k1_pay2 (F := Ideal) else (run1 X3 X4 X5 n).2.2) = _
  rw [if_neg h16]

/-- After a second half the messages accumulator has gained that half's product. -/
theorem msg_odd1 (n : ℕ) (h : (n + 1) % 2 = 1) (p : Fin 1024) (e : Fin 128) :
    (run1 X3 X4 X5 (n + 1)).2.1 (ix2 p e)
      = (run1 X3 X4 X5 n).2.1 (ix2 p e) + ∑ j : Fin 2048, X3 (n + 1) (ix3 0 p j) * X4 (n + 1) (ix2 j e) := by
  rw [run1_succ, step_odd1 _ _ _ _ _ h]
  show k1_pay3 (X3 (n + 1)) (X4 (n + 1)) (run1 X3 X4 X5 n).2.1 (ix2 p e) = _
  rw [pay3_apply1]

/-- After a pair of halves the messages accumulator is the sum of the two halves' products. -/
theorem msg_pair1 (n : ℕ) (h : n % 2 = 0) (p : Fin 1024) (e : Fin 128) :
    (run1 X3 X4 X5 (n + 1)).2.1 (ix2 p e)
      = ∑ k : Fin 2, ∑ j : Fin 2048, X3 (n + k.val) (ix3 0 p j) * X4 (n + k.val) (ix2 j e) := by
  rw [msg_odd1 X3 X4 X5 n (by omega), msg_even1 X3 X4 X5 n h, Fin.sum_univ_two]
  rfl

/-- Relation r's term of row block nb at (p, d): its completed messages through its transform. -/
def term1 (nb r : ℕ) (p : Fin 1024) (d : Fin 128) : EReal :=
  ∑ e : Fin 128, (∑ k : Fin 2, ∑ j : Fin 2048,
      X3 (16 * nb + 2 * r + k.val) (ix3 0 p j) * X4 (16 * nb + 2 * r + k.val) (ix2 j e))
    * X5 (16 * nb + 2 * r + 1) (ix3 0 d e)

/-- At a relation's second half the transformed-sum accumulator gains the relation's term. -/
theorem tsum_rel1 (nb r : ℕ) (p : Fin 1024) (d : Fin 128) :
    (run1 X3 X4 X5 (16 * nb + 2 * r + 1)).2.2 (ix2 p d)
      = (run1 X3 X4 X5 (16 * nb + 2 * r)).2.2 (ix2 p d) + term1 X3 X4 X5 nb r p d := by
  rw [run1_succ, step_odd1 _ _ _ _ _ (by omega)]
  show k1_pay4 (X5 (16 * nb + 2 * r + 1))
      (k1_pay3 (X3 (16 * nb + 2 * r + 1)) (X4 (16 * nb + 2 * r + 1)) (run1 X3 X4 X5 (16 * nb + 2 * r)).2.1)
      (run1 X3 X4 X5 (16 * nb + 2 * r)).2.2 (ix2 p d) = _
  rw [pay4_apply1]
  refine congrArg (fun z => (run1 X3 X4 X5 (16 * nb + 2 * r)).2.2 (ix2 p d) + z) ?_
  unfold term1
  refine Finset.sum_congr rfl fun e _ => ?_
  refine congrArg (fun z => z * X5 (16 * nb + 2 * r + 1) (ix3 0 d e)) ?_
  refine Eq.trans ?_ (msg_pair1 X3 X4 X5 (16 * nb + 2 * r) (by omega) p e)
  rw [run1_succ, step_odd1 _ _ _ _ _ (by omega)]

/-- After relation r's pair the transformed-sum accumulator is the sum of the terms of the relations up to r, from any
    state before the row block. -/
theorem tsum_inv1 (nb : ℕ) (p : Fin 1024) (d : Fin 128) (r : ℕ) (hr : r < 8) :
    (run1 X3 X4 X5 (16 * nb + 2 * r + 1)).2.2 (ix2 p d) = ∑ r' ∈ Finset.range (r + 1), term1 X3 X4 X5 nb r' p d := by
  induction r with
  | zero =>
    rw [tsum_rel1 X3 X4 X5 nb 0 p d, tsum_first1 X3 X4 X5 (16 * nb + 2 * 0) (by omega) p d, zero_add, Finset.sum_range_one]
  | succ r ih =>
    rw [tsum_rel1 X3 X4 X5 nb (r + 1) p d, Finset.sum_range_succ _ (r + 1), ← ih (by omega)]
    refine congrArg (fun z => z + term1 X3 X4 X5 nb (r + 1) p d) ?_
    have h : 16 * nb + 2 * (r + 1) = (16 * nb + 2 * r + 1) + 1 := by omega
    rw [h, tsum_even1 X3 X4 X5 _ (by omega) (by omega)]

/-- At a row block's last point the output is the scaled positive part of the transformed sum just completed. -/
theorem out_last1 (n : ℕ) (h : (n + 1) % 16 = 15) (p : Fin 1024) (d : Fin 128) :
    (run1 X3 X4 X5 (n + 1)).1 (ix2 p d)
      = max ((run1 X3 X4 X5 (n + 1)).2.2 (ix2 p d) * Ideal.ofBits .f32 0x3E000000#32) (Ideal.ofBits .f32 0x00000000#32) := by
  rw [run1_succ, step_odd1 _ _ _ _ _ (by omega)]
  show (if (n + 1) % 16 = 15 then
      k1_pay5 (k1_pay4 (X5 (n + 1)) (k1_pay3 (X3 (n + 1)) (X4 (n + 1)) (run1 X3 X4 X5 n).2.1) (run1 X3 X4 X5 n).2.2)
    else (run1 X3 X4 X5 n).1) (ix2 p d) = _
  rw [if_pos h, pay5_apply1]

/-- A row block's output after its sixteen points: over the eight relations, the two halves of the messages product
    summed, through the relation's transform, summed, scaled and cut at zero. -/
theorem out_block1 (nb : ℕ) (p : Fin 1024) (d : Fin 128) :
    (run1 X3 X4 X5 (16 * nb + 15)).1 (ix2 p d)
      = max ((∑ r : Fin 8, ∑ e : Fin 128, (∑ k : Fin 2, ∑ j : Fin 2048,
            X3 (16 * nb + 2 * r.val + k.val) (ix3 0 p j) * X4 (16 * nb + 2 * r.val + k.val) (ix2 j e))
          * X5 (16 * nb + 2 * r.val + 1) (ix3 0 d e)) * Ideal.ofBits .f32 0x3E000000#32)
        (Ideal.ofBits .f32 0x00000000#32) := by
  have h15 : 16 * nb + 15 = (16 * nb + 2 * 7) + 1 := by omega
  rw [h15, out_last1 X3 X4 X5 _ (by omega), tsum_inv1 X3 X4 X5 nb p d 7 (by omega), Finset.sum_range]
  rfl

end Cert.KernelIdeal.Hand

end
-- ==== Proof.KI.Val1.lean ====
/-
  From the blocks to the array: the layer kernel's result array after the region is one layer of the specification of
  the three arrays the region found.

  The point t of the grid is 16 * row block + 2 * relation + contraction half. Its adjacency block is the array at that
  relation, rows 1024 * row block …, columns 2048 * half …; its embedding block is rows 2048 * half … of the embedding;
  its transform block is the relation's transform. So in the closed form of a row block's output the two halves'
  products over 2048 columns each are the two tiles of one sum over the 4096 columns — the gathered messages —, the sum
  over the features against the relation's transform and over the eight relations is the mixed sum, and the last point
  of the row block stores the layer's value at rows 1024 * row block … of the result. The four row blocks' last points
  write back blocks that cover the result array.
-/
import proofs.«120576_j88519275970865_1_alg».proof.Proof.KI.Dat1
import proofs.«120576_j88519275970865_1_alg».proof.Proof.KI.Fold1
import proofs.«120576_j88519275970865_1_alg».proof.Proof.Spec
import proofs.«120576_j88519275970865_1_alg».proof.Proof.LibTiles
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The four windows' block indices at point t, decided over the 64 points: the point's number is
    16 * row block + 2 * relation + contraction half. -/
theorem idx_facts1 : ∀ t : Fin cfg1.N,
    win1_0.index t (0 : Fin 3) = (t.val / 2) % 8 ∧ win1_0.index t (1 : Fin 3) = t.val / 16 ∧ win1_0.index t (2 : Fin 3) = t.val % 2
    ∧ win1_1.index t (0 : Fin 2) = t.val % 2 ∧ win1_1.index t (1 : Fin 2) = 0
    ∧ win1_2.index t (0 : Fin 3) = (t.val / 2) % 8 ∧ win1_2.index t (1 : Fin 3) = 0 ∧ win1_2.index t (2 : Fin 3) = 0
    ∧ win1_3.index t (0 : Fin 2) = t.val / 16 ∧ win1_3.index t (1 : Fin 2) = 0 :=
  (by decide +kernel : ∀ t : Fin grid1.N, _)

/-- The adjacency window's block at point t, at an entry: the array at relation (t / 2) % 8, row 1024 * (t / 16) + the
    block's row, column 2048 * (t % 2) + the block's column. -/
theorem blk_adj_apply1 (c : Dev nD) (t : Fin cfg1.N) (x : S1x1024x2048.Idx) (k : S8x4096x4096.Idx)
    (hka : (k 0).val = (t.val / 2) % 8) (hkb : (k 1).val = 1024 * (t.val / 16) + (x 1).val)
    (hkc : (k 2).val = 2048 * (t.val % 2) + (x 2).val) :
    (iblk1 V c 0 t : Vec Ideal S1x1024x2048 .f32) x = (V c main_arg0 : S8x4096x4096.Idx → Elt Ideal .f32) k := by
  obtain ⟨ea, eb, ec, -⟩ := idx_facts1 t
  have hxa : (x 0).val < 1 := (x 0).isLt
  unfold iblk1
  rw [View.read_apply]
  show V c main_arg0 _ = V c main_arg0 _
  congr 1
  funext a
  apply Fin.ext
  match a with
  | ⟨0, _⟩ => show win1_0.index t 0 * 1 + 1 * (x 0).val = (k 0).val; rw [ea, hka]; omega
  | ⟨1, _⟩ => show win1_0.index t 1 * 1024 + 1 * (x 1).val = (k 1).val; rw [eb, hkb]; omega
  | ⟨2, _⟩ => show win1_0.index t 2 * 2048 + 1 * (x 2).val = (k 2).val; rw [ec, hkc]; omega

/-- The embedding window's block at point t, at an entry: the array at row 2048 * (t % 2) + the block's row. -/
theorem blk_emb_apply1 (c : Dev nD) (t : Fin cfg1.N) (x : S2048x128.Idx) (k : S4096x128.Idx)
    (hka : (k 0).val = 2048 * (t.val % 2) + (x 0).val) (hkb : (k 1).val = (x 1).val) :
    (iblk1 V c 1 t : Vec Ideal S2048x128 .f32) x = (V c main_v0 : S4096x128.Idx → Elt Ideal .f32) k := by
  obtain ⟨-, -, -, ea, eb, -⟩ := idx_facts1 t
  unfold iblk1
  rw [View.read_apply]
  show V c main_v0 _ = V c main_v0 _
  congr 1
  funext a
  apply Fin.ext
  match a with
  | ⟨0, _⟩ => show win1_1.index t 0 * 2048 + 1 * (x 0).val = (k 0).val; rw [ea, hka]; omega
  | ⟨1, _⟩ => show win1_1.index t 1 * 128 + 1 * (x 1).val = (k 1).val; rw [eb, hkb]; omega

/-- The transform window's block at point t, at an entry: the array at relation (t / 2) % 8. -/
theorem blk_rel_apply1 (c : Dev nD) (t : Fin cfg1.N) (x : S1x128x128.Idx) (k : S8x128x128.Idx)
    (hka : (k 0).val = (t.val / 2) % 8) (hkb : (k 1).val = (x 1).val) (hkc : (k 2).val = (x 2).val) :
    (iblk1 V c 2 t : Vec Ideal S1x128x128 .f32) x = (V c main_arg2 : S8x128x128.Idx → Elt Ideal .f32) k := by
  obtain ⟨-, -, -, -, -, ea, eb, ec, -⟩ := idx_facts1 t
  have hxa : (x 0).val < 1 := (x 0).isLt
  unfold iblk1
  rw [View.read_apply]
  show V c main_arg2 _ = V c main_arg2 _
  congr 1
  funext a
  apply Fin.ext
  match a with
  | ⟨0, _⟩ => show win1_2.index t 0 * 1 + 1 * (x 0).val = (k 0).val; rw [ea, hka]; omega
  | ⟨1, _⟩ => show win1_2.index t 1 * 128 + 1 * (x 1).val = (k 1).val; rw [eb, hkb]; omega
  | ⟨2, _⟩ => show win1_2.index t 2 * 128 + 1 * (x 2).val = (k 2).val; rw [ec, hkc]; omega

/-- A sum over the 4096 columns is the sum over the two halves of the sums over each half's 2048 columns. -/
theorem sum_halves1 (f : Fin 4096 → EReal) :
    ∑ i : Fin 4096, f i = ∑ k : Fin 2, ∑ j : Fin 2048, f ⟨k.val * 2048 + j.val, by omega⟩ :=
  Cert.Lib.Tiles.sum_tiles 2 2048 f

/-- A row block's output, when the points' blocks are the arrays' blocks: the layer's value at the row block's rows. -/
theorem layer_block1 (adj : Cert.Gcn.Adj) (emb : Cert.Gcn.Emb) (rel : Cert.Gcn.Rel)
    (X3 : ℕ → Vec Ideal S1x1024x2048 .f32) (X4 : ℕ → Vec Ideal S2048x128 .f32) (X5 : ℕ → Vec Ideal S1x128x128 .f32)
    (nb : ℕ) (hnb : nb < 4)
    (h3 : ∀ (r : Fin 8) (k : Fin 2) (p : Fin 1024) (j : Fin 2048),
      X3 (16 * nb + 2 * r.val + k.val) (ix3 0 p j)
        = adj (ix3 r (⟨1024 * nb + p.val, by omega⟩ : Fin 4096) (⟨k.val * 2048 + j.val, by omega⟩ : Fin 4096)))
    (h4 : ∀ (r : Fin 8) (k : Fin 2) (j : Fin 2048) (e : Fin 128),
      X4 (16 * nb + 2 * r.val + k.val) (ix2 j e) = emb (ix2 (⟨k.val * 2048 + j.val, by omega⟩ : Fin 4096) e))
    (h5 : ∀ (r : Fin 8) (d e : Fin 128), X5 (16 * nb + 2 * r.val + 1) (ix3 0 d e) = rel (ix3 r d e))
    (p : Fin 1024) (d : Fin 128) :
    (run1 X3 X4 X5 (16 * nb + 15)).1 (ix2 p d)
      = Cert.Gcn.layerAt adj emb rel (⟨1024 * nb + p.val, by omega⟩ : Fin 4096) d := by
  rw [out_block1]
  unfold Cert.Gcn.layerAt Cert.Gcn.mix Cert.Gcn.agg
  refine congrArg (fun z => max (z * Ideal.ofBits .f32 0x3E000000#32) (Ideal.ofBits .f32 0x00000000#32)) ?_
  refine Finset.sum_congr rfl fun r _ => Finset.sum_congr rfl fun e _ => ?_
  rw [h5 r d e, sum_halves1]
  refine congrArg (fun z => z * rel (ix3 r d e)) ?_
  refine Finset.sum_congr rfl fun k _ => Finset.sum_congr rfl fun j _ => ?_
  rw [h3 r k p j, h4 r k j e]

/-- The output block after a row block's last point is the layer of the arrays the region found, at the row block's
    rows. -/
theorem outs_last1 (c : Dev nD) (nb : ℕ) (hnb : nb < 4) (p : Fin 1024) (d : Fin 128) :
    (outs1 V c (16 * nb + 15)).1 (ix2 p d)
      = Cert.Gcn.layerAt (V c main_arg0) (V c main_v0) (V c main_arg2) (⟨1024 * nb + p.val, by omega⟩ : Fin 4096) d := by
  have hN : cfg1.N = 64 := N_1
  unfold outs1
  refine layer_block1 (V c main_arg0) (V c main_v0) (V c main_arg2) _ _ _ nb hnb ?_ ?_ ?_ p d
  · intro r k p j
    have hlt : 16 * nb + 2 * r.val + k.val < cfg1.N := by rw [hN]; omega
    refine (congrFun (X3at1_lt V c ⟨_, hlt⟩) _).trans (blk_adj_apply1 V c ⟨_, hlt⟩ _ _ ?_ ?_ ?_)
    · show r.val = (16 * nb + 2 * r.val + k.val) / 2 % 8; omega
    · show 1024 * nb + p.val = 1024 * ((16 * nb + 2 * r.val + k.val) / 16) + p.val; omega
    · show k.val * 2048 + j.val = 2048 * ((16 * nb + 2 * r.val + k.val) % 2) + j.val; omega
  · intro r k j e
    have hlt : 16 * nb + 2 * r.val + k.val < cfg1.N := by rw [hN]; omega
    refine (congrFun (X4at1_lt V c ⟨_, hlt⟩) _).trans (blk_emb_apply1 V c ⟨_, hlt⟩ _ _ ?_ ?_)
    · show k.val * 2048 + j.val = 2048 * ((16 * nb + 2 * r.val + k.val) % 2) + j.val; omega
    · rfl
  · intro r d e
    have hlt : 16 * nb + 2 * r.val + 1 < cfg1.N := by rw [hN]; omega
    refine (congrFun (X5at1_lt V c ⟨_, hlt⟩) _).trans (blk_rel_apply1 V c ⟨_, hlt⟩ _ _ ?_ ?_ ?_)
    · show r.val = (16 * nb + 2 * r.val + 1) / 2 % 8; omega
    · rfl
    · rfl

/-- What a row block's last point writes back is its block of the layer of the arrays the region found. -/
theorem flushed_eq1 (c : Dev nD) (t : Fin cfg1.N) (hf : (cfg1.win 3).flush t = true) :
    (dat1 V c).flushed 3 t = ((cfg1.win 3).blk t).view.read (Elt Ideal)
      (Cert.Gcn.layer (V c main_arg0) (V c main_v0) (V c main_arg2)) := by
  have hN : cfg1.N = 64 := N_1
  have h15 : t.val % 16 = 15 := (flush1_3 t).mp hf
  have htlt : t.val < 64 := lt_of_lt_of_eq t.isLt hN
  obtain ⟨nb, ht⟩ : ∃ nb, t.val = 16 * nb + 15 := ⟨t.val / 16, by omega⟩
  have hnb : nb < 4 := by omega
  obtain ⟨-, -, -, -, -, -, -, -, ea, eb⟩ := idx_facts1 t
  show (cfg1.win 3).cut (grid1.coords t) ((dat1 V c).after 3 t) = _
  rw [after1_3]
  funext j
  obtain ⟨p, d, rfl⟩ : ∃ (p : Fin 1024) (d : Fin 128), j = ix2 p d := ⟨j 0, j 1, eq_ix2 j⟩
  rw [View.read_apply]
  have hemb : ((cfg1.win 3).blk t).view.emb (ix2 p d) = (ix2 (⟨1024 * nb + p.val, by omega⟩ : Fin 4096) d : S4096x128.Idx) := by
    funext a
    apply Fin.ext
    match a with
    | ⟨0, _⟩ => show win1_3.index t 0 * 1024 + 1 * p.val = 1024 * nb + p.val; rw [ea]; omega
    | ⟨1, _⟩ => show win1_3.index t 1 * 128 + 1 * d.val = d.val; rw [eb]; omega
  rw [hemb, Cert.Gcn.layer_ix2]
  show (outs1 V c t.val).1 (ix2 p d) = _
  rw [ht]
  exact outs_last1 V c nb hnb p d

/-- The result array after the region is one layer of the specification of the three arrays the region found: every
    row lies in the block its row block's last point writes back. -/
theorem final1 (c : Dev nD) :
    (dat1 (F := Ideal) V c).arrAt 3 cfg1.N = Cert.Gcn.layer (V c main_arg0) (V c main_v0) (V c main_arg2) :=
  (dat1 V c).arrAt_eq_of_cover 3 (Cert.Gcn.layer (V c main_arg0) (V c main_v0) (V c main_arg2)) (flushed_eq1 V c) fun i => by
    have hN : cfg1.N = 64 := N_1
    have hia : (i 0 : ℕ) < 4096 := (i 0).isLt
    have hib : (i 1 : ℕ) < 128 := (i 1).isLt
    have hlt : 16 * ((i 0 : ℕ) / 1024) + 15 < cfg1.N := by rw [hN]; omega
    obtain ⟨-, -, -, -, -, -, -, -, ea, eb⟩ := idx_facts1 ⟨_, hlt⟩
    refine ⟨⟨_, hlt⟩, (flush1_3 ⟨_, hlt⟩).mpr (by show (16 * ((i 0 : ℕ) / 1024) + 15) % 16 = 15; omega), ?_⟩
    show i ∈ ((View.whole main_v1).slice (win1_3.rect ⟨_, hlt⟩)).set
    rw [View.set_slice_whole, Rect.mem_set_unit]
    intro a
    match a with
    | ⟨0, _⟩ =>
      show win1_3.index ⟨_, hlt⟩ 0 * 1024 ≤ (i 0 : ℕ) ∧ (i 0 : ℕ) < win1_3.index ⟨_, hlt⟩ 0 * 1024 + 1024
      rw [ea]
      show (16 * ((i 0 : ℕ) / 1024) + 15) / 16 * 1024 ≤ (i 0 : ℕ) ∧ (i 0 : ℕ) < (16 * ((i 0 : ℕ) / 1024) + 15) / 16 * 1024 + 1024
      omega
    | ⟨1, _⟩ =>
      show win1_3.index ⟨_, hlt⟩ 1 * 128 ≤ (i 1 : ℕ) ∧ (i 1 : ℕ) < win1_3.index ⟨_, hlt⟩ 1 * 128 + 128
      rw [eb]
      omega

end Cert.KernelIdeal.Hand

end
-- ==== Proof.RefConsts.lean ====
/-
  The three binary32 words the reference and the specification spell, as the extended reals they denote:
  0x41000000 is the real 8 (the divisor of the mean over the eight relations), 0x3E000000 is exactly one
  eighth (the factor the specification multiplies by), and the zero word is 0. One module evaluates them all.
-/
import Idealize.ShloMosaic.PureOps.Ideal

noncomputable section

namespace Cert.Gcn.Ref

open Idealize.ShloMosaic

/-- The word 0x41000000 denotes the real 8. -/
theorem ofBits_eight : Ideal.ofBits .f32 0x41000000#32 = ((8 : ℝ) : EReal) := by
  simp [Ideal.ofBits, Ideal.ieee, -EReal.coe_mul]; norm_num

/-- The word 0x3E000000 denotes exactly one eighth. -/
theorem ofBits_eighth : Ideal.ofBits .f32 0x3E000000#32 = ((1 / 8 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- Dividing by the word for 8 is multiplying by the word for one eighth, on every extended real. -/
theorem div_eight (x : EReal) :
    Ideal.div x (Ideal.ofBits .f32 0x41000000#32) = x * Ideal.ofBits .f32 0x3E000000#32 := by
  rw [ofBits_eight, ofBits_eighth]
  exact Ideal.div_coe (by norm_num : (8 : ℝ) ≠ 0) x

end Cert.Gcn.Ref

end
-- ==== Proof.RefLayer.lean ====
/-
  One layer of the reference, read at an index, is one layer of the specification.
  The reference forms, for an adjacency stack adj, an embedding emb and transforms rel,
    first product   t0(r, p, e) = sum over j of adj(r, p, j) * emb(j, e)          (contracting adj's last axis with emb's first)
    second product  t1(r, p, d) = sum over e of t0(r, p, e) * rel(r, d, e)        (relation r is a batch axis; both last axes contracted)
    sum over r      t2(p, d)    = 0 + sum over r of t1(r, p, d)
    mean and relu   max (t2(p, d) / 8) 0.
  These are the specification's agg, mix and layerAt once 0 + s = s and the quotient by the real 8 is written as
  the product with one eighth, which holds on every extended real, so no entry needs to be finite.
-/
import proofs.«120576_j88519275970865_1_alg».proof.Proof.Spec
import proofs.«120576_j88519275970865_1_alg».proof.Proof.RefConsts
import proofs.«120576_j88519275970865_1_alg».proof.Proof.Gen.ReferenceIdeal.Read

noncomputable section

open scoped BigOperators

namespace Cert.Gcn.Ref

open Cert.ReferenceIdeal Cert.ReferenceIdeal.Gen Cert.ReferenceIdeal.Read Idealize.ShloMosaic Idealize.ShloMosaic.ValueIdx

/-- The first product at (r, p, e): the messages gathered along relation r into row p, feature e. -/
theorem first_product_at (adj : Adj) (emb : Emb) (r : Fin 8) (p : Fin 4096) (e : Fin 128) :
    val_main_v0 (F := Ideal) adj emb (ix3 r p e) = agg adj emb r p e := by
  rw [val_main_v0_apply]
  unfold agg
  refine Finset.sum_congr rfl fun j _ => ?_
  have hl : lidx_main_v0 (ix3 r p e) j = ix3 r p j := funext fun a => Fin.ext (by
    match a with
    | ⟨0, _⟩ => rfl
    | ⟨1, _⟩ => rfl
    | ⟨2, _⟩ => rfl)
  have hr : ridx_main_v0 (ix3 r p e) j = ix2 j e := funext fun a => Fin.ext (by
    match a with
    | ⟨0, _⟩ => rfl
    | ⟨1, _⟩ => rfl)
  rw [hl, hr]

/-- The second product at (r, p, d): relation r's gathered messages through its transform, contracted on the
    transform's second axis. -/
theorem second_product_at (adj : Adj) (emb : Emb) (rel : Rel) (r : Fin 8) (p : Fin 4096) (d : Fin 128) :
    val_main_v1 (F := Ideal) adj emb rel (ix3 r p d) = ∑ e : Fin 128, agg adj emb r p e * rel (ix3 r d e) := by
  rw [val_main_v1_apply]
  refine Finset.sum_congr rfl fun e _ => ?_
  have hl : lidx_main_v1 (ix3 r p d) e = ix3 r p e := funext fun a => Fin.ext (by
    match a with
    | ⟨0, _⟩ => rfl
    | ⟨1, _⟩ => rfl
    | ⟨2, _⟩ => rfl)
  have hr : ridx_main_v1 (ix3 r p d) e = ix3 r d e := funext fun a => Fin.ext (by
    match a with
    | ⟨0, _⟩ => rfl
    | ⟨1, _⟩ => rfl
    | ⟨2, _⟩ => rfl)
  rw [hl, hr, first_product_at]

/-- The sum over the relations at (p, d): the zero word plus the specification's mix. -/
theorem relation_sum_at (adj : Adj) (emb : Emb) (rel : Rel) (p : Fin 4096) (d : Fin 128) :
    val_main_v2 (F := Ideal) adj emb rel (ix2 p d)
      = Ideal.ofBits .f32 0x00000000#32 + mix adj emb rel p d := by
  rw [val_main_v2_apply, val_main_cst_apply, Ideal.ofBits_def]
  unfold mix
  refine congrArg (_ + ·) (Finset.sum_congr rfl fun r _ => ?_)
  have hi : idx_main_v2 (ix2 p d) r = ix3 r p d := funext fun a => Fin.ext (by
    match a with
    | ⟨0, _⟩ => rfl
    | ⟨1, _⟩ => rfl
    | ⟨2, _⟩ => rfl)
  rw [hi, second_product_at]

/-- One entry of the reference's layer is the specification's: 0 + s = s, and the quotient by 8 is the product
    with one eighth. -/
theorem layer_at (adj : Adj) (emb : Emb) (rel : Rel) (p : Fin 4096) (d : Fin 128) :
    val_main_v5 (F := Ideal) adj emb rel (ix2 p d) = layerAt adj emb rel p d := by
  rw [val_main_v5_apply, val_main_v4_apply, relation_sum_at, val_main_v3_apply, val_main_cst_0_apply,
    val_main_call0_v0_apply, val_main_call0_cst_apply]
  simp only [Ideal.maximumf_def, Ideal.hostDivf_def, Ideal.ofBits_def]
  unfold layerAt
  rw [ofBits_zero, zero_add, div_eight]

/-- One layer of the reference, as an array, is the specification's layer. -/
theorem layer_eq (adj : Adj) (emb : Emb) (rel : Rel) :
    val_main_v5 (F := Ideal) adj emb rel = layer adj emb rel := by
  funext i
  obtain ⟨p, d, rfl⟩ : ∃ (p : Fin 4096) (d : Fin 128), i = ix2 p d := ⟨i 0, i 1, eq_ix2 i⟩
  rw [layer_ix2]
  exact layer_at adj emb rel p d

end Cert.Gcn.Ref

end
-- ==== Proof.RefNet.lean ====
/-
  The reference's whole result is the specification's two-layer network.
  The reference applies the same five operations twice: two products, the sum over the eight relations from
  zero, the quotient by 8, and the maximum with zero; the second application reads the first's result as its
  embedding. Each application is one layer of the specification, so the composed term of the three argument
  arrays is layer adj (layer adj emb rel) rel.
-/
import proofs.«120576_j88519275970865_1_alg».proof.Proof.RefLayer

noncomputable section

namespace Cert.Gcn.Ref

open Cert.ReferenceIdeal Cert.ReferenceIdeal.Gen Cert.ReferenceIdeal.Read Idealize.ShloMosaic Idealize.ShloMosaic.ValueIdx

/-- The second application's stages are the first's with the first layer's result in the embedding's place. -/
theorem second_is_first (adj : Adj) (emb : Emb) (rel : Rel) :
    val_main_v11 (F := Ideal) adj emb rel
      = val_main_v5 (F := Ideal) adj (val_main_v5 (F := Ideal) adj emb rel) rel := rfl

/-- The last stage of the reference, as a function of the three argument arrays, is the two-layer network. -/
theorem stages_net (adj : Adj) (emb : Emb) (rel : Rel) :
    val_main_v11 (F := Ideal) adj emb rel = net adj emb rel := by
  rw [second_is_first, layer_eq adj emb rel, layer_eq adj (layer adj emb rel) rel]
  rfl

/-- The reference's composed term of the three argument arrays is the two-layer network. -/
theorem ref_net (a0 : Adj) (a1 : Emb) (a2 : Rel) :
    maximumf (F := Ideal) (Host.divf (F := Ideal) (Host.reduceAdd (F := Ideal) (Host.dotGeneral (F := Ideal) (φ₁ := .f32) (φ₂ := .f32) dot_S8x4096x128_S8x128x128_S8x4096x128_2_2_1_1_0_0 none (Host.dotGeneral (F := Ideal) (φ₁ := .f32) (φ₂ := .f32) dot_S8x4096x4096_S4096x128_S8x4096x128_2_0_01_1_n_n none a0 (maximumf (F := Ideal) (Host.divf (F := Ideal) (Host.reduceAdd (F := Ideal) (Host.dotGeneral (F := Ideal) (φ₁ := .f32) (φ₂ := .f32) dot_S8x4096x128_S8x128x128_S8x4096x128_2_2_1_1_0_0 none (Host.dotGeneral (F := Ideal) (φ₁ := .f32) (φ₂ := .f32) dot_S8x4096x4096_S4096x128_S8x4096x128_2_0_01_1_n_n none a0 a1) a2) (constant (F := Ideal) S_ .f32 0x00000000#32) reducesTo_S8x4096x128_S4096x128_d0 h_S_) (broadcastInDim S4096x128 ![] bcast_S_S4096x128 (constant (F := Ideal) S_ .f32 0x41000000#32))) (broadcastInDim S4096x128 ![] bcast_S_S4096x128 (constant (F := Ideal) S_ .f32 0x00000000#32)))) a2) (constant (F := Ideal) S_ .f32 0x00000000#32) reducesTo_S8x4096x128_S4096x128_d0 h_S_) (broadcastInDim S4096x128 ![] bcast_S_S4096x128 (constant (F := Ideal) S_ .f32 0x41000000#32))) (broadcastInDim S4096x128 ![] bcast_S_S4096x128 (constant (F := Ideal) S_ .f32 0x00000000#32))
      = net a0 a1 a2 :=
  (val_main_v11_eq (F := Ideal) a0 a1 a2).trans (stages_net a0 a1 a2)

end Cert.Gcn.Ref

end
-- ==== Proof.Alg.lean ====
/-
  The algebraic claim: at the ideal instance the kernel program and the reference end with the same result array.
  Kernel side: the result buffer ends at what the second layer call's write-backs leave, which is one layer of the
  specification of the arrays that call found — the adjacency stack and the transforms as launched, and for the embedding
  the first call's result, itself one layer of the launched arrays: the two-layer network of the arguments.
  Reference side: its run's composed term of the arguments is the same network. Both runs leave the arguments as found.
-/
import proofs.«120576_j88519275970865_1_alg».proof.Defs
import proofs.«120576_j88519275970865_1_alg».proof.Proof.KI.Main
import proofs.«120576_j88519275970865_1_alg».proof.Proof.KI.Val0
import proofs.«120576_j88519275970865_1_alg».proof.Proof.KI.Val1
import proofs.«120576_j88519275970865_1_alg».proof.Proof.RefNet
import proofs.«120576_j88519275970865_1_alg».proof.Proof.Gen.ReferenceIdeal.Run
import proofs.«120576_j88519275970865_1_alg».proof.Proof.Gen.Pre_finite_inputs

noncomputable section

namespace Cert.Proof.Alg

open Idealize.ShloMosaic Idealize.ShloMosaic.TcCoe Idealize.SL.Sem
open Cert.KernelIdeal Cert.KernelIdeal.Gen Cert.KernelIdeal.Hand

/-- What the second call's write-backs leave in the result array is the two-layer network of the launched arguments. -/
theorem kernel_net (m : (ℓ : Loc nD τ sig) → Buf (Elt Ideal) ℓ) (c : Dev nD) :
    (dat1 (F := Ideal) (VB m) c).arrAt 3 cfg1.N
      = Cert.Gcn.net (m ((c.tc : Thread nD τ).loc main_arg0)) (m ((c.tc : Thread nD τ).loc main_arg1)) (m ((c.tc : Thread nD τ).loc main_arg2)) := by
  rw [final1 (VB m) c]
  show Cert.Gcn.layer (WB m c (Proc.devRef .tc main_arg0)) (WB m c (Proc.devRef .tc main_v0)) (WB m c (Proc.devRef .tc main_arg2)) = _
  rw [WB_main_arg0, WB_main_arg2, WB_main_v0, final0 (VA m) c]
  rfl

theorem algebraic : Cert.algebraic_KernelIdeal_ReferenceIdeal := by
  intro m ρ m' ρ' _ hagree
  refine ⟨fun c => Cert.Gcn.net (m ((c.tc : Thread nD τ).loc main_arg0)) (m ((c.tc : Thread nD τ).loc main_arg1)) (m ((c.tc : Thread nD τ).loc main_arg2)), ?_, ?_⟩
  · exact (θ_run Cert.KernelIdeal.defs _ _).mono (fun _ h c => ⟨(h c).1.trans (kernel_net m c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, (hagree c).1, (hagree c).2.1, (hagree c).2.2]
    exact Cert.Gcn.Ref.ref_net _ _ _

end Cert.Proof.Alg

end
-- ==== Proof.lean ====
/-
  The certificate of a two-layer relational graph convolution: a Pallas kernel applied twice against its jnp reference.
  One layer, per relation r of 8: gather messages agg_r = adj_r · emb, pass them through the relation's transform
  (agg_r · rel_rᵀ), average over the relations and take the positive part. The kernel walks a grid of (row block,
  relation, contraction half): it accumulates adj_r · emb over the two halves in one scratch accumulator, adds each
  completed relation's transformed messages into a second one, and at a row block's last point stores
  max (sum · (1/8)) 0. At the ideal instance the casts to bf16 are the identity, 0.125 is exactly one eighth, and the two
  programs differ only in how the sums are grouped, so no entry needs to be finite.
  The three frames: both kernel programs by the launch over their two layer calls as segments (each call's body
  obligation a split into its four control cases; the two accumulators carried in the calls' invariant), the reference
  by its run. The ideal pass rewrote nothing, so `preserves` is trivial. The algebraic claim is Proof/Alg.lean.
-/
import proofs.«120576_j88519275970865_1_alg».proof.Defs
import proofs.«120576_j88519275970865_1_alg».proof.Proof.Gen.Kernel
import proofs.«120576_j88519275970865_1_alg».proof.Proof.Gen.KernelIdeal
import proofs.«120576_j88519275970865_1_alg».proof.Proof.Gen.ReferenceIdeal
import proofs.«120576_j88519275970865_1_alg».proof.Proof.Gen.ReferenceIdeal.Run
import proofs.«120576_j88519275970865_1_alg».proof.Proof.Gen.ReferenceIdeal.Read
import proofs.«120576_j88519275970865_1_alg».proof.Proof.Gen.Pre_finite_inputs
import proofs.«120576_j88519275970865_1_alg».proof.Proof.K.Main
import proofs.«120576_j88519275970865_1_alg».proof.Proof.KI.Main
import proofs.«120576_j88519275970865_1_alg».proof.Proof.Alg
import Idealize.ShloMosaic.Adequacy
import Idealize.ShloMosaic.Init

noncomputable section

namespace Cert.Proof

open Idealize.ShloMosaic Idealize.SL.Sem

/-- The word-level program terminates, faults nowhere and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
